-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1600000 : Shape := ⟨1, ![1600000]⟩
abbrev S100000 : Shape := ⟨1, ![100000]⟩
abbrev S1x64 : Shape := ⟨2, ![1, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S64 .f32) (main_arg7 : FVec F S64 .f32) (main_arg8 : FVec F S64x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg8
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg9 main_v33

def fn {F : FTy → Type} [FloatOps F] (main_arg0 : FVec F S100000x1 .f32) (main_arg1 : IVec S2x1600000 32) (main_arg2 : FVec F S1600000 .f32) (main_arg3 : IVec S100000 32) (main_arg4 : FVec F S1x64 .f32) (main_arg5 : FVec F S64 .f32) (main_arg6 : FVec F S64 .f32) (main_arg7 : FVec F S64 .f32) (main_arg8 : FVec F S64x2 .f32) (main_arg9 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x1 : Shape := ⟨2, ![100000, 1]⟩
abbrev S2x1600000 : Shape := ⟨2, ![2, 1600000]⟩
abbrev S1600000 : Shape := ⟨1, ![1600000]⟩
abbrev S100000 : Shape := ⟨1, ![100000]⟩
abbrev S1x64 : Shape := ⟨2, ![1, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x2 : Shape := ⟨2, ![1700000, 2]⟩
abbrev S1 : Shape := ⟨1, ![1]⟩
abbrev S100000x2 : Shape := ⟨2, ![100000, 2]⟩
abbrev S10000x1 : Shape := ⟨2, ![10000, 1]⟩
abbrev S10000x2 : Shape := ⟨2, ![10000, 2]⟩
abbrev S10000x64 : Shape := ⟨2, ![10000, 64]⟩
abbrev S1x2 : Shape := ⟨2, ![1, 2]⟩
abbrev S64x1 : Shape := ⟨2, ![64, 1]⟩

abbrev nBuf : Space → Nat
  | .hbm => 142
  | .vmem => 11
  | .smem => 0
  | _ => 0

abbrev hbmTy0_0 (i : Nat) : BufTy := match i % 128 with
  | 0 => ⟨S100000x1, .f32⟩
  | 1 => ⟨S2x1600000, .i32⟩
  | 2 => ⟨S1600000, .f32⟩
  | 3 => ⟨S100000, .i32⟩
  | 4 => ⟨S1x64, .f32⟩
  | 5 => ⟨S64, .f32⟩
  | 6 => ⟨S64, .f32⟩
  | 7 => ⟨S64, .f32⟩
  | 8 => ⟨S64x2, .f32⟩
  | 9 => ⟨S2, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S_, .i32⟩
  | 60 => ⟨S1700000, .i32⟩
  | 61 => ⟨S1700000, .i32⟩
  | 62 => ⟨S1700000x1, .i32⟩
  | 63 => ⟨S1700000x1, .i32⟩
  | 64 => ⟨S1700000x2, .i32⟩
  | 65 => ⟨S1700000, .f32⟩
  | 66 => ⟨S1700000, .f32⟩
  | 67 => ⟨S_, .f32⟩
  | 68 => ⟨S100000, .f32⟩
  | 69 => ⟨S1700000x1, .i32⟩
  | 70 => ⟨S100000, .f32⟩
  | 71 => ⟨S_, .f32⟩
  | 72 => ⟨S_, .f32⟩
  | 73 => ⟨S_, .f32⟩
  | 74 => ⟨S_, .f32⟩
  | 75 => ⟨S_, .i32⟩
  | 76 => ⟨S_, .f32⟩
  | 77 => ⟨S_, .f32⟩
  | 78 => ⟨S1, .f32⟩
  | 79 => ⟨S_, .f32⟩
  | 80 => ⟨S1, .f32⟩
  | 81 => ⟨S1, .f32⟩
  | 82 => ⟨S100000, .f32⟩
  | 83 => ⟨S100000, .f32⟩
  | 84 => ⟨S100000, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .i1⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S64, .f32⟩
  | 100 => ⟨S64, .f32⟩
  | 101 => ⟨S64, .f32⟩
  | 102 => ⟨S64, .f32⟩
  | 103 => ⟨S64, .f32⟩
  | 104 => ⟨S64, .f32⟩
  | 105 => ⟨S100000x1, .f32⟩
  | 106 => ⟨S100000x2, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x2, .f32⟩
  | 116 => ⟨S1700000x1, .f32⟩
  | 117 => ⟨S1700000x2, .f32⟩
  | 118 => ⟨S1700000x2, .f32⟩
  | 119 => ⟨S_, .f32⟩
  | 120 => ⟨S100000x2, .f32⟩
  | 121 => ⟨S1700000x1, .i32⟩
  | 122 => ⟨S100000x2, .f32⟩
  | 123 => ⟨S1x2, .f32⟩
  | 124 => ⟨S100000x2, .f32⟩
  | 125 => ⟨S100000x2, .f32⟩
  | 126 => ⟨S_, .f32⟩
  | 127 => ⟨S64x2, .f32⟩
  | _ => ⟨S100000x1, .f32⟩

abbrev hbmTy0_1 (i : Nat) : BufTy := match i % 128 with
  | 0 => ⟨S100000x1, .i32⟩
  | 1 => ⟨S64x2, .f32⟩
  | 2 => ⟨S_, .f32⟩
  | 3 => ⟨S100000, .f32⟩
  | 4 => ⟨S_, .f32⟩
  | 5 => ⟨S64, .f32⟩
  | 6 => ⟨S100000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x2, .f32⟩
  | 13 => ⟨S64x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64x2, .f32⟩
  | .local _ .vmem, ⟨9, _⟩ => ⟨S10000x2, .f32⟩
  | .local _ .vmem, ⟨10, _⟩ => ⟨S10000x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_c_12 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_cst_3 : Ref sig .tc := ⟨.hbm, 91, rfl⟩
abbrev main_call1_v11 : Ref sig .tc := ⟨.hbm, 92, rfl⟩
abbrev main_call1_cst_4 : Ref sig .tc := ⟨.hbm, 93, rfl⟩
abbrev main_call1_call0_v0 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_13 : Ref sig .tc := ⟨.hbm, 107, rfl⟩
abbrev main_v61 : Ref sig .tc := ⟨.hbm, 108, rfl⟩
abbrev main_v62 : Ref sig .tc := ⟨.hbm, 109, rfl⟩
abbrev main_c_14 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_15 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_16 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_17 : Ref sig .tc := ⟨.hbm, 130, rfl⟩
abbrev main_v80 : Ref sig .tc := ⟨.hbm, 131, rfl⟩
abbrev main_cst_18 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_19 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  concatenates_S1700000x1_S1700000x1_S1700000x2_d1 : Shape.Concatenates [S1700000x1, S1700000x1] S1700000x2 1
  reducesTo_S100000_S_d0 : S100000.ReducesTo [0] S_
  h_S_ : 0 < S_.numel
  bcast_S_S1 : S_.BroadcastsInDim S1 (![] : Fin 0 → Fin S1.rank)
  bcast_S1_S100000_0 : S1.BroadcastsInDim S100000 (![0] : Fin 1 → Fin S100000.rank)
  shapeCasts_S1x64_S64 : S1x64.ShapeCasts S64
  bcast_S_S64 : S_.BroadcastsInDim S64 (![] : Fin 0 → Fin S64.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  broadcasts_S10000x1_S10000x64 : S10000x1.Broadcasts S10000x64
  broadcasts_S1x64_S10000x64 : S1x64.Broadcasts S10000x64
  inb_S64_S64_0 : ∀ a, (![0] : Fin 1 → Nat) a + S64.size a ≤ S64.size a
  h_S64 : 0 < S64.numel
  shapeCasts_S64_S1x64 : S64.ShapeCasts S1x64
  shapeCasts_S64_S64 : S64.ShapeCasts S64
  bitsLt_bf16_f32 : FTy.bits .bf16 < FTy.bits .f32
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S64x2 : S_.BroadcastsInDim S64x2 (![] : Fin 0 → Fin S64x2.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x1_S1700000x2_S1700000_n_01_n_n_01_1_11_wf : GatherDims.WF S100000x1 S1700000x2 S1700000 [] [0, 1] [] [0, 1] [] 1 ![1, 1]
  dot_S10000x64_S64x2_S10000x2_1_0_0_1_n_n_wf : DotDims.WF S10000x64 S64x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x2.size a ≤ S64x2.size a
  hwx0_7 : ∀ i : grid0.Coords, EltTy.bits .f32 = 32 ∨ (Rect.block (s := S64x2) S64x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x2.size a ≤ S100000x2.size a
  hwx0_8 : ∀ i : grid0.Coords, EltTy.bits .f32 = 32 ∨ (Rect.block (s := S100000x2) S10000x2.size (cc0_transform_8 i) (hinb0_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x1_S1700000x2_S1700000_n_01_n_n_01_1_11 : GatherDims S100000x1 S1700000x2 S1700000 where
  offsetDims := []
  collapsedSliceDims := [0, 1]
  operandBatchingDims := []
  startIndicesBatchingDims := []
  startIndexMap := [0, 1]
  indexVectorDim := 1
  sliceSizes := ![1, 1]
  wf := gather_S100000x1_S1700000x2_S1700000_n_01_n_n_01_1_11_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v59) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v60) S10000x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1600000 : Shape := ⟨1, ![1600000]⟩
abbrev S100000 : Shape := ⟨1, ![100000]⟩
abbrev S1x64 : Shape := ⟨2, ![1, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S100000x2 : Shape := ⟨2, ![100000, 2]⟩
abbrev S1700000x2 : Shape := ⟨2, ![1700000, 2]⟩
abbrev S1x2 : Shape := ⟨2, ![1, 2]⟩
abbrev S64x1 : Shape := ⟨2, ![64, 1]⟩

abbrev nBuf : Space → Nat
  | .hbm => 193
  | .vmem => 0
  | .smem => 0
  | _ => 0

abbrev hbmTy0_0 (i : Nat) : BufTy := match i % 128 with
  | 0 => ⟨S100000x1, .f32⟩
  | 1 => ⟨S2x1600000, .i32⟩
  | 2 => ⟨S1600000, .f32⟩
  | 3 => ⟨S100000, .i32⟩
  | 4 => ⟨S1x64, .f32⟩
  | 5 => ⟨S64, .f32⟩
  | 6 => ⟨S64, .f32⟩
  | 7 => ⟨S64, .f32⟩
  | 8 => ⟨S64x2, .f32⟩
  | 9 => ⟨S2, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x64, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x1, .f32⟩
  | 63 => ⟨S1700000x64, .f32⟩
  | 64 => ⟨S1700000x64, .f32⟩
  | 65 => ⟨S_, .f32⟩
  | 66 => ⟨S100000x64, .f32⟩
  | 67 => ⟨S1700000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S100000x64, .f32⟩
  | 85 => ⟨S100000x64, .f32⟩
  | 86 => ⟨S100000x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000, .i32⟩
  | 120 => ⟨S1700000, .i32⟩
  | 121 => ⟨S1700000, .i32⟩
  | 122 => ⟨S_, .f32⟩
  | 123 => ⟨S100000, .f32⟩
  | 124 => ⟨S1700000, .f32⟩
  | 125 => ⟨S_, .f32⟩
  | 126 => ⟨S100000, .f32⟩
  | 127 => ⟨S1700000x1, .i32⟩
  | _ => ⟨S100000x1, .f32⟩

abbrev hbmTy0_1 (i : Nat) : BufTy := match i % 128 with
  | 0 => ⟨S100000, .f32⟩
  | 1 => ⟨S_, .f32⟩
  | 2 => ⟨S100000, .f32⟩
  | 3 => ⟨S100000, .i1⟩
  | 4 => ⟨S100000, .f32⟩
  | 5 => ⟨S_, .f32⟩
  | 6 => ⟨S_, .f32⟩
  | 7 => ⟨S100000, .f32⟩
  | 8 => ⟨S100000, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000, .f32⟩
  | 18 => ⟨S1700000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S1700000, .f32⟩
  | 29 => ⟨S100000x2, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x2, .f32⟩
  | 39 => ⟨S1700000x1, .f32⟩
  | 40 => ⟨S1700000x2, .f32⟩
  | 41 => ⟨S1700000x2, .f32⟩
  | 42 => ⟨S_, .f32⟩
  | 43 => ⟨S100000x2, .f32⟩
  | 44 => ⟨S1700000x1, .i32⟩
  | 45 => ⟨S100000x2, .f32⟩
  | 46 => ⟨S1x2, .f32⟩
  | 47 => ⟨S100000x2, .f32⟩
  | 48 => ⟨S100000x2, .f32⟩
  | 49 => ⟨S_, .f32⟩
  | 50 => ⟨S64x2, .f32⟩
  | 51 => ⟨S100000x1, .i32⟩
  | 52 => ⟨S64x2, .f32⟩
  | 53 => ⟨S_, .f32⟩
  | 54 => ⟨S100000, .f32⟩
  | 55 => ⟨S_, .f32⟩
  | 56 => ⟨S64, .f32⟩
  | 57 => ⟨S100000x1, .i32⟩
  | 58 => ⟨S64, .f32⟩
  | 59 => ⟨S_, .f32⟩
  | 60 => ⟨S64, .f32⟩
  | 61 => ⟨S64, .f32⟩
  | 62 => ⟨S64x1, .f32⟩
  | 63 => ⟨S64x2, .f32⟩
  | 64 => ⟨S64x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_12 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_call2_cst : Ref sig .tc := ⟨.hbm, 116, rfl⟩
abbrev main_call2_v0 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_13 : Ref sig .tc := ⟨.hbm, 122, rfl⟩
abbrev main_v72 : Ref sig .tc := ⟨.hbm, 123, rfl⟩
abbrev main_v73 : Ref sig .tc := ⟨.hbm, 124, rfl⟩
abbrev main_cst_14 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_15 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_16 : Ref sig .tc := ⟨.hbm, 133, rfl⟩
abbrev main_call3_v0 : Ref sig .tc := ⟨.hbm, 134, rfl⟩
abbrev main_call3_v1 : Ref sig .tc := ⟨.hbm, 135, rfl⟩
abbrev main_v80 : Ref sig .tc := ⟨.hbm, 136, rfl⟩
abbrev main_c_17 : Ref sig .tc := ⟨.hbm, 137, rfl⟩
abbrev main_v81 : Ref sig .tc := ⟨.hbm, 138, rfl⟩
abbrev main_v82 : Ref sig .tc := ⟨.hbm, 139, rfl⟩
abbrev main_c_18 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_c_19 : Ref sig .tc := ⟨.hbm, 147, rfl⟩
abbrev main_v89 : Ref sig .tc := ⟨.hbm, 148, rfl⟩
abbrev main_v90 : Ref sig .tc := ⟨.hbm, 149, rfl⟩
abbrev main_c_20 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_c_21 : Ref sig .tc := ⟨.hbm, 158, rfl⟩
abbrev main_v98 : Ref sig .tc := ⟨.hbm, 159, rfl⟩
abbrev main_v99 : Ref sig .tc := ⟨.hbm, 160, rfl⟩
abbrev main_c_22 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_cst_23 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_24 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_25 : Ref sig .tc := ⟨.hbm, 181, rfl⟩
abbrev main_v117 : Ref sig .tc := ⟨.hbm, 182, rfl⟩
abbrev main_cst_26 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_cst_27 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S64x2 : S_.BroadcastsInDim S64x2 (![] : Fin 0 → Fin S64x2.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x64_S100000x64_1_0_0_1_n_n_wf : DotDims.WF S100000x1 S1x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KerStageDefs.lean ====
/-
  The host side of the idealized kernel's program, read as pure functions of the argument arrays.

  Before its one region the program prepares, from the edge list, the edge weights and the node features: the
  source and target endpoint of every edge followed by one self-loop per node; every edge's weight followed by a
  one per self-loop; the reciprocal square root of each node's weighted in-degree (zero where the degree is not
  positive); the symmetric normalisation of every edge, the product of its weight with that factor at both its
  endpoints; the message every edge carries, its source's feature times its normalisation; and the sum of the
  messages arriving at each node. From that aggregate it takes the mean and the unbiased variance over the nodes
  and folds them through the first layer's weights into the two per-channel vectors the region's body reads.
  After the region it aggregates the region's two-channel result over the same edges, adds the bias, and averages
  the rows of every graph of the batch.

  Each stage is a small named function whose body is the stage's operations, one after the other, exactly as the
  program applies them; a later stage takes an earlier stage's value as an argument, or names it, and never
  repeats its body. That the program's buffers hold these functions of the argument arrays is proved in the module that
  reads the program's lines.
-/
import proofs.«118177_j11355893531063_2_alg».proof.Proof.Gen.KernelIdeal
import Idealize.ShloMosaic.PureOps.Ideal

noncomputable section

namespace Cert.KernelIdeal.KerStages

open Idealize.ShloMosaic
open Cert.KernelIdeal.Gen

/-! ## The stages -/

/-- An index below zero counts from the end of the hundred thousand nodes; any other index is kept. -/
def wrap (i : Vec Ideal S1700000 .i32) : Vec Ideal S1700000 .i32 :=
  select (cmpi .slt i (broadcastInDim S1700000 ![] bcast_S_S1700000 (constantI S_ 32 0#32)))
    (addi i (broadcastInDim S1700000 ![] bcast_S_S1700000 (constantI S_ 32 100000#32))) i

/-- Every edge's source node (row 0 of the edge list), then each node once: its self-loop. -/
def sIdx (e : Vec Ideal S2x1600000 .i32) : Vec Ideal S1700000 .i32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- Every edge's target node (row 1 of the edge list), then each node once. -/
def dIdx (e : Vec Ideal S2x1600000 .i32) : Vec Ideal S1700000 .i32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- Every edge's weight, then a one for each self-loop. -/
def wAll (w : Vec Ideal S1600000 .f32) : Vec Ideal S1700000 .f32 :=
  concatenate S1700000 0
    [⟨S1600000, w⟩,
     ⟨S100000, broadcastInDim S100000 ![] bcast_S_S100000 (constant (F := Ideal) S_ .f32 0x3F800000#32)⟩] concatenates_S1600000_S100000_S1700000_d0

/-- Each node's weighted in-degree: the weights of the edges (self-loop included) that end at it, summed. -/
def deg (e : Vec Ideal S2x1600000 .i32) (w : Vec Ideal S1600000 .f32) : Vec Ideal S100000 .f32 :=
  Host.scatterAdd (F := Ideal) (φ := .f32) scatter_S100000_S1700000x1_S1700000_n_0_0_1
    (broadcastInDim S100000 ![] bcast_S_S100000 (constant (F := Ideal) S_ .f32 0x00000000#32))
    (broadcastInDim S1700000x1 ![0] bcast_S1700000_S1700000x1_0 (dIdx e)) (wAll w)

/-- The reciprocal square root of a node's degree where the degree is positive, zero elsewhere. -/
def dinv (e : Vec Ideal S2x1600000 .i32) (w : Vec Ideal S1600000 .f32) : Vec Ideal S100000 .f32 :=
  select (cmpf (F := Ideal) (φ := .f32) .ogt (deg e w) (broadcastInDim S100000 ![] bcast_S_S100000 (constant (F := Ideal) S_ .f32 0x00000000#32)))
    (Host.rsqrt (F := Ideal) (φ := .f32) (deg e w))
    (broadcastInDim S100000 ![] bcast_S_S100000 (id (constant (F := Ideal) S_ .f32 0x00000000#32)))

/-- An edge's normalisation: its weight times the degree factor at its source and at its target. -/
def norm (e : Vec Ideal S2x1600000 .i32) (w : Vec Ideal S1600000 .f32) : Vec Ideal S1700000 .f32 :=
  mulf (F := Ideal) (φ := .f32)
    (mulf (F := Ideal) (φ := .f32) (Host.gather (α := Elt Ideal .f32) gather_S100000_S1700000x1_S1700000_n_0_n_n_0_1_1 (dinv e w)
        (broadcastInDim S1700000x1 ![0] bcast_S1700000_S1700000x1_0 (wrap (sIdx e)))) (wAll w))
    (Host.gather (α := Elt Ideal .f32) gather_S100000_S1700000x1_S1700000_n_0_n_n_0_1_1 (dinv e w)
      (broadcastInDim S1700000x1 ![0] bcast_S1700000_S1700000x1_0 (wrap (dIdx e))))

/-- The message an edge carries: its source node's feature times the edge's normalisation. -/
def msg (e : Vec Ideal S2x1600000 .i32) (w : Vec Ideal S1600000 .f32) (x : Vec Ideal S100000x1 .f32) : Vec Ideal S1700000 .f32 :=
  mulf (F := Ideal) (φ := .f32)
    (Host.gather (α := Elt Ideal .f32) gather_S100000x1_S1700000x2_S1700000_n_01_n_n_01_1_11 x
      (concatenate S1700000x2 1
        [⟨S1700000x1, broadcastInDim S1700000x1 ![0] bcast_S1700000_S1700000x1_0 (wrap (sIdx e))⟩,
         ⟨S1700000x1, broadcastInDim S1700000x1 ![0] bcast_S1700000_S1700000x1_0
            (id (broadcastInDim S1700000 ![] bcast_S_S1700000 (constantI S_ 32 0#32)))⟩]
        concatenates_S1700000x1_S1700000x1_S1700000x2_d1))
    (norm e w)

/-- The aggregate at each node: the messages of the edges (self-loop included) that end at it, summed. -/
def aAgg (e : Vec Ideal S2x1600000 .i32) (w : Vec Ideal S1600000 .f32) (x : Vec Ideal S100000x1 .f32) : Vec Ideal S100000 .f32 :=
  Host.scatterAdd (F := Ideal) (φ := .f32) scatter_S100000_S1700000x1_S1700000_n_0_0_1
    (broadcastInDim S100000 ![] bcast_S_S100000 (constant (F := Ideal) S_ .f32 0x00000000#32))
    (broadcastInDim S1700000x1 ![0] bcast_S1700000_S1700000x1_0 (dIdx e)) (msg e w x)

/-- The sum of an array over the nodes, started from zero. -/
def total (a : Vec Ideal S100000 .f32) : Vec Ideal S_ .f32 :=
  Host.reduceAdd (F := Ideal) (φ := .f32) a (constant (F := Ideal) S_ .f32 0x00000000#32) reducesTo_S100000_S_d0 h_S_

/-- The mean of the aggregate over the hundred thousand nodes. -/
def meanA (a : Vec Ideal S100000 .f32) : Vec Ideal S_ .f32 :=
  Host.divf (F := Ideal) (φ := .f32) (total a) (constant (F := Ideal) S_ .f32 0x47C35000#32)

/-- The aggregate with its mean (taken the variance function's way, through a one-element array) subtracted. -/
def centred (a : Vec Ideal S100000 .f32) : Vec Ideal S100000 .f32 :=
  subf (F := Ideal) (φ := .f32) a (broadcastInDim S100000 ![0] bcast_S1_S100000_0
    (Host.divf (F := Ideal) (φ := .f32) (broadcastInDim S1 ![] bcast_S_S1 (total a))
      (broadcastInDim S1 ![] bcast_S_S1 (constant (F := Ideal) S_ .f32 0x47C35000#32))))

/-- The variance's divisor: the number of nodes less the correction, which is the integer zero made a float. -/
def dof : Vec Ideal S_ .f32 :=
  subf (F := Ideal) (φ := .f32) (constant (F := Ideal) S_ .f32 0x47C35000#32) (sitofp (F := Ideal) .f32 (constantI S_ 32 0#32))

/-- The variance of the aggregate over the nodes: the squared deviations summed and divided by the divisor
    where that is positive, the not-a-number constant otherwise. -/
def varA (a : Vec Ideal S100000 .f32) : Vec Ideal S_ .f32 :=
  select (cmpf (F := Ideal) (φ := .f32) .ogt dof (constant (F := Ideal) S_ .f32 0x00000000#32))
    (Host.divf (F := Ideal) (φ := .f32) (total (mulf (F := Ideal) (φ := .f32) (centred a) (centred a))) dof)
    (id (constant (F := Ideal) S_ .f32 0x7FC00000#32))

/-- The mean of the first layer's pre-activation, per channel: the aggregate's mean times the weight, plus the bias. -/
def meanC (a : Vec Ideal S100000 .f32) (W1 : Vec Ideal S1x64 .f32) (b1 : Vec Ideal S64 .f32) : Vec Ideal S64 .f32 :=
  addf (F := Ideal) (φ := .f32) (mulf (F := Ideal) (φ := .f32) (broadcastInDim S64 ![] bcast_S_S64 (meanA a)) (shapeCast S64 W1 shapeCasts_S1x64_S64)) b1

/-- The variance of the first layer's pre-activation, per channel: the aggregate's variance times the squared weight. -/
def varC (a : Vec Ideal S100000 .f32) (W1 : Vec Ideal S1x64 .f32) : Vec Ideal S64 .f32 :=
  mulf (F := Ideal) (φ := .f32) (broadcastInDim S64 ![] bcast_S_S64 (varA a))
    (mulf (F := Ideal) (φ := .f32) (shapeCast S64 W1 shapeCasts_S1x64_S64) (shapeCast S64 W1 shapeCasts_S1x64_S64))

/-- The aggregate as a one-column matrix, the form the region reads it in. -/
def aCol (a : Vec Ideal S100000 .f32) : Vec Ideal S100000x1 .f32 :=
  shapeCast S100000x1 a shapeCasts_S100000_S100000x1

/-- After the region: the region's two-channel result `h2` gathered at every edge's source, scaled by the edge's
    normalisation and summed at the edge's target; the bias added; the rows of each graph of the batch summed and
    divided by the graph's node count (at least one). -/
def tail (s d : Vec Ideal S1700000 .i32) (nrm : Vec Ideal S1700000 .f32) (h2 : Vec Ideal S100000x2 .f32)
    (batch : Vec Ideal S100000 .i32) (b2 : Vec Ideal S2 .f32) : Vec Ideal S64x2 .f32 :=
  Host.divf (F := Ideal) (φ := .f32)
    (Host.scatterAdd (F := Ideal) (φ := .f32) scatter_S64x2_S100000x1_S100000x2_1_0_0_1
      (broadcastInDim S64x2 ![] bcast_S_S64x2 (constant (F := Ideal) S_ .f32 0x00000000#32))
      (broadcastInDim S100000x1 ![0] bcast_S100000_S100000x1_0 batch)
      (addf (F := Ideal) (φ := .f32)
        (Host.scatterAdd (F := Ideal) (φ := .f32) scatter_S100000x2_S1700000x1_S1700000x2_1_0_0_1
          (broadcastInDim S100000x2 ![] bcast_S_S100000x2 (constant (F := Ideal) S_ .f32 0x00000000#32))
          (broadcastInDim S1700000x1 ![0] bcast_S1700000_S1700000x1_0 d)
          (mulf (F := Ideal) (φ := .f32)
            (Host.gather (α := Elt Ideal .f32) gather_S100000x2_S1700000x1_S1700000x2_1_0_n_n_0_1_12 h2
              (broadcastInDim S1700000x1 ![0] bcast_S1700000_S1700000x1_0 (wrap s)))
            (broadcastInDim S1700000x2 ![0, 1] bcast_S1700000x1_S1700000x2_0_1
              (broadcastInDim S1700000x1 ![0] bcast_S1700000_S1700000x1_0 nrm))))
        (broadcastInDim S100000x2 ![0, 1] bcast_S1x2_S100000x2_0_1 (broadcastInDim S1x2 ![1] bcast_S2_S1x2_1 b2))))
    (broadcastInDim S64x2 ![0, 1] bcast_S64x1_S64x2_0_1
      (broadcastInDim S64x1 ![0] bcast_S64_S64x1_0
        (maximumf (F := Ideal) (φ := .f32)
          (Host.scatterAdd (F := Ideal) (φ := .f32) scatter_S64_S100000x1_S100000_n_0_0_1
            (broadcastInDim S64 ![] bcast_S_S64 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S64 ![] bcast_S_S64 (constant (F := Ideal) S_ .f32 0x3F800000#32)))))

end Cert.KernelIdeal.KerStages

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.LibTypedRefs.lean ====
/-
  Contents moved between a buffer's own type and the tensor type a typed reference carries.

  A typed reference is a buffer together with a proof that the buffer's type is a given tensor type; an operation
  spelt over typed references moves its operands' contents from the buffers' types to the tensor types and its result
  back. The two types are equal, so the moves are identities — up to the equality: the moved value is heterogeneously
  equal to the original (`toBuf_heq`), and contents that are heterogeneously equal to a value at the tensor type are
  moved to that value (`ofBuf_eq`). Proved for an arbitrary typed reference, these remove a move without ever
  computing a concrete buffer's type.
-/
import Idealize.ShloMosaic.Lib.StableHlo

namespace Idealize.ShloMosaic.StableHlo.TRef

variable {sig : RefSig} {Val : EltTy → Type} {T : BufTy}

/-- A value moved to the buffer's type is the same value. -/
theorem toBuf_heq (x : TRef sig T) (v : T.Contents Val) : HEq (x.toBuf v) v := by
  obtain ⟨r, rfl, _, _⟩ := x
  exact HEq.rfl

/-- Buffer contents that are a given value of the tensor type are moved to that value. -/
theorem ofBuf_eq (x : TRef sig T) {v : x.ref.ty.Contents Val} {v' : T.Contents Val} (h : HEq v v') : x.ofBuf v = v' := by
  obtain ⟨r, rfl, _, _⟩ := x
  exact eq_of_heq h

end Idealize.ShloMosaic.StableHlo.TRef
-- ==== Proof.LibResultsRest.lean ====
/-
  A finishing step for reading a line of host operations.

  Reading what a buffer holds after a line of operations is a rewriting computation. Done as one simplification
  pass it does not reach the operands of a concatenation, which sit inside a list of (shape, array) pairs; what is
  left there — a short chain of results at an operand's reference — is finished here by rewriting with each
  operation's result at its own reference and at any other reference, one at a time.
-/
import Idealize.ShloMosaic.Lib.StableHlo.Run

namespace Idealize.ShloMosaic.StableHlo

/-- Rewrites every remaining operation result, at its own reference or at another one, until none is left. -/
macro "after_results_rest" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.KerStages.lean ====
/-
  What the idealized kernel's program has in its buffers when its one region is entered, as the named stage
  functions of the argument arrays.

  The lines of the program before the region are read one after the other: each line's result at its own buffer
  is its operation applied to what the earlier lines left, and at any other buffer what was there before. Read
  this way a buffer's contents are the stage function's body, operation for operation, so each equation closes by
  comparing the two terms as written. Two outlined functions (a select, and the variance) are spelt over typed
  references; where their lines meet the main program's the contents cross between a buffer's own type and the
  tensor type, which is the identity, and is removed first.
-/
import proofs.«118177_j11355893531063_2_alg».proof.Proof.Gen.KernelIdeal.Frame
import proofs.«118177_j11355893531063_2_alg».proof.Proof.KerStageDefs
import proofs.«118177_j11355893531063_2_alg».proof.Proof.LibHostPieces
import proofs.«118177_j11355893531063_2_alg».proof.Proof.LibTypedRefs
import proofs.«118177_j11355893531063_2_alg».proof.Proof.LibResultsRest

set_option maxRecDepth 16384

noncomputable section

namespace Cert.KernelIdeal.KerStages

open Idealize.ShloMosaic Idealize.ShloMosaic.TcCoe Idealize.ShloMosaic.Tactic
open Idealize.ShloMosaic.StableHlo
open Idealize.SL.Sem
open Cert.KernelIdeal.Gen

/-! ## Contents moved between a buffer's own type and its tensor type

Where an outlined function's operation reads a buffer that a line of the main program wrote, or the other way
round, the contents cross between the buffer's own type and the tensor type named at the call. The two types
are the same type, so the move is the identity; one equation per buffer that is crossed this way. -/

section Moves

theorem ofBuf_cst_2 (h1 h2 h3) (v : Vec Ideal S_ .f32) :
    (TRef.of (T := ⟨S_, .f32⟩) main_cst_2 h1 h2 h3).ofBuf (Val := Elt Ideal) v = v := rfl
theorem ofBuf_v13 (h1 h2 h3) (v : Vec Ideal S100000 .i1) :
    (TRef.of (T := ⟨S100000, .i1⟩) main_v13 h1 h2 h3).ofBuf (Val := Elt Ideal) v = v := rfl
theorem ofBuf_v14 (h1 h2 h3) (v : Vec Ideal S100000 .f32) :
    (TRef.of (T := ⟨S100000, .f32⟩) main_v14 h1 h2 h3).ofBuf (Val := Elt Ideal) v = v := rfl
theorem toBuf_v15 (h1 h2 h3) (v : Vec Ideal S100000 .f32) :
    (TRef.of (T := ⟨S100000, .f32⟩) main_v15 h1 h2 h3).toBuf (Val := Elt Ideal) v = v := rfl
theorem ofBuf_v46 (h1 h2 h3) (v : Vec Ideal S100000 .f32) :
    (TRef.of (T := ⟨S100000, .f32⟩) main_v46 h1 h2 h3).ofBuf (Val := Elt Ideal) v = v := rfl
theorem ofBuf_c_12 (h1 h2 h3) (v : Vec Ideal S_ .i32) :
    (TRef.of (T := ⟨S_, .i32⟩) main_c_12 h1 h2 h3).ofBuf (Val := Elt Ideal) v = v := rfl
theorem toBuf_v49 (h1 h2 h3) (v : Vec Ideal S_ .f32) :
    (TRef.of (T := ⟨S_, .f32⟩) main_v49 h1 h2 h3).toBuf (Val := Elt Ideal) v = v := rfl

end Moves

/-! ## What the buffers hold when the region is entered -/

section Reads

variable (m : (ℓ : Loc nD τ sig) → Buf (Elt Ideal) ℓ) (c : Dev nD)

/-- The source-index buffer holds the sources of the argument edge list. -/
theorem V_main_v5 :
    (Gen.V m c main_v5 : Vec Ideal S1700000 .i32) = sIdx (m ((c.tc : Thread nD τ).loc main_arg1)) := by
  unfold sIdx
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  after_results_rest
  rfl

/-- The target-index buffer holds the targets of the argument edge list. -/
theorem V_main_v6 :
    (Gen.V m c main_v6 : Vec Ideal S1700000 .i32) = dIdx (m ((c.tc : Thread nD τ).loc main_arg1)) := by
  unfold dIdx
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  after_results_rest
  rfl

/-- The normalisation buffer holds the normalisation of the argument edges and weights. -/
theorem V_main_v31 :
    (Gen.V m c main_v31 : Vec Ideal S1700000 .f32)
      = norm (m ((c.tc : Thread nD τ).loc main_arg1)) (m ((c.tc : Thread nD τ).loc main_arg2)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  after_results_rest
  simp only [HostPieces.ofBuf_toBuf, ofBuf_cst_2, ofBuf_v13, ofBuf_v14, toBuf_v15]
  rfl

end Reads

end Cert.KernelIdeal.KerStages

end
-- ==== Proof.KerRun.lean ====
/-
  The idealized kernel's run, stated with the host stages.

  After the region the program runs thirty-five more lines. They read four things the earlier lines left —
  the source and target indices, the edges' normalisation — and two argument arrays, and one thing the region
  wrote: its two-channel output. Read one after the other, the lines are the stage function `tail` applied to
  those six arrays. The region's output array enters as a parameter `X`: whatever the region is shown to leave
  there. The run then says that every execution of the program ends with its result buffer at `tail` of the
  stages of the arguments and of `X`, and with the ten argument arrays as they were.
-/
import proofs.«118177_j11355893531063_2_alg».proof.Proof.KerStages

set_option maxRecDepth 16384

noncomputable section

namespace Cert.KernelIdeal.KerRun

open Idealize.ShloMosaic Idealize.ShloMosaic.TcCoe Idealize.ShloMosaic.Tactic
open Idealize.ShloMosaic.StableHlo
open Idealize.SL.Sem
open Cert.KernelIdeal.Gen Cert.KernelIdeal.KerStages

variable (m : (ℓ : Loc nD τ sig) → Buf (Elt Ideal) ℓ) (ρ : Dev nD → PrngReg)

/-- What the lines after the region leave in the result buffer: `tail` of the source and target indices, the
    normalisation, the region's output `X`, the batch assignment and the last bias. -/
theorem tail_eq (c : Dev nD) (X : Vec Ideal S100000x2 .f32)
    (hX : (Gen.dats (F := Ideal) m 0 c).arrAt 8 cfg0.N = X) :
    Pipeline.afterTail₀ cfgs (Gen.dats m) 0 (Gen.V0 m) [Gen.hostOps1] c main_v88
      = tail (sIdx (m ((c.tc : Thread nD τ).loc main_arg1))) (dIdx (m ((c.tc : Thread nD τ).loc main_arg1)))
          (KerStages.norm (m ((c.tc : Thread nD τ).loc main_arg1)) (m ((c.tc : Thread nD τ).loc main_arg2))) X
          (m ((c.tc : Thread nD τ).loc main_arg3)) (m ((c.tc : Thread nD τ).loc main_arg9)) := by
  unfold Pipeline.afterTail₀
  show StableHlo.after Gen.hostOps1 _ (Proc.devRef .tc main_v88) = _
  have e5 : Pipeline.withArrays spec0 c (Gen.V0 m c) (fun w => (Gen.dats m 0 c).arrAt w cfg0.N) (Proc.devRef .tc main_v5)
      = sIdx (m ((c.tc : Thread nD τ).loc main_arg1)) :=
    (Pipeline.withArrays_of_ne spec0 c (Gen.V0 m c) _ main_v5 (by exact (by decide : ∀ w, Pipeline.arrRef spec0 w ≠ main_v5))).trans (V_main_v5 m c)
  have e6 : Pipeline.withArrays spec0 c (Gen.V0 m c) (fun w => (Gen.dats m 0 c).arrAt w cfg0.N) (Proc.devRef .tc main_v6)
      = dIdx (m ((c.tc : Thread nD τ).loc main_arg1)) :=
    (Pipeline.withArrays_of_ne spec0 c (Gen.V0 m c) _ main_v6 (by exact (by decide : ∀ w, Pipeline.arrRef spec0 w ≠ main_v6))).trans (V_main_v6 m c)
  have e31 : Pipeline.withArrays spec0 c (Gen.V0 m c) (fun w => (Gen.dats m 0 c).arrAt w cfg0.N) (Proc.devRef .tc main_v31)
      = KerStages.norm (m ((c.tc : Thread nD τ).loc main_arg1)) (m ((c.tc : Thread nD τ).loc main_arg2)) :=
    (Pipeline.withArrays_of_ne spec0 c (Gen.V0 m c) _ main_v31 (by exact (by decide : ∀ w, Pipeline.arrRef spec0 w ≠ main_v31))).trans (V_main_v31 m c)
  have e3 : Pipeline.withArrays spec0 c (Gen.V0 m c) (fun w => (Gen.dats m 0 c).arrAt w cfg0.N) (Proc.devRef .tc main_arg3)
      = m ((c.tc : Thread nD τ).loc main_arg3) :=
    (Pipeline.withArrays_of_ne spec0 c (Gen.V0 m c) _ main_arg3 (by exact (by decide : ∀ w, Pipeline.arrRef spec0 w ≠ main_arg3))).trans (Gen.V_main_arg3 m c)
  have e9 : Pipeline.withArrays spec0 c (Gen.V0 m c) (fun w => (Gen.dats m 0 c).arrAt w cfg0.N) (Proc.devRef .tc main_arg9)
      = m ((c.tc : Thread nD τ).loc main_arg9) :=
    (Pipeline.withArrays_of_ne spec0 c (Gen.V0 m c) _ main_arg9 (by exact (by decide : ∀ w, Pipeline.arrRef spec0 w ≠ main_arg9))).trans (Gen.V_main_arg9 m c)
  have e60 : Pipeline.withArrays spec0 c (Gen.V0 m c) (fun w => (Gen.dats m 0 c).arrAt w cfg0.N) (Proc.devRef .tc main_v60) = X :=
    (Pipeline.withArrays_arr spec0 launch0.win.arr_inj c (Gen.V0 m c) (fun w => (Gen.dats m 0 c).arrAt w cfg0.N) 8).trans hX
  generalize Pipeline.withArrays spec0 c (Gen.V0 m c) (fun w => (Gen.dats m 0 c).arrAt w cfg0.N) = W at e5 e6 e31 e3 e9 e60 ⊢
  after_results_simp
  rw [e5, e6, e31, e3, e9, e60]
  rfl

/-- THE RUN. From any memory with zero counters every execution of the program terminates, and it ends with the
    result buffer at `tail` of the stages of the argument arrays and of the region's output `X` — any `X` the
    region's output array is shown to hold after its last point — and with the ten argument arrays unchanged. -/
theorem run (X : Dev nD → Vec Ideal S100000x2 .f32)
    (hX : ∀ c : Dev nD, (Gen.dats (F := Ideal) m 0 c).arrAt 8 cfg0.N = X c) :
    θ_run defs (onTc (τ := τ) (main (F := Ideal))) ⟨m, fun _ => 0, ρ⟩ (fun r => ∀ c : Dev nD,
      r.2.mem ((c.tc : Thread nD τ).loc main_v88)
          = tail (sIdx (m ((c.tc : Thread nD τ).loc main_arg1))) (dIdx (m ((c.tc : Thread nD τ).loc main_arg1)))
              (KerStages.norm (m ((c.tc : Thread nD τ).loc main_arg1)) (m ((c.tc : Thread nD τ).loc main_arg2))) (X c)
              (m ((c.tc : Thread nD τ).loc main_arg3)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v88 (Pipeline.mem_restRefs_of main_v88 (by decide) (by decide))).trans (tail_eq m c (X c) (hX c)),
      (((h c).2 main_arg0 (Pipeline.mem_restRefs_of main_arg0 (by decide) (by decide))).trans (Gen.W_main_arg0 m (Gen.dats m) c)),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      (((h c).2 main_arg3 (Pipeline.mem_restRefs_of main_arg3 (by decide) (by decide))).trans (Gen.W_main_arg3 m (Gen.dats m) c)),
      ((h c).1 1).trans (((Gen.dats m 0 c).arrAt_in 1 rfl _).trans ((Gen.A_eq m c 1).trans (Gen.V_main_arg4 m c))),
      ((h c).1 2).trans (((Gen.dats m 0 c).arrAt_in 2 rfl _).trans ((Gen.A_eq m c 2).trans (Gen.V_main_arg5 m c))),
      ((h c).1 5).trans (((Gen.dats m 0 c).arrAt_in 5 rfl _).trans ((Gen.A_eq m c 5).trans (Gen.V_main_arg6 m c))),
      ((h c).1 6).trans (((Gen.dats m 0 c).arrAt_in 6 rfl _).trans ((Gen.A_eq m c 6).trans (Gen.V_main_arg7 m c))),
      ((h c).1 7).trans (((Gen.dats m 0 c).arrAt_in 7 rfl _).trans ((Gen.A_eq m c 7).trans (Gen.V_main_arg8 m c))),
      (((h c).2 main_arg9 (Pipeline.mem_restRefs_of main_arg9 (by decide) (by decide))).trans (Gen.W_main_arg9 m (Gen.dats m) c))⟩) (Gen.run_main m ρ)

end Cert.KernelIdeal.KerRun

end
-- ==== Proof.KerReads.lean ====
/-
  The three arrays the region reads that the program computes from the node aggregate: the aggregate as a column,
  and the per-channel mean and variance of the first layer's pre-activation. Each is read off the program's lines
  before the region as the stage function of the aggregate and the first layer's parameters.
-/
import proofs.«118177_j11355893531063_2_alg».proof.Proof.KerStages

set_option maxRecDepth 16384

noncomputable section

namespace Cert.KernelIdeal.KerStages

open Idealize.ShloMosaic Idealize.ShloMosaic.TcCoe Idealize.ShloMosaic.Tactic
open Idealize.ShloMosaic.StableHlo
open Idealize.SL.Sem
open Cert.KernelIdeal.Gen

/-- Two arrays joined along an axis, the two operands as separate arguments (the join's shape condition then
    mentions the operands' shapes only, so each operand can be rewritten by itself). -/
def cat2 {α : Type} (t : Shape) (a : Fin t.rank) (s1 s2 : Shape) (h : Shape.Concatenates [s1, s2] t a)
    (x1 : s1.Idx → α) (x2 : s2.Idx → α) : t.Idx → α :=
  concatenate t a [⟨s1, x1⟩, ⟨s2, x2⟩] h

theorem concatenate_two {α : Type} (t : Shape) (a : Fin t.rank) (s1 s2 : Shape) (x1 : s1.Idx → α) (x2 : s2.Idx → α)
    (h : Shape.Concatenates (([⟨s1, x1⟩, ⟨s2, x2⟩] : List ((s : Shape) × (s.Idx → α))).map (fun p : (s : Shape) × (s.Idx → α) => p.1)) t a) :
    concatenate t a [⟨s1, x1⟩, ⟨s2, x2⟩] h = cat2 t a s1 s2 h x1 x2 := rfl

/-- Reads a buffer after a line of host operations in one pass, the operands of a join included. -/
macro "host_results" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      concatenate_two]))

section Reads

variable (m : (ℓ : Loc nD τ sig) → Buf (Elt Ideal) ℓ) (c : Dev nD)

/-- The region's first operand holds the node aggregate as a column. -/
theorem V_main_v59 :
    (Gen.V m c main_v59 : Vec Ideal S100000x1 .f32)
      = aCol (aAgg (m ((c.tc : Thread nD τ).loc main_arg1)) (m ((c.tc : Thread nD τ).loc main_arg2))
          (m ((c.tc : Thread nD τ).loc main_arg0))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  host_results
  simp only [HostPieces.ofBuf_toBuf, ofBuf_cst_2, ofBuf_v13, ofBuf_v14, toBuf_v15, ofBuf_v46, ofBuf_c_12, toBuf_v49]
  rfl

/-- The region's fourth operand holds the per-channel mean of the first layer's pre-activation. -/
theorem V_main_v53 :
    (Gen.V m c main_v53 : Vec Ideal S64 .f32)
      = meanC (aAgg (m ((c.tc : Thread nD τ).loc main_arg1)) (m ((c.tc : Thread nD τ).loc main_arg2))
          (m ((c.tc : Thread nD τ).loc main_arg0)))
          (m ((c.tc : Thread nD τ).loc main_arg4)) (m ((c.tc : Thread nD τ).loc main_arg5)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  host_results
  simp only [HostPieces.ofBuf_toBuf, ofBuf_cst_2, ofBuf_v13, ofBuf_v14, toBuf_v15, ofBuf_v46, ofBuf_c_12, toBuf_v49]
  rfl

/-- The region's fifth operand holds the per-channel variance of the first layer's pre-activation. -/
theorem V_main_v58 :
    (Gen.V m c main_v58 : Vec Ideal S64 .f32)
      = varC (aAgg (m ((c.tc : Thread nD τ).loc main_arg1)) (m ((c.tc : Thread nD τ).loc main_arg2))
          (m ((c.tc : Thread nD τ).loc main_arg0)))
          (m ((c.tc : Thread nD τ).loc main_arg4)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  host_results
  simp only [HostPieces.ofBuf_toBuf, ofBuf_cst_2, ofBuf_v13, ofBuf_v14, toBuf_v15, ofBuf_v46, ofBuf_c_12, toBuf_v49]
  rfl

end Reads

end Cert.KernelIdeal.KerStages

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.KerPayload.lean ====
/-
  The kernel body's arithmetic, read at one entry of the block it stores, over the extended reals.

  The body takes a block of 10000 rows of a one-column array, a row of 64 weights, five vectors of 64 lanes
  (a bias, a mean, a variance, a scale, a shift) and a 64-by-2 matrix. For row p and lane k it forms the hidden value
      h(p, k) = max ( ((a(p) * w(k) + b(k)) - mu(k)) * rsqrt (var(k) + eps) * gamma(k) + beta(k) ,  0 ),
  and the stored block is the matrix product of h with the 64-by-2 matrix into a zero accumulator:
      out(p, q) = sum over k < 64 of h(p, k) * W(k, q).
  The changes of float format in front of the matrix unit are the identity here. The lemmas below read each
  layout step of the body (a column repeated along the lanes, a row repeated down the rows, a vector laid as a
  row and repeated) at an index, and the theorem puts them together.
-/
import proofs.«118177_j11355893531063_2_alg».proof.Proof.Gen.KernelIdeal.Skeleton
import proofs.«118177_j11355893531063_2_alg».proof.Proof.LibMatmulPlain
import proofs.«118177_j11355893531063_2_alg».proof.Proof.LibKeepdims
import Idealize.ShloMosaic.Lib.Pipeline.Value
import Idealize.ShloMosaic.Lib.ValueLayout
import Idealize.ShloMosaic.Lib.ValueIdx

noncomputable section

open scoped BigOperators

namespace Cert.KernelIdeal.KerValue

open Cert.KernelIdeal Cert.KernelIdeal.Gen Idealize.ShloMosaic Idealize.ShloMosaic.ValueIdx

/-- A one-column block repeated along 64 lanes reads, at (p, k), the column's entry of row p. -/
theorem colOf_apply (v : FVec Ideal S10000x1 .f32) (p : Fin 10000) (k : Fin 64) :
    broadcastTo S10000x64 v broadcasts_S10000x1_S10000x64 (ix2 p k) = v (ix2 p (0 : Fin 1)) :=
  Keepdims.broadcastTo_a1_ab_apply v broadcasts_S10000x1_S10000x64 p k

/-- A row of 64 lanes repeated down 10000 rows reads, at (p, k), the row's lane k. -/
theorem rowRep_apply (v : FVec Ideal S1x64 .f32) (p : Fin 10000) (k : Fin 64) :
    broadcastTo S10000x64 v broadcasts_S1x64_S10000x64 (ix2 p k) = v (ix2 (0 : Fin 1) k) :=
  broadcastTo_1b_ab_apply v broadcasts_S1x64_S10000x64 p k

/-- A vector of 64 lanes laid as a row reads, at (0, k), lane k of the vector. -/
theorem rowCast_apply (v : FVec Ideal S64 .f32) (k : Fin 64) :
    shapeCast S1x64 v shapeCasts_S64_S1x64 (ix2 (0 : Fin 1) k) = v (ix1 k) :=
  shapeCast_a_1a_apply v shapeCasts_S64_S1x64 (0 : Fin 1) k

/-- The reciprocal square root acts entry by entry. -/
theorem rsqrt_apply (v : FVec Ideal S64 .f32) (i : S64.Idx) : rsqrt v i = Ideal.rsqrt (v i) := rfl

/-- The product of a 10000-by-64 block with a 64-by-2 matrix into the zero accumulator, at (p, q): the row-by-column
    sum. The body's contraction (left operand on its second axis, right operand on its first, no batch axis) is the
    plain one. -/
theorem matmul_zero_ix2 (A : FVec Ideal S10000x64 .bf16) (B : FVec Ideal S64x2 .bf16) (p : Fin 10000) (q : Fin 2) :
    matmul dot_S10000x64_S64x2_S10000x2_1_0_0_1_n_n none A B (constant (F := Ideal) S10000x2 .f32 0x00000000#32) (ix2 p q)
      = ∑ k : Fin 64, A (ix2 p k) * B (ix2 k q) :=
  MatmulPlain.matmul_zero_apply (M := 10000) (K := 64) (N := 2) none A B (ix2 p q)

/-- THE BODY'S RESULT AT (p, q): the sum over the 64 hidden lanes of the rectified, normalised, affinely mapped
    input of row p times the last matrix's entry (k, q). -/
theorem pay_apply (x0 : Vec Ideal S10000x1 .f32) (x1 : Vec Ideal S1x64 .f32) (x2 x3 x4 x5 x6 : Vec Ideal S64 .f32)
    (x7 : Vec Ideal S64x2 .f32) (p : Fin 10000) (q : Fin 2) :
    Gen.k0_pay1 (F := Ideal) x0 x1 x2 x3 x4 x5 x6 x7 (ix2 p q)
      = ∑ k : Fin 64,
          max ((((x0 (ix2 p (0 : Fin 1)) * x1 (ix2 (0 : Fin 1) k) + x2 (ix1 k)) - x3 (ix1 k))
                  * Ideal.rsqrt (x4 (ix1 k) + Ideal.ofBits .f32 0x3727C5AC#32)) * x5 (ix1 k) + x6 (ix1 k))
              (Ideal.ofBits .f32 0x00000000#32)
            * x7 (ix2 k q) := by
  unfold Gen.k0_pay1
  refine (matmul_zero_ix2 _ _ p q).trans ?_
  refine Finset.sum_congr rfl fun k _ => ?_
  simp only [truncf_apply, maximumf_apply, addf_apply, mulf_apply, subf_apply, broadcast_apply, shapeCast_self,
    colOf_apply, rowRep_apply, rowCast_apply, rsqrt_apply, Ideal.ofBits_def]

end Cert.KernelIdeal.KerValue

end
-- ==== Proof.KerFinal.lean ====
/-
  What the kernel's one pipelined region leaves in its output array, entry by entry, over the extended reals.

  The region walks ten grid points. At point t it stages rows 10000 t ... 10000 t + 9999 of a one-column array
  of 100000 rows, together with a row of 64 weights, five vectors of 64 lanes and a 64-by-2 matrix (each of these
  whole, at block index zero), runs the body, and writes the body's 10000-by-2 block back to rows
  10000 t ... 10000 t + 9999 of the 100000-by-2 output. The body's block at (p, q) depends on the staged column
  only through its row p (the module on the body's arithmetic), and row p of block t is row 10000 t + p of the
  array; so every point writes the matching rows of ONE function G of the whole arrays,
      G (r, q) = sum over k < 64 of
                   max ( ((a(r) * w(k) + b(k)) - mu(k)) * rsqrt (var(k) + eps) * gamma(k) + beta(k) , 0 ) * W(k, q),
  and since row r lies in the block of point r / 10000 the ten blocks cover the output: after the run the output
  array is G of the arrays as the region found them.
-/
import proofs.«118177_j11355893531063_2_alg».proof.Proof.Gen.KernelIdeal.Frame
import proofs.«118177_j11355893531063_2_alg».proof.Proof.KerPayload
import Idealize.ShloMosaic.Lib.Pipeline.Value

-- the theorems below are elaborated in turn
set_option Elab.async false

noncomputable section

open scoped BigOperators

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

/-- THE OUTPUT ARRAY as one function of the whole arrays: entry (r, q) is the sum over the 64 hidden lanes of the
    rectified, normalised, affinely mapped input of row r times the last matrix's entry (k, q). -/
def G (a : S100000x1.Idx → Elt Ideal .f32) (W1 : S1x64.Idx → Elt Ideal .f32)
    (b1 mu vr gamma beta : S64.Idx → Elt Ideal .f32) (W2 : S64x2.Idx → Elt Ideal .f32) :
    S100000x2.Idx → Elt Ideal .f32 := fun i =>
  ∑ k : Fin 64,
    max ((((a (ix2 (i 0 : Fin 100000) (0 : Fin 1)) * W1 (ix2 (0 : Fin 1) k) + b1 (ix1 k)) - mu (ix1 k))
            * Ideal.rsqrt (vr (ix1 k) + Ideal.ofBits .f32 0x3727C5AC#32)) * gamma (ix1 k) + beta (ix1 k))
        (Ideal.ofBits .f32 0x00000000#32)
      * W2 (ix2 k (i 1 : Fin 2))

/-- ONE BLOCK OF THE BODY, AT AN ENTRY, IS THE SUM OF G'S ENTRY. If the staged column holds rows 10000 n + p of the
    one-column array and the other staged operands hold the whole arrays, then the body's block at an entry j is the
    sum that defines G at row r = 10000 n + (row of j) and at j's column. -/
theorem block_sum (a : S100000x1.Idx → Elt Ideal .f32) (W1 : S1x64.Idx → Elt Ideal .f32)
    (b1 mu vr gamma beta : S64.Idx → Elt Ideal .f32) (W2 : S64x2.Idx → Elt Ideal .f32)
    (x0 : Vec Ideal S10000x1 .f32) (x1 : Vec Ideal S1x64 .f32) (x2 x3 x4 x5 x6 : Vec Ideal S64 .f32)
    (x7 : Vec Ideal S64x2 .f32) (n : Nat)
    (hx0 : ∀ (p : Fin 10000) (r : Fin 100000), r.val = n * 10000 + p.val →
      x0 (ix2 p (0 : Fin 1)) = a (ix2 r (0 : Fin 1)))
    (hx1 : ∀ k : Fin 64, x1 (ix2 (0 : Fin 1) k) = W1 (ix2 (0 : Fin 1) k))
    (hx2 : ∀ k : Fin 64, x2 (ix1 k) = b1 (ix1 k)) (hx3 : ∀ k : Fin 64, x3 (ix1 k) = mu (ix1 k))
    (hx4 : ∀ k : Fin 64, x4 (ix1 k) = vr (ix1 k)) (hx5 : ∀ k : Fin 64, x5 (ix1 k) = gamma (ix1 k))
    (hx6 : ∀ k : Fin 64, x6 (ix1 k) = beta (ix1 k))
    (hx7 : ∀ (k : Fin 64) (q : Fin 2), x7 (ix2 k q) = W2 (ix2 k q))
    (j : S10000x2.Idx) (r : Fin 100000) (q' : Fin 2) (h0 : r.val = n * 10000 + (j 0).val)
    (h1 : q'.val = (j 1).val) :
    Gen.k0_pay1 (F := Ideal) x0 x1 x2 x3 x4 x5 x6 x7 j
      = ∑ k : Fin 64,
          max ((((a (ix2 r (0 : Fin 1)) * W1 (ix2 (0 : Fin 1) k) + b1 (ix1 k)) - mu (ix1 k))
                  * Ideal.rsqrt (vr (ix1 k) + Ideal.ofBits .f32 0x3727C5AC#32)) * gamma (ix1 k) + beta (ix1 k))
              (Ideal.ofBits .f32 0x00000000#32)
            * W2 (ix2 k q') := by
  obtain ⟨p, q, rfl⟩ : ∃ (p : Fin 10000) (q : Fin 2), j = ix2 p q := ⟨j 0, j 1, eq_ix2 j⟩
  obtain rfl : q' = q := Fin.ext h1
  refine (pay_apply x0 x1 x2 x3 x4 x5 x6 x7 p q').trans ?_
  refine Finset.sum_congr rfl fun k _ => ?_
  rw [hx0 p r h0, hx1 k, hx2 k, hx3 k, hx4 k, hx5 k, hx6 k, hx7 k q']

/-- The same with the output's entry given as an index i of the whole array: the body's block at j is G at i. -/
theorem block_apply (a : S100000x1.Idx → Elt Ideal .f32) (W1 : S1x64.Idx → Elt Ideal .f32)
    (b1 mu vr gamma beta : S64.Idx → Elt Ideal .f32) (W2 : S64x2.Idx → Elt Ideal .f32)
    (x0 : Vec Ideal S10000x1 .f32) (x1 : Vec Ideal S1x64 .f32) (x2 x3 x4 x5 x6 : Vec Ideal S64 .f32)
    (x7 : Vec Ideal S64x2 .f32) (n : Nat)
    (hx0 : ∀ (p : Fin 10000) (r : Fin 100000), r.val = n * 10000 + p.val →
      x0 (ix2 p (0 : Fin 1)) = a (ix2 r (0 : Fin 1)))
    (hx1 : ∀ k : Fin 64, x1 (ix2 (0 : Fin 1) k) = W1 (ix2 (0 : Fin 1) k))
    (hx2 : ∀ k : Fin 64, x2 (ix1 k) = b1 (ix1 k)) (hx3 : ∀ k : Fin 64, x3 (ix1 k) = mu (ix1 k))
    (hx4 : ∀ k : Fin 64, x4 (ix1 k) = vr (ix1 k)) (hx5 : ∀ k : Fin 64, x5 (ix1 k) = gamma (ix1 k))
    (hx6 : ∀ k : Fin 64, x6 (ix1 k) = beta (ix1 k))
    (hx7 : ∀ (k : Fin 64) (q : Fin 2), x7 (ix2 k q) = W2 (ix2 k q))
    (j : S10000x2.Idx) (i : S100000x2.Idx) (h0 : (i 0).val = n * 10000 + (j 0).val) (h1 : (i 1).val = (j 1).val) :
    Gen.k0_pay1 (F := Ideal) x0 x1 x2 x3 x4 x5 x6 x7 j = G a W1 b1 mu vr gamma beta W2 i :=
  block_sum a W1 b1 mu vr gamma beta W2 x0 x1 x2 x3 x4 x5 x6 x7 n hx0 hx1 hx2 hx3 hx4 hx5 hx6 hx7 j (i 0) (i 1) h0 h1

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the ten grid points: the one-column input and the output move down one
    block of rows per point and stay in column block 0; every other window stays at block index zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Any one-column array read through window 0's block at point t: row p of the block is row 10000 t + p. -/
theorem read0 (A : S100000x1.Idx → Elt Ideal .f32) (t : Fin cfg0.N) (p : Fin 10000) (r : Fin 100000)
    (hr : r.val = t.val * 10000 + p.val) :
    (((cfg0.win 0).blk t).view.read (Elt Ideal) A : Vec Ideal S10000x1 .f32) (ix2 p (0 : Fin 1))
      = A (ix2 r (0 : Fin 1)) := by
  obtain ⟨e00, e01, e10, e11, e2, e3, e4, e5, e6, e70, e71, e80, e81⟩ := idx_facts t
  show A (((cfg0.win 0).blk t).view.emb (ix2 p (0 : Fin 1))) = A (ix2 r (0 : Fin 1))
  refine congrArg A (funext fun a => Fin.ext ?_)
  match a with
  | ⟨0, _⟩ => show win0_0.index t (0 : Fin 2) * 10000 + 1 * p.val = r.val; omega
  | ⟨1, _⟩ => show win0_0.index t (1 : Fin 2) * 1 + 1 * 0 = 0; omega

/-- Any row of 64 lanes read through window 1's block at any point is the row: the block index is zero. -/
theorem read1 (A : S1x64.Idx → Elt Ideal .f32) (t : Fin cfg0.N) (k : Fin 64) :
    (((cfg0.win 1).blk t).view.read (Elt Ideal) A : Vec Ideal S1x64 .f32) (ix2 (0 : Fin 1) k)
      = A (ix2 (0 : Fin 1) k) := by
  obtain ⟨e00, e01, e10, e11, e2, e3, e4, e5, e6, e70, e71, e80, e81⟩ := idx_facts t
  show A (((cfg0.win 1).blk t).view.emb (ix2 (0 : Fin 1) k)) = A (ix2 (0 : Fin 1) k)
  refine congrArg A (funext fun a => Fin.ext ?_)
  match a with
  | ⟨0, _⟩ => show win0_1.index t (0 : Fin 2) * 1 + 1 * 0 = 0; omega
  | ⟨1, _⟩ => show win0_1.index t (1 : Fin 2) * 64 + 1 * k.val = k.val; omega

/-- Any vector of 64 lanes read through window 2's block at any point is the vector: the block index is zero. -/
theorem read2 (A : S64.Idx → Elt Ideal .f32) (t : Fin cfg0.N) (k : Fin 64) :
    (((cfg0.win 2).blk t).view.read (Elt Ideal) A : Vec Ideal S64 .f32) (ix1 k) = A (ix1 k) := by
  obtain ⟨e00, e01, e10, e11, e2, e3, e4, e5, e6, e70, e71, e80, e81⟩ := idx_facts t
  show A (((cfg0.win 2).blk t).view.emb (ix1 k)) = A (ix1 k)
  refine congrArg A (funext fun a => Fin.ext ?_)
  match a with
  | ⟨0, _⟩ => show win0_2.index t (0 : Fin 1) * 64 + 1 * k.val = k.val; omega

/-- Any vector of 64 lanes read through window 3's block at any point is the vector: the block index is zero. -/
theorem read3 (A : S64.Idx → Elt Ideal .f32) (t : Fin cfg0.N) (k : Fin 64) :
    (((cfg0.win 3).blk t).view.read (Elt Ideal) A : Vec Ideal S64 .f32) (ix1 k) = A (ix1 k) := by
  obtain ⟨e00, e01, e10, e11, e2, e3, e4, e5, e6, e70, e71, e80, e81⟩ := idx_facts t
  show A (((cfg0.win 3).blk t).view.emb (ix1 k)) = A (ix1 k)
  refine congrArg A (funext fun a => Fin.ext ?_)
  match a with
  | ⟨0, _⟩ => show win0_3.index t (0 : Fin 1) * 64 + 1 * k.val = k.val; omega

/-- Any vector of 64 lanes read through window 4's block at any point is the vector: the block index is zero. -/
theorem read4 (A : S64.Idx → Elt Ideal .f32) (t : Fin cfg0.N) (k : Fin 64) :
    (((cfg0.win 4).blk t).view.read (Elt Ideal) A : Vec Ideal S64 .f32) (ix1 k) = A (ix1 k) := by
  obtain ⟨e00, e01, e10, e11, e2, e3, e4, e5, e6, e70, e71, e80, e81⟩ := idx_facts t
  show A (((cfg0.win 4).blk t).view.emb (ix1 k)) = A (ix1 k)
  refine congrArg A (funext fun a => Fin.ext ?_)
  match a with
  | ⟨0, _⟩ => show win0_4.index t (0 : Fin 1) * 64 + 1 * k.val = k.val; omega

/-- Any vector of 64 lanes read through window 5's block at any point is the vector: the block index is zero. -/
theorem read5 (A : S64.Idx → Elt Ideal .f32) (t : Fin cfg0.N) (k : Fin 64) :
    (((cfg0.win 5).blk t).view.read (Elt Ideal) A : Vec Ideal S64 .f32) (ix1 k) = A (ix1 k) := by
  obtain ⟨e00, e01, e10, e11, e2, e3, e4, e5, e6, e70, e71, e80, e81⟩ := idx_facts t
  show A (((cfg0.win 5).blk t).view.emb (ix1 k)) = A (ix1 k)
  refine congrArg A (funext fun a => Fin.ext ?_)
  match a with
  | ⟨0, _⟩ => show win0_5.index t (0 : Fin 1) * 64 + 1 * k.val = k.val; omega

/-- Any vector of 64 lanes read through window 6's block at any point is the vector: the block index is zero. -/
theorem read6 (A : S64.Idx → Elt Ideal .f32) (t : Fin cfg0.N) (k : Fin 64) :
    (((cfg0.win 6).blk t).view.read (Elt Ideal) A : Vec Ideal S64 .f32) (ix1 k) = A (ix1 k) := by
  obtain ⟨e00, e01, e10, e11, e2, e3, e4, e5, e6, e70, e71, e80, e81⟩ := idx_facts t
  show A (((cfg0.win 6).blk t).view.emb (ix1 k)) = A (ix1 k)
  refine congrArg A (funext fun a => Fin.ext ?_)
  match a with
  | ⟨0, _⟩ => show win0_6.index t (0 : Fin 1) * 64 + 1 * k.val = k.val; omega

/-- Any 64-by-2 matrix read through window 7's block at any point is the matrix: the block index is zero. -/
theorem read7 (A : S64x2.Idx → Elt Ideal .f32) (t : Fin cfg0.N) (k : Fin 64) (q : Fin 2) :
    (((cfg0.win 7).blk t).view.read (Elt Ideal) A : Vec Ideal S64x2 .f32) (ix2 k q) = A (ix2 k q) := by
  obtain ⟨e00, e01, e10, e11, e2, e3, e4, e5, e6, e70, e71, e80, e81⟩ := idx_facts t
  show A (((cfg0.win 7).blk t).view.emb (ix2 k q)) = A (ix2 k q)
  refine congrArg A (funext fun a => Fin.ext ?_)
  match a with
  | ⟨0, _⟩ => show win0_7.index t (0 : Fin 2) * 64 + 1 * k.val = k.val; omega
  | ⟨1, _⟩ => show win0_7.index t (1 : Fin 2) * 2 + 1 * q.val = q.val; omega

/-- An entry j of the output's block at point t sits in the array 10000 t rows further down, in the same column. -/
theorem out_emb (t : Fin cfg0.N) (j : S10000x2.Idx) :
    ((((cfg0.win 8).blk t).view.emb j : S100000x2.Idx) 0).val = t.val * 10000 + (j 0).val
    ∧ ((((cfg0.win 8).blk t).view.emb j : S100000x2.Idx) 1).val = (j 1).val := by
  obtain ⟨e00, e01, e10, e11, e2, e3, e4, e5, e6, e70, e71, e80, e81⟩ := idx_facts t
  constructor
  · show win0_8.index t (0 : Fin 2) * 10000 + 1 * (j 0).val = t.val * 10000 + (j 0).val
    omega
  · show win0_8.index t (1 : Fin 2) * 2 + 1 * (j 1).val = (j 1).val
    omega

/-- THE BODY'S BLOCK AT POINT t IS BLOCK t OF G, for ANY contents of the TensorCore buffers (the contents are a
    variable here: what the host operations before the region computed is never looked into). The body is applied to
    the eight input windows' blocks of those contents; its entry j is G of the whole arrays at the place of j in the
    output array. -/
theorem block_of_contents (c : Dev nD) (Vv : (b : Ref sig .tc) → Buf (Elt Ideal) ((c : Thread nD τ).loc b))
    (t : Fin cfg0.N) (j : S10000x2.Idx) :
    k0_pay1 (F := Ideal)
        (((cfg0.win 0).blk t).view.read (Elt Ideal) (Vv (Pipeline.arrRef spec0 0)))
        (((cfg0.win 1).blk t).view.read (Elt Ideal) (Vv (Pipeline.arrRef spec0 1)))
        (((cfg0.win 2).blk t).view.read (Elt Ideal) (Vv (Pipeline.arrRef spec0 2)))
        (((cfg0.win 3).blk t).view.read (Elt Ideal) (Vv (Pipeline.arrRef spec0 3)))
        (((cfg0.win 4).blk t).view.read (Elt Ideal) (Vv (Pipeline.arrRef spec0 4)))
        (((cfg0.win 5).blk t).view.read (Elt Ideal) (Vv (Pipeline.arrRef spec0 5)))
        (((cfg0.win 6).blk t).view.read (Elt Ideal) (Vv (Pipeline.arrRef spec0 6)))
        (((cfg0.win 7).blk t).view.read (Elt Ideal) (Vv (Pipeline.arrRef spec0 7))) j
      = G (Vv main_v59) (Vv main_arg4) (Vv main_arg5) (Vv main_v53) (Vv main_v58) (Vv main_arg6) (Vv main_arg7)
          (Vv main_arg8) (((cfg0.win 8).blk t).view.emb j) :=
  block_apply (Vv main_v59) (Vv main_arg4) (Vv main_arg5) (Vv main_v53) (Vv main_v58) (Vv main_arg6) (Vv main_arg7)
    (Vv main_arg8)
    (((cfg0.win 0).blk t).view.read (Elt Ideal) (Vv (Pipeline.arrRef spec0 0)))
    (((cfg0.win 1).blk t).view.read (Elt Ideal) (Vv (Pipeline.arrRef spec0 1)))
    (((cfg0.win 2).blk t).view.read (Elt Ideal) (Vv (Pipeline.arrRef spec0 2)))
    (((cfg0.win 3).blk t).view.read (Elt Ideal) (Vv (Pipeline.arrRef spec0 3)))
    (((cfg0.win 4).blk t).view.read (Elt Ideal) (Vv (Pipeline.arrRef spec0 4)))
    (((cfg0.win 5).blk t).view.read (Elt Ideal) (Vv (Pipeline.arrRef spec0 5)))
    (((cfg0.win 6).blk t).view.read (Elt Ideal) (Vv (Pipeline.arrRef spec0 6)))
    (((cfg0.win 7).blk t).view.read (Elt Ideal) (Vv (Pipeline.arrRef spec0 7)))
    t.val (read0 (Vv main_v59) t) (read1 (Vv main_arg4) t) (read2 (Vv main_arg5) t) (read3 (Vv main_v53) t)
    (read4 (Vv main_v58) t) (read5 (Vv main_arg6) t) (read6 (Vv main_arg7) t) (read7 (Vv main_arg8) t)
    j (((cfg0.win 8).blk t).view.emb j) (out_emb t j).1 (out_emb t j).2

/-- A block P written through output window 8 at point t is block t of an array Gv as soon as P agrees with Gv entry
    by entry at each entry's place in the array. Both are variables here, so nothing of their values is looked into. -/
theorem flushed_of (t : Fin cfg0.N) (P : Vec Ideal S10000x2 .f32) (Gv : S100000x2.Idx → Elt Ideal .f32)
    (h : ∀ j : S10000x2.Idx, P j = Gv (((cfg0.win 8).blk t).view.emb j)) :
    (cfg0.win 8).cut (grid0.coords t) P = ((cfg0.win 8).blk t).view.read (Elt Ideal) Gv := by
  funext j
  exact h j

/-- WHAT POINT t WRITES BACK is block t of G of the arrays as the region finds them: the body's result on the input
    blocks, with the region-entry contents put for the variable contents. -/
theorem flushed_eq (c : Dev nD) (t : Fin cfg0.N) :
    (dats m 0 c).flushed 8 t = ((cfg0.win 8).blk t).view.read (Elt Ideal)
      (G (V m c main_v59) (V m c main_arg4) (V m c main_arg5) (V m c main_v53) (V m c main_v58)
        (V m c main_arg6) (V m c main_arg7) (V m c main_arg8)) := by
  show (cfg0.win 8).cut (grid0.coords t) ((dats m 0 c).after 8 t) = _
  rw [after0_8]
  unfold out0_8
  rw [View.canon_unit_zero hz2]
  simp only [View.ld_unit_zero (S := S10000x1) hz2, View.ld_unit_zero (S := S1x64) hz2,
    View.ld_unit_zero (S := S64) hz1, View.ld_unit_zero (S := S64x2) hz2]
  unfold iblk
  refine flushed_of t _ _ (fun j => ?_)
  exact block_of_contents c (V m c) t j

/-- An entry of the output is in point t's block iff each coordinate is in the block's range on its axis. -/
theorem mem_blk (t : Fin cfg0.N) (i : S100000x2.Idx) :
    i ∈ ((cfg0.win 8).blk t).view.set ↔ ∀ a : Fin 2, win0_8.index t a * S10000x2.size a ≤ (i a).val
      ∧ (i a).val < win0_8.index t a * S10000x2.size a + S10000x2.size a := by
  show i ∈ ((View.whole main_v60).slice (win0_8.rect t)).set ↔ _
  rw [View.set_slice_whole, Rect.mem_set_unit]
  exact Iff.rfl

/-- THE TEN BLOCKS COVER THE OUTPUT: row r lies in the block of point r / 10000, and both columns lie in the one
    column block. -/
theorem cover (i : S100000x2.Idx) :
    ∃ t : Fin cfg0.N, (cfg0.win 8).flush t = true ∧ i ∈ ((cfg0.win 8).blk t).view.set := by
  have hi0 : (i 0).val < 100000 := (i 0).isLt
  have hi1 : (i 1).val < 2 := (i 1).isLt
  have hN : grid0.N = 10 := N_0
  obtain ⟨t, ht⟩ : ∃ t : Fin cfg0.N, t.val = (i 0).val / 10000 :=
    ⟨⟨(i 0).val / 10000, by show (i 0).val / 10000 < grid0.N; omega⟩, rfl⟩
  obtain ⟨e00, e01, e10, e11, e2, e3, e4, e5, e6, e70, e71, e80, e81⟩ := idx_facts t
  refine ⟨t, flush0_8 t, ?_⟩
  rw [mem_blk]
  intro a
  match a with
  | ⟨0, _⟩ =>
    show win0_8.index t (0 : Fin 2) * 10000 ≤ (i 0).val ∧ (i 0).val < win0_8.index t (0 : Fin 2) * 10000 + 10000
    omega
  | ⟨1, _⟩ =>
    show win0_8.index t (1 : Fin 2) * 2 ≤ (i 1).val ∧ (i 1).val < win0_8.index t (1 : Fin 2) * 2 + 2
    omega

/-- THE OUTPUT ARRAY AFTER THE RUN is G of the arrays as the region finds them. -/
theorem final (c : Dev nD) : (dats m 0 c).arrAt 8 cfg0.N
    = G (V m c main_v59) (V m c main_arg4) (V m c main_arg5) (V m c main_v53) (V m c main_v58)
        (V m c main_arg6) (V m c main_arg7) (V m c main_arg8) :=
  (dats m 0 c).arrAt_eq_of_cover 8 _ (fun t _ => flushed_eq m c t) cover

end Cert.KernelIdeal.KerValue

end
-- ==== Proof.RefRun0.lean ====
/-
  The first sixty statements: the two index rows cut from the edge table and extended by the self loops, the edge weights extended by ones, the weighted in-degree by a scatter-add, its reciprocal square root where positive (the outlined select's three operations stand at its call), the symmetric normalisation gathered at both end points, and the first layer: the feature product gathered at the sources, scaled, scatter-added at the targets, plus the bias.
  Listed as host operations in program order, this stretch of the reference program is the straight line of them, and
  each operation touches TensorCore buffers only.
-/
import proofs.«118177_j11355893531063_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of this stretch of @main, in program order (62). -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v8 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg4 main_v32 ((fun l r => Host.dotGeneral dot_S100000x1_S1x64_S100000x64_1_0_0_1_n_n none l r) : (⟨S100000x1, .f32⟩ : BufTy).Contents (Elt F) → (⟨S1x64, .f32⟩ : BufTy).Contents (Elt F) → (⟨S100000x64, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v5 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v5 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v5 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)) ]

set_option maxRecDepth 16384 in
set_option maxHeartbeats 4000000 in
/-- The stretch is that straight line: the outlined functions unfolded at their calls, sequencing reassociated. -/
theorem main_part0_eq (c : Dev nD) : main_part0 (F := F) c = seq ops0 := by
  simp only [main_part0, fn_where.body, seq, bind_assoc, pure_bind]
  rfl

set_option maxRecDepth 16384 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

set_option maxRecDepth 16384 in
/-- Every operation of the stretch determines its results: none allocates a buffer with contents left open. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- The buffers the stretch's operations write, in order. -/
abbrev ops0_W : List (Ref sig .tc) :=
  [main_v0, main_v1, main_v2, main_v3, main_v4, main_v5, main_v6, main_cst, main_v7, main_v8,
   main_cst_0, main_v9, main_v10, main_v11, main_cst_1, main_v12, main_v13, main_v14, main_cst_2, main_call0_v0,
   main_call0_v1, main_v15, main_c, main_v16, main_v17, main_c_3, main_v18, main_v19, main_v20, main_v21,
   main_v22, main_v23, main_c_4, main_v24, main_v25, main_c_5, main_v26, main_v27, main_v28, main_v29,
   main_v30, main_v31, main_v32, main_c_6, main_v33, main_v34, main_c_7, main_v35, main_v36, main_v37,
   main_v38, main_v39, main_v40, main_v41, main_v42, main_cst_8, main_v43, main_v44, main_v45, main_v46,
   main_v47, main_v48]

set_option maxRecDepth 16384 in
set_option maxHeartbeats 4000000 in
/-- Each operation of the stretch writes one buffer of that list. -/
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.RefRun1.lean ====
/-
  Statements 61 to 120: the column means, the column variances (the outlined variance's nineteen operations and, inside it, the outlined select's three, all at the call's place), the normalisation with scale and shift, the rectifier (its three operations at the call), and the same index rows, weights, degrees and normalisation computed a second time.
  Listed as host operations in program order, this stretch of the reference program is the straight line of them, and
  each operation touches TensorCore buffers only.
-/
import proofs.«118177_j11355893531063_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of this stretch of @main, in program order (85). -/
abbrev ops1 : List (HloOp τ sig (Elt F)) :=
  [ nullary main_cst_9 (constant S_ .f32 0x00000000#32),
    binary main_v48 main_cst_9 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v50 (broadcastInDim S64 ![] bcast_S_S64 : (⟨S_, .f32⟩ : BufTy).Contents (Elt F) → (⟨S64, .f32⟩ : BufTy).Contents (Elt F)),
    binary main_v49 main_v50 main_v51 (Host.divf : (⟨S64, .f32⟩ : BufTy).Contents (Elt F) → (⟨S64, .f32⟩ : BufTy).Contents (Elt F) → (⟨S64, .f32⟩ : BufTy).Contents (Elt F)),
    nullary main_c_11 (constantI S_ 32 0#32),
    TRef.nullary (TRef.of (T := ⟨S_, .f32⟩) main_call1_cst) (constant S_ .f32 0x00000000#32),
    TRef.binary (TRef.of (T := ⟨S100000x64, .f32⟩) main_v48) (TRef.of (T := ⟨S_, .f32⟩) main_call1_cst) (TRef.of (T := ⟨S64, .f32⟩) main_call1_v0) (fun x v => Host.reduceAdd x v reducesTo_S100000x64_S64_d0 h_S_),
    TRef.unary (TRef.of (T := ⟨S64, .f32⟩) main_call1_v0) (TRef.of (T := ⟨S1x64, .f32⟩) main_call1_v1) (broadcastInDim S1x64 ![1] bcast_S64_S1x64_1),
    TRef.nullary (TRef.of (T := ⟨S_, .f32⟩) main_call1_cst_0) (constant S_ .f32 0x47C35000#32),
    TRef.unary (TRef.of (T := ⟨S_, .f32⟩) main_call1_cst_0) (TRef.of (T := ⟨S1x64, .f32⟩) main_call1_v2) (broadcastInDim S1x64 ![] bcast_S_S1x64),
    TRef.binary (TRef.of (T := ⟨S1x64, .f32⟩) main_call1_v1) (TRef.of (T := ⟨S1x64, .f32⟩) main_call1_v2) (TRef.of (T := ⟨S1x64, .f32⟩) main_call1_v3) Host.divf,
    TRef.unary (TRef.of (T := ⟨S1x64, .f32⟩) main_call1_v3) (TRef.of (T := ⟨S100000x64, .f32⟩) main_call1_v4) (broadcastInDim S100000x64 ![0, 1] bcast_S1x64_S100000x64_0_1),
    TRef.binary (TRef.of (T := ⟨S100000x64, .f32⟩) main_v48) (TRef.of (T := ⟨S100000x64, .f32⟩) main_call1_v4) (TRef.of (T := ⟨S100000x64, .f32⟩) main_call1_v5) subf,
    TRef.binary (TRef.of (T := ⟨S100000x64, .f32⟩) main_call1_v5) (TRef.of (T := ⟨S100000x64, .f32⟩) main_call1_v5) (TRef.of (T := ⟨S100000x64, .f32⟩) main_call1_v6) mulf,
    TRef.unary (TRef.of (T := ⟨S_, .i32⟩) main_c_11) (TRef.of (T := ⟨S_, .f32⟩) main_call1_v7) (sitofp .f32),
    TRef.nullary (TRef.of (T := ⟨S_, .f32⟩) main_call1_cst_1) (constant S_ .f32 0x47C35000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S100000x64, .f32⟩) main_call1_v6) (TRef.of (T := ⟨S_, .f32⟩) main_call1_cst_2) (TRef.of (T := ⟨S64, .f32⟩) main_call1_v9) (fun x v => Host.reduceAdd x v reducesTo_S100000x64_S64_d0 h_S_),
    TRef.unary (TRef.of (T := ⟨S_, .f32⟩) main_call1_v8) (TRef.of (T := ⟨S64, .f32⟩) main_call1_v10) (broadcastInDim S64 ![] bcast_S_S64),
    TRef.binary (TRef.of (T := ⟨S64, .f32⟩) main_call1_v9) (TRef.of (T := ⟨S64, .f32⟩) main_call1_v10) (TRef.of (T := ⟨S64, .f32⟩) main_call1_v11) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v12) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S64, .f32⟩) main_call1_call0_v1) (broadcastInDim S64 ![] bcast_S_S64),
    TRef.ternary (TRef.of (T := ⟨S_, .i1⟩) main_call1_v12) (TRef.of (T := ⟨S64, .f32⟩) main_call1_v11) (TRef.of (T := ⟨S64, .f32⟩) main_call1_call0_v1) (TRef.of (T := ⟨S64, .f32⟩) main_v52) (fun p a b => select (broadcastInDim S64 ![] bcast_S_S64 p) a b),
    unary main_v51 main_v53 (broadcastInDim S1x64 ![1] bcast_S64_S1x64_1 : (⟨S64, .f32⟩ : BufTy).Contents (Elt F) → (⟨S1x64, .f32⟩ : BufTy).Contents (Elt F)),
    unary main_v53 main_v54 (broadcastInDim S100000x64 ![0, 1] bcast_S1x64_S100000x64_0_1 : (⟨S1x64, .f32⟩ : BufTy).Contents (Elt F) → (⟨S100000x64, .f32⟩ : BufTy).Contents (Elt F)),
    binary main_v48 main_v54 main_v55 (subf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v56 (broadcastInDim S64 ![] bcast_S_S64 : (⟨S_, .f32⟩ : BufTy).Contents (Elt F) → (⟨S64, .f32⟩ : BufTy).Contents (Elt F)),
    binary main_v52 main_v56 main_v57 (addf : (⟨S64, .f32⟩ : BufTy).Contents (Elt F) → (⟨S64, .f32⟩ : BufTy).Contents (Elt F) → (⟨S64, .f32⟩ : BufTy).Contents (Elt F)),
    unary main_v57 main_v58 (Host.rsqrt : (⟨S64, .f32⟩ : BufTy).Contents (Elt F) → (⟨S64, .f32⟩ : BufTy).Contents (Elt F)),
    unary main_v58 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v55 main_v60 main_v61 (mulf : (⟨S100000x64, .f32⟩ : BufTy).Contents (Elt F) → (⟨S100000x64, .f32⟩ : BufTy).Contents (Elt F) → (⟨S100000x64, .f32⟩ : BufTy).Contents (Elt F)),
    unary main_arg6 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (mulf : (⟨S100000x64, .f32⟩ : BufTy).Contents (Elt F) → (⟨S100000x64, .f32⟩ : BufTy).Contents (Elt F) → (⟨S100000x64, .f32⟩ : BufTy).Contents (Elt F)),
    unary main_arg7 main_v65 (broadcastInDim S1x64 ![1] bcast_S64_S1x64_1 : (⟨S64, .f32⟩ : BufTy).Contents (Elt F) → (⟨S1x64, .f32⟩ : BufTy).Contents (Elt F)),
    unary main_v65 main_v66 (broadcastInDim S100000x64 ![0, 1] bcast_S1x64_S100000x64_0_1 : (⟨S1x64, .f32⟩ : BufTy).Contents (Elt F) → (⟨S100000x64, .f32⟩ : BufTy).Contents (Elt F)),
    binary main_v64 main_v66 main_v67 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v67) (TRef.of (T := ⟨S100000x64, .f32⟩) main_call2_v0) (TRef.of (T := ⟨S100000x64, .f32⟩) main_v68) maximumf,
    nullary main_v69 (iotaInDim S100000 32 0),
    binary main_v1 main_v69 main_v70 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v69 main_v71 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_13 (constant S_ .f32 0x3F800000#32),
    unary main_cst_13 main_v72 (broadcastInDim S100000 ![] bcast_S_S100000 : (⟨S_, .f32⟩ : BufTy).Contents (Elt F) → (⟨S100000, .f32⟩ : BufTy).Contents (Elt F)),
    binary main_arg2 main_v72 main_v73 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_14 (constant S_ .f32 0x00000000#32),
    unary main_cst_14 main_v74 (broadcastInDim S100000 ![] bcast_S_S100000 : (⟨S_, .f32⟩ : BufTy).Contents (Elt F) → (⟨S100000, .f32⟩ : BufTy).Contents (Elt F)),
    unary main_v71 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_15 (constant S_ .f32 0x00000000#32),
    unary main_cst_15 main_v77 (broadcastInDim S100000 ![] bcast_S_S100000 : (⟨S_, .f32⟩ : BufTy).Contents (Elt F) → (⟨S100000, .f32⟩ : BufTy).Contents (Elt F)),
    binary main_v76 main_v77 main_v78 (cmpf .ogt : (⟨S100000, .f32⟩ : BufTy).Contents (Elt F) → (⟨S100000, .f32⟩ : BufTy).Contents (Elt F) → (⟨S100000, .i1⟩ : BufTy).Contents (Elt F)),
    unary main_v76 main_v79 (Host.rsqrt : (⟨S100000, .f32⟩ : BufTy).Contents (Elt F) → (⟨S100000, .f32⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v78) (TRef.of (T := ⟨S100000, .f32⟩) main_v79) (TRef.of (T := ⟨S100000, .f32⟩) main_call3_v1) (TRef.of (T := ⟨S100000, .f32⟩) main_v80) select,
    nullary main_c_17 (constantI S_ 32 0#32),
    unary main_c_17 main_v81 (broadcastInDim S1700000 ![] bcast_S_S1700000 : (⟨S_, .i32⟩ : BufTy).Contents (Elt F) → (⟨S1700000, .i32⟩ : BufTy).Contents (Elt F)),
    binary main_v70 main_v81 main_v82 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v83 (broadcastInDim S1700000 ![] bcast_S_S1700000 : (⟨S_, .i32⟩ : BufTy).Contents (Elt F) → (⟨S1700000, .i32⟩ : BufTy).Contents (Elt F)),
    binary main_v70 main_v83 main_v84 (addi : (⟨S1700000, .i32⟩ : BufTy).Contents (Elt F) → (⟨S1700000, .i32⟩ : BufTy).Contents (Elt F) → (⟨S1700000, .i32⟩ : BufTy).Contents (Elt F)),
    ternary main_v82 main_v84 main_v70 main_v85 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v85 main_v86 (broadcastInDim S1700000x1 ![0] bcast_S1700000_S1700000x1_0 : (⟨S1700000, .i32⟩ : BufTy).Contents (Elt F) → (⟨S1700000x1, .i32⟩ : BufTy).Contents (Elt F)),
    binary main_v80 main_v86 main_v87 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v87 main_v73 main_v88 (mulf : (⟨S1700000, .f32⟩ : BufTy).Contents (Elt F) → (⟨S1700000, .f32⟩ : BufTy).Contents (Elt F) → (⟨S1700000, .f32⟩ : BufTy).Contents (Elt F)),
    nullary main_c_19 (constantI S_ 32 0#32),
    unary main_c_19 main_v89 (broadcastInDim S1700000 ![] bcast_S_S1700000 : (⟨S_, .i32⟩ : BufTy).Contents (Elt F) → (⟨S1700000, .i32⟩ : BufTy).Contents (Elt F)),
    binary main_v71 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v91 (broadcastInDim S1700000 ![] bcast_S_S1700000 : (⟨S_, .i32⟩ : BufTy).Contents (Elt F) → (⟨S1700000, .i32⟩ : BufTy).Contents (Elt F)),
    binary main_v71 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v71 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v80 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v88 main_v95 main_v96 (mulf : (⟨S1700000, .f32⟩ : BufTy).Contents (Elt F) → (⟨S1700000, .f32⟩ : BufTy).Contents (Elt F) → (⟨S1700000, .f32⟩ : BufTy).Contents (Elt F)) ]

set_option maxRecDepth 16384 in
set_option maxHeartbeats 4000000 in
/-- The stretch is that straight line: the outlined functions unfolded at their calls, sequencing reassociated. -/
theorem main_part1_eq (c : Dev nD) : main_part1 (F := F) c = seq ops1 := by
  simp only [main_part1, fn_var.body, fn_where_0.body, fn_relu.body, fn_where.body, seq, bind_assoc, pure_bind]
  rfl

set_option maxRecDepth 16384 in
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    binary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩

set_option maxRecDepth 16384 in
/-- Every operation of the stretch determines its results: none allocates a buffer with contents left open. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

/-- The buffers the stretch's operations write, in order. -/
abbrev ops1_W : List (Ref sig .tc) :=
  [main_cst_9, main_v49, main_cst_10, main_v50, main_v51, main_c_11, main_call1_cst, main_call1_v0, main_call1_v1, main_call1_cst_0,
   main_call1_v2, main_call1_v3, main_call1_v4, main_call1_v5, main_call1_v6, main_call1_v7, main_call1_cst_1, main_call1_v8, main_call1_cst_2, main_call1_v9,
   main_call1_v10, main_call1_v11, main_call1_cst_3, main_call1_v12, main_call1_cst_4, main_call1_call0_v0, main_call1_call0_v1, main_v52, main_v53, main_v54,
   main_v55, main_cst_12, main_v56, main_v57, main_v58, main_v59, main_v60, main_v61, main_v62, main_v63,
   main_v64, main_v65, main_v66, main_v67, main_call2_cst, main_call2_v0, main_v68, main_v69, main_v70, main_v71,
   main_cst_13, main_v72, main_v73, main_cst_14, main_v74, main_v75, main_v76, main_cst_15, main_v77, main_v78,
   main_v79, main_cst_16, main_call3_v0, main_call3_v1, main_v80, main_c_17, main_v81, main_v82, main_c_18, main_v83,
   main_v84, main_v85, main_v86, main_v87, main_v88, main_c_19, main_v89, main_v90, main_c_20, main_v91,
   main_v92, main_v93, main_v94, main_v95, main_v96]

set_option maxRecDepth 16384 in
set_option maxHeartbeats 4000000 in
/-- Each operation of the stretch writes one buffer of that list. -/
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.RefRun2.lean ====
/-
  The last statements: the second layer's product gathered, scaled and scatter-added with its bias, then the per-graph sums and node counts by scatter-adds over the batch vector and their quotient.
  Listed as host operations in program order, this stretch of the reference program is the straight line of them, and
  each operation touches TensorCore buffers only.
-/
import proofs.«118177_j11355893531063_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of this stretch of @main, in program order (36). -/
abbrev ops2 : List (HloOp τ sig (Elt F)) :=
  [ binary main_v68 main_arg8 main_v97 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    nullary main_c_21 (constantI S_ 32 0#32),
    unary main_c_21 main_v98 (broadcastInDim S1700000 ![] bcast_S_S1700000 : (⟨S_, .i32⟩ : BufTy).Contents (Elt F) → (⟨S1700000, .i32⟩ : BufTy).Contents (Elt F)),
    binary main_v70 main_v98 main_v99 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v100 (broadcastInDim S1700000 ![] bcast_S_S1700000 : (⟨S_, .i32⟩ : BufTy).Contents (Elt F) → (⟨S1700000, .i32⟩ : BufTy).Contents (Elt F)),
    binary main_v70 main_v100 main_v101 (addi : (⟨S1700000, .i32⟩ : BufTy).Contents (Elt F) → (⟨S1700000, .i32⟩ : BufTy).Contents (Elt F) → (⟨S1700000, .i32⟩ : BufTy).Contents (Elt F)),
    ternary main_v99 main_v101 main_v70 main_v102 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v102 main_v103 (broadcastInDim S1700000x1 ![0] bcast_S1700000_S1700000x1_0 : (⟨S1700000, .i32⟩ : BufTy).Contents (Elt F) → (⟨S1700000x1, .i32⟩ : BufTy).Contents (Elt F)),
    binary main_v97 main_v103 main_v104 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)),
    unary main_v96 main_v105 (broadcastInDim S1700000x1 ![0] bcast_S1700000_S1700000x1_0 : (⟨S1700000, .f32⟩ : BufTy).Contents (Elt F) → (⟨S1700000x1, .f32⟩ : BufTy).Contents (Elt F)),
    unary main_v105 main_v106 (broadcastInDim S1700000x2 ![0, 1] bcast_S1700000x1_S1700000x2_0_1 : (⟨S1700000x1, .f32⟩ : BufTy).Contents (Elt F) → (⟨S1700000x2, .f32⟩ : BufTy).Contents (Elt F)),
    binary main_v104 main_v106 main_v107 (mulf : (⟨S1700000x2, .f32⟩ : BufTy).Contents (Elt F) → (⟨S1700000x2, .f32⟩ : BufTy).Contents (Elt F) → (⟨S1700000x2, .f32⟩ : BufTy).Contents (Elt F)),
    nullary main_cst_23 (constant S_ .f32 0x00000000#32),
    unary main_cst_23 main_v108 (broadcastInDim S100000x2 ![] bcast_S_S100000x2 : (⟨S_, .f32⟩ : BufTy).Contents (Elt F) → (⟨S100000x2, .f32⟩ : BufTy).Contents (Elt F)),
    unary main_v71 main_v109 (broadcastInDim S1700000x1 ![0] bcast_S1700000_S1700000x1_0 : (⟨S1700000, .i32⟩ : BufTy).Contents (Elt F) → (⟨S1700000x1, .i32⟩ : BufTy).Contents (Elt F)),
    ternary main_v108 main_v109 main_v107 main_v110 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)),
    unary main_arg9 main_v111 (broadcastInDim S1x2 ![1] bcast_S2_S1x2_1 : (⟨S2, .f32⟩ : BufTy).Contents (Elt F) → (⟨S1x2, .f32⟩ : BufTy).Contents (Elt F)),
    unary main_v111 main_v112 (broadcastInDim S100000x2 ![0, 1] bcast_S1x2_S100000x2_0_1 : (⟨S1x2, .f32⟩ : BufTy).Contents (Elt F) → (⟨S100000x2, .f32⟩ : BufTy).Contents (Elt F)),
    binary main_v110 main_v112 main_v113 (addf : (⟨S100000x2, .f32⟩ : BufTy).Contents (Elt F) → (⟨S100000x2, .f32⟩ : BufTy).Contents (Elt F) → (⟨S100000x2, .f32⟩ : BufTy).Contents (Elt F)),
    nullary main_cst_24 (constant S_ .f32 0x00000000#32),
    unary main_cst_24 main_v114 (broadcastInDim S64x2 ![] bcast_S_S64x2 : (⟨S_, .f32⟩ : BufTy).Contents (Elt F) → (⟨S64x2, .f32⟩ : BufTy).Contents (Elt F)),
    unary main_arg3 main_v115 (broadcastInDim S100000x1 ![0] bcast_S100000_S100000x1_0 : (⟨S100000, .i32⟩ : BufTy).Contents (Elt F) → (⟨S100000x1, .i32⟩ : BufTy).Contents (Elt F)),
    ternary main_v114 main_v115 main_v113 main_v116 ((fun x i u => Host.scatterAdd scatter_S64x2_S100000x1_S100000x2_1_0_0_1 x i u) : (⟨S64x2, .f32⟩ : BufTy).Contents (Elt F) → (⟨S100000x1, .i32⟩ : BufTy).Contents (Elt F) → (⟨S100000x2, .f32⟩ : BufTy).Contents (Elt F) → (⟨S64x2, .f32⟩ : BufTy).Contents (Elt F)),
    nullary main_cst_25 (constant S_ .f32 0x3F800000#32),
    unary main_cst_25 main_v117 (broadcastInDim S100000 ![] bcast_S_S100000 : (⟨S_, .f32⟩ : BufTy).Contents (Elt F) → (⟨S100000, .f32⟩ : BufTy).Contents (Elt F)),
    nullary main_cst_26 (constant S_ .f32 0x00000000#32),
    unary main_cst_26 main_v118 (broadcastInDim S64 ![] bcast_S_S64 : (⟨S_, .f32⟩ : BufTy).Contents (Elt F) → (⟨S64, .f32⟩ : BufTy).Contents (Elt F)),
    unary main_arg3 main_v119 (broadcastInDim S100000x1 ![0] bcast_S100000_S100000x1_0 : (⟨S100000, .i32⟩ : BufTy).Contents (Elt F) → (⟨S100000x1, .i32⟩ : BufTy).Contents (Elt F)),
    ternary main_v118 main_v119 main_v117 main_v120 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_27 (constant S_ .f32 0x3F800000#32),
    unary main_cst_27 main_v121 (broadcastInDim S64 ![] bcast_S_S64 : (⟨S_, .f32⟩ : BufTy).Contents (Elt F) → (⟨S64, .f32⟩ : BufTy).Contents (Elt F)),
    binary main_v120 main_v121 main_v122 (maximumf : (⟨S64, .f32⟩ : BufTy).Contents (Elt F) → (⟨S64, .f32⟩ : BufTy).Contents (Elt F) → (⟨S64, .f32⟩ : BufTy).Contents (Elt F)),
    unary main_v122 main_v123 (broadcastInDim S64x1 ![0] bcast_S64_S64x1_0 : (⟨S64, .f32⟩ : BufTy).Contents (Elt F) → (⟨S64x1, .f32⟩ : BufTy).Contents (Elt F)),
    unary main_v123 main_v124 (broadcastInDim S64x2 ![0, 1] bcast_S64x1_S64x2_0_1 : (⟨S64x1, .f32⟩ : BufTy).Contents (Elt F) → (⟨S64x2, .f32⟩ : BufTy).Contents (Elt F)),
    binary main_v116 main_v124 main_v125 (Host.divf : (⟨S64x2, .f32⟩ : BufTy).Contents (Elt F) → (⟨S64x2, .f32⟩ : BufTy).Contents (Elt F) → (⟨S64x2, .f32⟩ : BufTy).Contents (Elt F)) ]

set_option maxRecDepth 16384 in
set_option maxHeartbeats 4000000 in
/-- The stretch is that straight line: the outlined functions unfolded at their calls, sequencing reassociated. -/
theorem main_part2_eq (c : Dev nD) : main_part2 (F := F) c = seq ops2 := by
  simp only [main_part2, seq, bind_assoc, pure_bind]

set_option maxRecDepth 16384 in
theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..⟩

set_option maxRecDepth 16384 in
/-- Every operation of the stretch determines its results: none allocates a buffer with contents left open. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

/-- The buffers the stretch's operations write, in order. -/
abbrev ops2_W : List (Ref sig .tc) :=
  [main_v97, main_c_21, main_v98, main_v99, main_c_22, main_v100, main_v101, main_v102, main_v103, main_v104,
   main_v105, main_v106, main_v107, main_cst_23, main_v108, main_v109, main_v110, main_v111, main_v112, main_v113,
   main_cst_24, main_v114, main_v115, main_v116, main_cst_25, main_v117, main_cst_26, main_v118, main_v119, main_v120,
   main_cst_27, main_v121, main_v122, main_v123, main_v124, main_v125]

set_option maxRecDepth 16384 in
set_option maxHeartbeats 4000000 in
/-- Each operation of the stretch writes one buffer of that list. -/
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.RefRun.lean ====
/-
  The reference program's run.

  @main is three stretches run in order; each is the straight line of its host operations (the outlined select,
  variance and rectifier functions standing, operation by operation, at their calls), so @main is the straight line of
  all of them. The signature scopes no buffer and no semaphore, every operation touches TensorCore buffers only and
  determines its results, so from any memory with zero counters every weakly fair execution terminates with every
  buffer at the fold of the operations' results over the launch contents. No operation writes an argument's buffer:
  the ten arguments end as they began.
-/
import proofs.«118177_j11355893531063_2_alg».proof.Proof.RefRun0
import proofs.«118177_j11355893531063_2_alg».proof.Proof.RefRun1
import proofs.«118177_j11355893531063_2_alg».proof.Proof.RefRun2
import proofs.«118177_j11355893531063_2_alg».proof.Proof.LibHostPieces
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Idealize.ShloMosaic.HostPieces

/-- Every operation of @main in program order: the three stretches one after the other. -/
abbrev ops : List (HloOp τ sig (Elt F)) := ops0 ++ (ops1 ++ ops2)

/-- @main is the straight line of its operations. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

/-- From any memory with zero counters every weakly fair execution of @main terminates, and every final state has
    each TensorCore buffer at the fold of the operations' results over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over all of @main is the fold over the third stretch from what the first two leave. -/
theorem after_ops (V : Valuation τ sig (Elt F)) : after ops V = after ops2 (after ops1 (after ops0 V)) := by
  rw [ops, after_append, after_append]

/-- A buffer none of the three stretches writes keeps its launch contents through @main. -/
theorem keep (V : Valuation τ sig (Elt F)) (r : Ref sig .tc) (h0 : r ∉ ops0_W) (h1 : r ∉ ops1_W) (h2 : r ∉ ops2_W) :
    after ops V (Proc.devRef .tc r) = V (Proc.devRef .tc r) := by
  rw [after_ops, keep2 _ r h2, keep1 _ r h1, keep0 _ r h0]

/-- Argument 0 ends as it began: no operation writes it. -/
theorem kept_main_arg0 (V : Valuation τ sig (Elt F)) :
    after ops V (main_arg0 : DevRef τ sig) = V (main_arg0 : DevRef τ sig) :=
  keep V main_arg0 (by decide) (by decide) (by decide)

/-- Argument 1 ends as it began: no operation writes it. -/
theorem kept_main_arg1 (V : Valuation τ sig (Elt F)) :
    after ops V (main_arg1 : DevRef τ sig) = V (main_arg1 : DevRef τ sig) :=
  keep V main_arg1 (by decide) (by decide) (by decide)

/-- Argument 2 ends as it began: no operation writes it. -/
theorem kept_main_arg2 (V : Valuation τ sig (Elt F)) :
    after ops V (main_arg2 : DevRef τ sig) = V (main_arg2 : DevRef τ sig) :=
  keep V main_arg2 (by decide) (by decide) (by decide)

/-- Argument 3 ends as it began: no operation writes it. -/
theorem kept_main_arg3 (V : Valuation τ sig (Elt F)) :
    after ops V (main_arg3 : DevRef τ sig) = V (main_arg3 : DevRef τ sig) :=
  keep V main_arg3 (by decide) (by decide) (by decide)

/-- Argument 4 ends as it began: no operation writes it. -/
theorem kept_main_arg4 (V : Valuation τ sig (Elt F)) :
    after ops V (main_arg4 : DevRef τ sig) = V (main_arg4 : DevRef τ sig) :=
  keep V main_arg4 (by decide) (by decide) (by decide)

/-- Argument 5 ends as it began: no operation writes it. -/
theorem kept_main_arg5 (V : Valuation τ sig (Elt F)) :
    after ops V (main_arg5 : DevRef τ sig) = V (main_arg5 : DevRef τ sig) :=
  keep V main_arg5 (by decide) (by decide) (by decide)

/-- Argument 6 ends as it began: no operation writes it. -/
theorem kept_main_arg6 (V : Valuation τ sig (Elt F)) :
    after ops V (main_arg6 : DevRef τ sig) = V (main_arg6 : DevRef τ sig) :=
  keep V main_arg6 (by decide) (by decide) (by decide)

/-- Argument 7 ends as it began: no operation writes it. -/
theorem kept_main_arg7 (V : Valuation τ sig (Elt F)) :
    after ops V (main_arg7 : DevRef τ sig) = V (main_arg7 : DevRef τ sig) :=
  keep V main_arg7 (by decide) (by decide) (by decide)

/-- Argument 8 ends as it began: no operation writes it. -/
theorem kept_main_arg8 (V : Valuation τ sig (Elt F)) :
    after ops V (main_arg8 : DevRef τ sig) = V (main_arg8 : DevRef τ sig) :=
  keep V main_arg8 (by decide) (by decide) (by decide)

/-- Argument 9 ends as it began: no operation writes it. -/
theorem kept_main_arg9 (V : Valuation τ sig (Elt F)) :
    after ops V (main_arg9 : DevRef τ sig) = V (main_arg9 : DevRef τ sig) :=
  keep V main_arg9 (by decide) (by decide) (by decide)

end Cert.ReferenceIdeal.RefRun

end
-- ==== Proof.RefStageDefs.lean ====
/-
  The reference program's arithmetic, stage by stage.

  Each definition below is a pure function of arrays: the composition of a few consecutive host operations of the
  reference program, every operation with exactly the dimension records and constants the program prints. A later
  stage takes an earlier stage's value as a plain argument, so no stage's statement contains another stage unfolded.
  In the order of the program: the source and target index vectors (the edge table's two rows, each followed by the
  self loops 0 … 99999), the edge weights followed by ones, the reciprocal square root of the weighted in-degree where
  it is positive and zero elsewhere, the symmetric normalisation of every edge, the first graph convolution
  (gather at the sources, scale, scatter-add at the targets, bias), batch normalisation over the nodes (mean, variance,
  scale and shift), the rectifier, the second layer's product, and the tail: the second convolution followed by the
  mean of every graph's nodes.
-/
import proofs.«118177_j11355893531063_2_alg».proof.Proof.Gen.ReferenceIdeal

noncomputable section

namespace Cert.ReferenceIdeal.RefStages

open Cert.ReferenceIdeal Cert.ReferenceIdeal.Gen Idealize.ShloMosaic Idealize.SL.Sem

variable {F : FTy → Type} [FloatOps F]

/-- Row 0 of the edge table as a vector (the program's %0, %1). -/
def row0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge table as a vector (%2, %3). -/
def row1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- An edge-index vector followed by the self loops 0 … 99999 (%4 and the concatenation of %5, %6, %70, %71). -/
def catIota (r : (⟨S1600000, .i32⟩ : BufTy).Contents (Elt F)) : (⟨S1700000, .i32⟩ : BufTy).Contents (Elt F) :=
  concatenate S1700000 0 [⟨S1600000, r⟩, ⟨S100000, (iotaInDim S100000 32 0 : (⟨S100000, .i32⟩ : BufTy).Contents (Elt F))⟩] concatenates_S1600000_S100000_S1700000_d0

/-- The source index of every edge, self loops included (%5). -/
def sIdx (e : (⟨S2x1600000, .i32⟩ : BufTy).Contents (Elt F)) : (⟨S1700000, .i32⟩ : BufTy).Contents (Elt F) := catIota (row0 e)

/-- The target index of every edge, self loops included (%6). -/
def dIdx (e : (⟨S2x1600000, .i32⟩ : BufTy).Contents (Elt F)) : (⟨S1700000, .i32⟩ : BufTy).Contents (Elt F) := catIota (row1 e)

/-- The edge weights followed by a one for every self loop (%cst, %7, %8). -/
def wAll (w : (⟨S1600000, .f32⟩ : BufTy).Contents (Elt F)) : (⟨S1700000, .f32⟩ : BufTy).Contents (Elt F) :=
  concatenate S1700000 0 [⟨S1600000, w⟩, ⟨S100000, (broadcastInDim S100000 ![] bcast_S_S100000 (constant S_ .f32 0x3F800000#32 : (⟨S_, .f32⟩ : BufTy).Contents (Elt F)) : (⟨S100000, .f32⟩ : BufTy).Contents (Elt F))⟩] concatenates_S1600000_S100000_S1700000_d0

/-- The weighted in-degree of every node: the weights scatter-added at the targets into zeros (%cst_0, %9 … %11). -/
def degCore (d : (⟨S1700000, .i32⟩ : BufTy).Contents (Elt F)) (wa : (⟨S1700000, .f32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32 : (⟨S_, .f32⟩ : BufTy).Contents (Elt F)) : (⟨S100000, .f32⟩ : BufTy).Contents (Elt F))
    (broadcastInDim S1700000x1 ![0] bcast_S1700000_S1700000x1_0 d : (⟨S1700000x1, .i32⟩ : BufTy).Contents (Elt F)) wa

/-- The reciprocal square root of the degree where it is positive, zero elsewhere (%cst_1, %12 … %15: the compare,
    the rsqrt and the outlined select with its scalar zero broadcast). -/
def dinvCore (d : (⟨S1700000, .i32⟩ : BufTy).Contents (Elt F)) (wa : (⟨S1700000, .f32⟩ : BufTy).Contents (Elt F)) : (⟨S100000, .f32⟩ : BufTy).Contents (Elt F) :=
  select
    (cmpf .ogt (degCore d wa) (broadcastInDim S100000 ![] bcast_S_S100000 (constant S_ .f32 0x00000000#32 : (⟨S_, .f32⟩ : BufTy).Contents (Elt F)) : (⟨S100000, .f32⟩ : BufTy).Contents (Elt F)) : (⟨S100000, .i1⟩ : BufTy).Contents (Elt F))
    (Host.rsqrt (degCore d wa) : (⟨S100000, .f32⟩ : BufTy).Contents (Elt F))
    (broadcastInDim S100000 ![] bcast_S_S100000 (id (constant S_ .f32 0x00000000#32 : (⟨S_, .f32⟩ : BufTy).Contents (Elt F))) : (⟨S100000, .f32⟩ : BufTy).Contents (Elt F))

/-- The same as a function of the edge table and the weights (%15). -/
def dinv (e : (⟨S2x1600000, .i32⟩ : BufTy).Contents (Elt F)) (w : (⟨S1600000, .f32⟩ : BufTy).Contents (Elt F)) : (⟨S100000, .f32⟩ : BufTy).Contents (Elt F) :=
  dinvCore (dIdx e) (wAll w)

/-- A node index made non-negative the way a gather reads it: a negative index has the node count added (the
    compare with zero, the add of 100000, the select), then a trailing unit axis. -/
def wrapIdx (x : (⟨S1700000, .i32⟩ : BufTy).Contents (Elt F)) : (⟨S1700000x1, .i32⟩ : BufTy).Contents (Elt F) :=
  broadcastInDim S1700000x1 ![0] bcast_S1700000_S1700000x1_0
    (select
      (cmpi .slt x (broadcastInDim S1700000 ![] bcast_S_S1700000 (constantI S_ 32 0#32 : (⟨S_, .i32⟩ : BufTy).Contents (Elt F)) : (⟨S1700000, .i32⟩ : BufTy).Contents (Elt F)) : (⟨S1700000, .i1⟩ : BufTy).Contents (Elt F))
      (addi x (broadcastInDim S1700000 ![] bcast_S_S1700000 (constantI S_ 32 100000#32 : (⟨S_, .i32⟩ : BufTy).Contents (Elt F)) : (⟨S1700000, .i32⟩ : BufTy).Contents (Elt F)) : (⟨S1700000, .i32⟩ : BufTy).Contents (Elt F))
      x : (⟨S1700000, .i32⟩ : BufTy).Contents (Elt F))

/-- The normalisation of every edge: the source's factor times the weight times the target's factor (%c … %31). -/
def normCore (s d : (⟨S1700000, .i32⟩ : BufTy).Contents (Elt F)) (wa : (⟨S1700000, .f32⟩ : BufTy).Contents (Elt F)) (dv : (⟨S100000, .f32⟩ : BufTy).Contents (Elt F)) : (⟨S1700000, .f32⟩ : BufTy).Contents (Elt F) :=
  mulf
    (mulf (Host.gather gather_S100000_S1700000x1_S1700000_n_0_n_n_0_1_1 dv (wrapIdx s) : (⟨S1700000, .f32⟩ : BufTy).Contents (Elt F)) wa : (⟨S1700000, .f32⟩ : BufTy).Contents (Elt F))
    (Host.gather gather_S100000_S1700000x1_S1700000_n_0_n_n_0_1_1 dv (wrapIdx d) : (⟨S1700000, .f32⟩ : BufTy).Contents (Elt F))

/-- The same as a function of the edge table and the weights (%31). -/
def norm (e : (⟨S2x1600000, .i32⟩ : BufTy).Contents (Elt F)) (w : (⟨S1600000, .f32⟩ : BufTy).Contents (Elt F)) : (⟨S1700000, .f32⟩ : BufTy).Contents (Elt F) :=
  normCore (sIdx e) (dIdx e) (wAll w) (dinv e w)

/-- The first graph convolution over given index vectors and normalisation (%32 … %48): the feature product gathered
    at the sources, scaled by the normalisation, scatter-added at the targets into zeros, plus the bias. -/
def out1Core (s d : (⟨S1700000, .i32⟩ : BufTy).Contents (Elt F)) (nrm : (⟨S1700000, .f32⟩ : BufTy).Contents (Elt F))
    (x : (⟨S100000x1, .f32⟩ : BufTy).Contents (Elt F)) (W1 : (⟨S1x64, .f32⟩ : BufTy).Contents (Elt F)) (b1 : (⟨S64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32 : (⟨S_, .f32⟩ : BufTy).Contents (Elt F)) : (⟨S100000x64, .f32⟩ : BufTy).Contents (Elt F))
      (broadcastInDim S1700000x1 ![0] bcast_S1700000_S1700000x1_0 d : (⟨S1700000x1, .i32⟩ : BufTy).Contents (Elt F))
      (mulf
        (Host.gather gather_S100000x64_S1700000x1_S1700000x64_1_0_n_n_0_1_164
          (Host.dotGeneral dot_S100000x1_S1x64_S100000x64_1_0_0_1_n_n none x W1 : (⟨S100000x64, .f32⟩ : BufTy).Contents (Elt F)) (wrapIdx s) : (⟨S1700000x64, .f32⟩ : BufTy).Contents (Elt F))
        (broadcastInDim S1700000x64 ![0, 1] bcast_S1700000x1_S1700000x64_0_1
          (broadcastInDim S1700000x1 ![0] bcast_S1700000_S1700000x1_0 nrm : (⟨S1700000x1, .f32⟩ : BufTy).Contents (Elt F)) : (⟨S1700000x64, .f32⟩ : BufTy).Contents (Elt F)) : (⟨S1700000x64, .f32⟩ : BufTy).Contents (Elt F)) : (⟨S100000x64, .f32⟩ : BufTy).Contents (Elt F))
    (broadcastInDim S100000x64 ![0, 1] bcast_S1x64_S100000x64_0_1
      (broadcastInDim S1x64 ![1] bcast_S64_S1x64_1 b1 : (⟨S1x64, .f32⟩ : BufTy).Contents (Elt F)) : (⟨S100000x64, .f32⟩ : BufTy).Contents (Elt F))

/-- The first layer's output as a function of the program's arguments (%48). -/
def out1 (e : (⟨S2x1600000, .i32⟩ : BufTy).Contents (Elt F)) (w : (⟨S1600000, .f32⟩ : BufTy).Contents (Elt F))
    (x : (⟨S100000x1, .f32⟩ : BufTy).Contents (Elt F)) (W1 : (⟨S1x64, .f32⟩ : BufTy).Contents (Elt F)) (b1 : (⟨S64, .f32⟩ : BufTy).Contents (Elt F)) : (⟨S100000x64, .f32⟩ : BufTy).Contents (Elt F) :=
  out1Core (sIdx e) (dIdx e) (norm e w) x W1 b1

/-- The column means over the nodes (%cst_9, %49, %cst_10, %50, %51). -/
def mu (o : (⟨S100000x64, .f32⟩ : BufTy).Contents (Elt F)) : (⟨S64, .f32⟩ : BufTy).Contents (Elt F) :=
  Host.divf
    (Host.reduceAdd o (constant S_ .f32 0x00000000#32 : (⟨S_, .f32⟩ : BufTy).Contents (Elt F)) reducesTo_S100000x64_S64_d0 h_S_ : (⟨S64, .f32⟩ : BufTy).Contents (Elt F))
    (broadcastInDim S64 ![] bcast_S_S64 (constant S_ .f32 0x47C35000#32 : (⟨S_, .f32⟩ : BufTy).Contents (Elt F)) : (⟨S64, .f32⟩ : BufTy).Contents (Elt F))

/-- The divisor of the outlined variance: the node count minus the (zero) degrees of freedom, as a float (%c_11 and
    the variance's %7, %cst_1, %8). -/
def varDen : (⟨S_, .f32⟩ : BufTy).Contents (Elt F) :=
  subf (constant S_ .f32 0x47C35000#32 : (⟨S_, .f32⟩ : BufTy).Contents (Elt F)) (sitofp .f32 (constantI S_ 32 0#32 : (⟨S_, .i32⟩ : BufTy).Contents (Elt F)) : (⟨S_, .f32⟩ : BufTy).Contents (Elt F))

/-- The node rows with the outlined variance's own column mean subtracted (its %cst, %0 … %5). -/
def centred (o : (⟨S100000x64, .f32⟩ : BufTy).Contents (Elt F)) : (⟨S100000x64, .f32⟩ : BufTy).Contents (Elt F) :=
  subf o
    (broadcastInDim S100000x64 ![0, 1] bcast_S1x64_S100000x64_0_1
      (Host.divf
        (broadcastInDim S1x64 ![1] bcast_S64_S1x64_1
          (Host.reduceAdd o (constant S_ .f32 0x00000000#32 : (⟨S_, .f32⟩ : BufTy).Contents (Elt F)) reducesTo_S100000x64_S64_d0 h_S_ : (⟨S64, .f32⟩ : BufTy).Contents (Elt F)) : (⟨S1x64, .f32⟩ : BufTy).Contents (Elt F))
        (broadcastInDim S1x64 ![] bcast_S_S1x64 (constant S_ .f32 0x47C35000#32 : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F))

/-- The column variances over the nodes: the outlined variance at its call, operation by operation (the centred
    squares, their sums over the divisor, and the outlined select against a not-a-number constant). -/
def var (o : (⟨S100000x64, .f32⟩ : BufTy).Contents (Elt F)) : (⟨S64, .f32⟩ : BufTy).Contents (Elt F) :=
  select
    (broadcastInDim S64 ![] bcast_S_S64
      (cmpf .ogt (varDen (F := F)) (constant S_ .f32 0x00000000#32 : (⟨S_, .f32⟩ : BufTy).Contents (Elt F)) : (⟨S_, .i1⟩ : BufTy).Contents (Elt F)) : (⟨S64, .i1⟩ : BufTy).Contents (Elt F))
    (Host.divf
      (Host.reduceAdd (mulf (centred o) (centred o) : (⟨S100000x64, .f32⟩ : BufTy).Contents (Elt F))
        (constant S_ .f32 0x00000000#32 : (⟨S_, .f32⟩ : BufTy).Contents (Elt F)) reducesTo_S100000x64_S64_d0 h_S_ : (⟨S64, .f32⟩ : BufTy).Contents (Elt F))
      (broadcastInDim S64 ![] bcast_S_S64 (varDen (F := F)) : (⟨S64, .f32⟩ : BufTy).Contents (Elt F)) : (⟨S64, .f32⟩ : BufTy).Contents (Elt F))
    (broadcastInDim S64 ![] bcast_S_S64 (id (constant S_ .f32 0x7FC00000#32 : (⟨S_, .f32⟩ : BufTy).Contents (Elt F))) : (⟨S64, .f32⟩ : BufTy).Contents (Elt F))

/-- Batch normalisation over given mean and variance (%53 … %67). -/
def bnCore (o : (⟨S100000x64, .f32⟩ : BufTy).Contents (Elt F)) (mean vr gamma beta : (⟨S64, .f32⟩ : BufTy).Contents (Elt F)) : (⟨S100000x64, .f32⟩ : BufTy).Contents (Elt F) :=
  addf
    (mulf
      (mulf
        (subf o (broadcastInDim S100000x64 ![0, 1] bcast_S1x64_S100000x64_0_1 (broadcastInDim S1x64 ![1] bcast_S64_S1x64_1 mean : (⟨S1x64, .f32⟩ : BufTy).Contents (Elt F)) : (⟨S100000x64, .f32⟩ : BufTy).Contents (Elt F)) : (⟨S100000x64, .f32⟩ : BufTy).Contents (Elt F))
        (broadcastInDim S100000x64 ![0, 1] bcast_S1x64_S100000x64_0_1
          (broadcastInDim S1x64 ![1] bcast_S64_S1x64_1
            (Host.rsqrt (addf vr (broadcastInDim S64 ![] bcast_S_S64 (constant S_ .f32 0x3727C5AC#32 : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F))
      (broadcastInDim S100000x64 ![0, 1] bcast_S1x64_S100000x64_0_1 (broadcastInDim S1x64 ![1] bcast_S64_S1x64_1 gamma : (⟨S1x64, .f32⟩ : BufTy).Contents (Elt F)) : (⟨S100000x64, .f32⟩ : BufTy).Contents (Elt F)) : (⟨S100000x64, .f32⟩ : BufTy).Contents (Elt F))
    (broadcastInDim S100000x64 ![0, 1] bcast_S1x64_S100000x64_0_1 (broadcastInDim S1x64 ![1] bcast_S64_S1x64_1 beta : (⟨S1x64, .f32⟩ : BufTy).Contents (Elt F)) : (⟨S100000x64, .f32⟩ : BufTy).Contents (Elt F))

/-- Batch normalisation of the first layer's output (%67). -/
def bn (o : (⟨S100000x64, .f32⟩ : BufTy).Contents (Elt F)) (gamma beta : (⟨S64, .f32⟩ : BufTy).Contents (Elt F)) : (⟨S100000x64, .f32⟩ : BufTy).Contents (Elt F) :=
  bnCore o (mu o) (var o) gamma beta

/-- The rectifier: the outlined function at its call (its zero, the broadcast, the maximum; %68). -/
def act (y : (⟨S100000x64, .f32⟩ : BufTy).Contents (Elt F)) : (⟨S100000x64, .f32⟩ : BufTy).Contents (Elt F) :=
  maximumf y (broadcastInDim S100000x64 ![] bcast_S_S100000x64 (constant S_ .f32 0x00000000#32 : (⟨S_, .f32⟩ : BufTy).Contents (Elt F)) : (⟨S100000x64, .f32⟩ : BufTy).Contents (Elt F))

/-- The second layer's feature product (%97). -/
def h2 (y : (⟨S100000x64, .f32⟩ : BufTy).Contents (Elt F)) (W2 : (⟨S64x2, .f32⟩ : BufTy).Contents (Elt F)) : (⟨S100000x2, .f32⟩ : BufTy).Contents (Elt F) :=
  Host.dotGeneral dot_S100000x64_S64x2_S100000x2_1_0_0_1_n_n none y W2

/-- The second graph convolution over given index vectors, normalisation and product (%c_21 … %113). -/
def out2Core (s d : (⟨S1700000, .i32⟩ : BufTy).Contents (Elt F)) (nrm : (⟨S1700000, .f32⟩ : BufTy).Contents (Elt F)) (h : (⟨S100000x2, .f32⟩ : BufTy).Contents (Elt F))
    (b2 : (⟨S2, .f32⟩ : BufTy).Contents (Elt F)) : (⟨S100000x2, .f32⟩ : BufTy).Contents (Elt F) :=
  addf
    (Host.scatterAdd scatter_S100000x2_S1700000x1_S1700000x2_1_0_0_1
      (broadcastInDim S100000x2 ![] bcast_S_S100000x2 (constant S_ .f32 0x00000000#32 : (⟨S_, .f32⟩ : BufTy).Contents (Elt F)) : (⟨S100000x2, .f32⟩ : BufTy).Contents (Elt F))
      (broadcastInDim S1700000x1 ![0] bcast_S1700000_S1700000x1_0 d : (⟨S1700000x1, .i32⟩ : BufTy).Contents (Elt F))
      (mulf
        (Host.gather gather_S100000x2_S1700000x1_S1700000x2_1_0_n_n_0_1_12 h (wrapIdx s) : (⟨S1700000x2, .f32⟩ : BufTy).Contents (Elt F))
        (broadcastInDim S1700000x2 ![0, 1] bcast_S1700000x1_S1700000x2_0_1
          (broadcastInDim S1700000x1 ![0] bcast_S1700000_S1700000x1_0 nrm : (⟨S1700000x1, .f32⟩ : BufTy).Contents (Elt F)) : (⟨S1700000x2, .f32⟩ : BufTy).Contents (Elt F)) : (⟨S1700000x2, .f32⟩ : BufTy).Contents (Elt F)) : (⟨S100000x2, .f32⟩ : BufTy).Contents (Elt F))
    (broadcastInDim S100000x2 ![0, 1] bcast_S1x2_S100000x2_0_1
      (broadcastInDim S1x2 ![1] bcast_S2_S1x2_1 b2 : (⟨S1x2, .f32⟩ : BufTy).Contents (Elt F)) : (⟨S100000x2, .f32⟩ : BufTy).Contents (Elt F))

/-- The mean of every graph's node rows (%cst_24 … %125): the rows scatter-added at the batch vector into zeros,
    over the node counts (ones scatter-added the same way) raised to at least one. -/
def poolCore (z : (⟨S100000x2, .f32⟩ : BufTy).Contents (Elt F)) (batch : (⟨S100000, .i32⟩ : BufTy).Contents (Elt F)) : (⟨S64x2, .f32⟩ : BufTy).Contents (Elt F) :=
  Host.divf
    (Host.scatterAdd scatter_S64x2_S100000x1_S100000x2_1_0_0_1
      (broadcastInDim S64x2 ![] bcast_S_S64x2 (constant S_ .f32 0x00000000#32 : (⟨S_, .f32⟩ : BufTy).Contents (Elt F)) : (⟨S64x2, .f32⟩ : BufTy).Contents (Elt F))
      (broadcastInDim S100000x1 ![0] bcast_S100000_S100000x1_0 batch : (⟨S100000x1, .i32⟩ : BufTy).Contents (Elt F)) z : (⟨S64x2, .f32⟩ : BufTy).Contents (Elt F))
    (broadcastInDim S64x2 ![0, 1] bcast_S64x1_S64x2_0_1
      (broadcastInDim S64x1 ![0] bcast_S64_S64x1_0
        (maximumf
          (Host.scatterAdd scatter_S64_S100000x1_S100000_n_0_0_1
            (broadcastInDim S64 ![] bcast_S_S64 (constant S_ .f32 0x00000000#32 : (⟨S_, .f32⟩ : BufTy).Contents (Elt F)) : (⟨S64, .f32⟩ : BufTy).Contents (Elt F))
            (broadcastInDim S100000x1 ![0] bcast_S100000_S100000x1_0 batch : (⟨S100000x1, .i32⟩ : BufTy).Contents (Elt F))
            (broadcastInDim S100000 ![] bcast_S_S100000 (constant S_ .f32 0x3F800000#32 : (⟨S_, .f32⟩ : BufTy).Contents (Elt F)) : (⟨S100000, .f32⟩ : BufTy).Contents (Elt F)) : (⟨S64, .f32⟩ : BufTy).Contents (Elt F))
          (broadcastInDim S64 ![] bcast_S_S64 (constant S_ .f32 0x3F800000#32 : (⟨S_, .f32⟩ : BufTy).Contents (Elt F)) : (⟨S64, .f32⟩ : BufTy).Contents (Elt F)) : (⟨S64, .f32⟩ : BufTy).Contents (Elt F)) : (⟨S64x1, .f32⟩ : BufTy).Contents (Elt F)) : (⟨S64x2, .f32⟩ : BufTy).Contents (Elt F))

/-- The tail of the program (%125) as a function of the second pass's index vectors and normalisation, the second
    layer's product, the batch vector and the second bias. -/
def tail (s d : (⟨S1700000, .i32⟩ : BufTy).Contents (Elt F)) (nrm : (⟨S1700000, .f32⟩ : BufTy).Contents (Elt F)) (h : (⟨S100000x2, .f32⟩ : BufTy).Contents (Elt F))
    (batch : (⟨S100000, .i32⟩ : BufTy).Contents (Elt F)) (b2 : (⟨S2, .f32⟩ : BufTy).Contents (Elt F)) : (⟨S64x2, .f32⟩ : BufTy).Contents (Elt F) :=
  poolCore (out2Core s d nrm h b2) batch

end Cert.ReferenceIdeal.RefStages

end
-- ==== Proof.RefStages0.lean ====
/-
  What the first stretch of the reference program leaves, from any incoming contents: the two rows of the edge table
  as vectors, and the first layer's output as the composition of the named stages applied to the five arguments it
  reads. Each is read off the fold over the stretch's operations.
-/
import proofs.«118177_j11355893531063_2_alg».proof.Proof.RefRun0
import proofs.«118177_j11355893531063_2_alg».proof.Proof.RefStageDefs
import proofs.«118177_j11355893531063_2_alg».proof.Proof.LibResultsRest
import Idealize.ShloMosaic.Lib.StableHlo.Run

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 4000000 in
theorem w0_v1 (V : Valuation τ sig (Elt F)) :
    after ops0 V (main_v1 : DevRef τ sig) = row0 (V (main_arg1 : DevRef τ sig)) := by
  after_results_simp
  rfl

set_option maxRecDepth 16384 in
set_option maxHeartbeats 4000000 in
theorem w0_v3 (V : Valuation τ sig (Elt F)) :
    after ops0 V (main_v3 : DevRef τ sig) = row1 (V (main_arg1 : DevRef τ sig)) := by
  after_results_simp
  rfl

attribute [local irreducible] Host.scatterAdd Host.gather Host.reduceAdd concatenate in
set_option maxRecDepth 16384 in
set_option maxHeartbeats 4000000 in
theorem w0_v48 (V : Valuation τ sig (Elt F)) :
    after ops0 V (main_v48 : DevRef τ sig)
      = out1 (V (main_arg1 : DevRef τ sig)) (V (main_arg2 : DevRef τ sig)) (V (main_arg0 : DevRef τ sig))
          (V (main_arg4 : DevRef τ sig)) (V (main_arg5 : DevRef τ sig)) := by
  after_results_simp
  after_results_rest
  rfl

end Cert.ReferenceIdeal.RefStages

end
-- ==== Proof.RefStages1.lean ====
/-
  What the second stretch of the reference program leaves, from any incoming contents: the rectified, batch-normalised
  first layer as the named stages applied to the incoming first-layer output and the scale and shift arguments, and
  the second pass's index vectors and edge normalisation as the same stages the first pass computes, applied to the
  incoming rows of the edge table and the weights.
-/
import proofs.«118177_j11355893531063_2_alg».proof.Proof.RefRun1
import proofs.«118177_j11355893531063_2_alg».proof.Proof.RefStageDefs
import proofs.«118177_j11355893531063_2_alg».proof.Proof.LibResultsRest
import Idealize.ShloMosaic.Lib.StableHlo.Run

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

attribute [local irreducible] Host.scatterAdd Host.gather Host.reduceAdd concatenate in
set_option maxRecDepth 16384 in
set_option maxHeartbeats 4000000 in
theorem w1_v68 (V : Valuation τ sig (Elt F)) :
    after ops1 V (main_v68 : DevRef τ sig) = act (bn (V (main_v48 : DevRef τ sig)) (V (main_arg6 : DevRef τ sig)) (V (main_arg7 : DevRef τ sig))) := by
  after_results_simp
  after_results_rest
  rfl

attribute [local irreducible] Host.scatterAdd Host.gather Host.reduceAdd concatenate in
set_option maxRecDepth 16384 in
set_option maxHeartbeats 4000000 in
theorem w1_v70 (V : Valuation τ sig (Elt F)) :
    after ops1 V (main_v70 : DevRef τ sig) = catIota (V (main_v1 : DevRef τ sig)) := by
  after_results_simp
  after_results_rest
  rfl

attribute [local irreducible] Host.scatterAdd Host.gather Host.reduceAdd concatenate in
set_option maxRecDepth 16384 in
set_option maxHeartbeats 4000000 in
theorem w1_v71 (V : Valuation τ sig (Elt F)) :
    after ops1 V (main_v71 : DevRef τ sig) = catIota (V (main_v3 : DevRef τ sig)) := by
  after_results_simp
  after_results_rest
  rfl

attribute [local irreducible] Host.scatterAdd Host.gather Host.reduceAdd concatenate in
set_option maxRecDepth 16384 in
set_option maxHeartbeats 4000000 in
theorem w1_v96 (V : Valuation τ sig (Elt F)) :
    after ops1 V (main_v96 : DevRef τ sig)
      = normCore (catIota (V (main_v1 : DevRef τ sig))) (catIota (V (main_v3 : DevRef τ sig))) (wAll (V (main_arg2 : DevRef τ sig)))
          (dinvCore (catIota (V (main_v3 : DevRef τ sig))) (wAll (V (main_arg2 : DevRef τ sig)))) := by
  after_results_simp
  after_results_rest
  rfl

end Cert.ReferenceIdeal.RefStages

end
-- ==== Proof.RefStages2.lean ====
/-
  What the last stretch of the reference program leaves at its result, from any incoming contents: the tail stage
  applied to the incoming second-pass index vectors and normalisation, the second layer's product of the incoming
  rectified features with the second weight matrix, the batch vector and the second bias.
-/
import proofs.«118177_j11355893531063_2_alg».proof.Proof.RefRun2
import proofs.«118177_j11355893531063_2_alg».proof.Proof.RefStageDefs
import proofs.«118177_j11355893531063_2_alg».proof.Proof.LibResultsRest
import Idealize.ShloMosaic.Lib.StableHlo.Run

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

attribute [local irreducible] Host.scatterAdd Host.gather Host.reduceAdd concatenate in
set_option maxRecDepth 16384 in
set_option maxHeartbeats 4000000 in
theorem w2_v125 (V : Valuation τ sig (Elt F)) :
    after ops2 V (main_v125 : DevRef τ sig)
      = tail (V (main_v70 : DevRef τ sig)) (V (main_v71 : DevRef τ sig)) (V (main_v96 : DevRef τ sig))
          (h2 (V (main_v68 : DevRef τ sig)) (V (main_arg8 : DevRef τ sig))) (V (main_arg3 : DevRef τ sig)) (V (main_arg9 : DevRef τ sig)) := by
  after_results_simp
  rfl

end Cert.ReferenceIdeal.RefStages

end
-- ==== Proof.RefStages.lean ====
/-
  The reference program's result as a composition of named stages of its arguments.

  The fold over all of @main is the fold over its third stretch from what the first two leave. The third stretch
  leaves the tail stage of the second pass's index vectors and normalisation, the second layer's product, the batch
  vector and the second bias; the second stretch leaves those as stages of the first layer's output, the rows of the
  edge table and the weights; the first stretch leaves these as stages of the arguments. The second pass recomputes
  the index vectors and the normalisation by the same operations on the same arguments, so they are the first
  pass's stages. Composing the three readings gives the result buffer's final contents, and with the run of the
  straight line every weakly fair execution of @main ends there with the ten arguments unchanged.
-/
import proofs.«118177_j11355893531063_2_alg».proof.Proof.RefRun
import proofs.«118177_j11355893531063_2_alg».proof.Proof.RefStages0
import proofs.«118177_j11355893531063_2_alg».proof.Proof.RefStages1
import proofs.«118177_j11355893531063_2_alg».proof.Proof.RefStages2
import Idealize.ShloMosaic.Lib.StableHlo.Run

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The second pass's source index vector is the first pass's. -/
theorem v70_eq (V : Valuation τ sig (Elt F)) : after ops V (main_v70 : DevRef τ sig) = sIdx (V (main_arg1 : DevRef τ sig)) := by
  rw [after_ops, keep2 _ main_v70 (by decide), w1_v70, w0_v1]
  rfl

/-- The second pass's target index vector is the first pass's. -/
theorem v71_eq (V : Valuation τ sig (Elt F)) : after ops V (main_v71 : DevRef τ sig) = dIdx (V (main_arg1 : DevRef τ sig)) := by
  rw [after_ops, keep2 _ main_v71 (by decide), w1_v71, w0_v3]
  rfl

/-- The second pass's edge normalisation is the first pass's: the same operations on the same arguments. -/
theorem v96_eq (V : Valuation τ sig (Elt F)) : after ops V (main_v96 : DevRef τ sig) = norm (V (main_arg1 : DevRef τ sig)) (V (main_arg2 : DevRef τ sig)) := by
  rw [after_ops, keep2 _ main_v96 (by decide), w1_v96, w0_v1, w0_v3, keep0 _ main_arg2 (by decide)]
  rfl

/-- The result buffer after @main: the composition of the stages, over the launch contents of the arguments. -/
theorem result_eq (V : Valuation τ sig (Elt F)) :
    after ops V (main_v125 : DevRef τ sig)
      = tail (sIdx (V (main_arg1 : DevRef τ sig))) (dIdx (V (main_arg1 : DevRef τ sig))) (norm (V (main_arg1 : DevRef τ sig)) (V (main_arg2 : DevRef τ sig)))
          (h2 (act (bn (out1 (V (main_arg1 : DevRef τ sig)) (V (main_arg2 : DevRef τ sig)) (V (main_arg0 : DevRef τ sig)) (V (main_arg4 : DevRef τ sig)) (V (main_arg5 : DevRef τ sig))) (V (main_arg6 : DevRef τ sig)) (V (main_arg7 : DevRef τ sig)))) (V (main_arg8 : DevRef τ sig))) (V (main_arg3 : DevRef τ sig)) (V (main_arg9 : DevRef τ sig)) := by
  rw [after_ops, w2_v125, w1_v70, w1_v71, w1_v96, w1_v68,
    keep1 _ main_arg8 (by decide), keep1 _ main_arg3 (by decide), keep1 _ main_arg9 (by decide),
    w0_v1, w0_v3, w0_v48, keep0 _ main_arg2 (by decide), keep0 _ main_arg6 (by decide), keep0 _ main_arg7 (by decide),
    keep0 _ main_arg8 (by decide), keep0 _ main_arg3 (by decide), keep0 _ main_arg9 (by decide)]
  rfl

/-- On every device, from any memory with zero counters: every weakly fair execution of @main terminates with the
    result buffer at the composition of the stages of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125)
        = tail (sIdx (m ((c.tc : Thread nD τ).loc main_arg1))) (dIdx (m ((c.tc : Thread nD τ).loc main_arg1))) (norm (m ((c.tc : Thread nD τ).loc main_arg1)) (m ((c.tc : Thread nD τ).loc main_arg2)))
          (h2 (act (bn (out1 (m ((c.tc : Thread nD τ).loc main_arg1)) (m ((c.tc : Thread nD τ).loc main_arg2)) (m ((c.tc : Thread nD τ).loc main_arg0)) (m ((c.tc : Thread nD τ).loc main_arg4)) (m ((c.tc : Thread nD τ).loc main_arg5))) (m ((c.tc : Thread nD τ).loc main_arg6)) (m ((c.tc : Thread nD τ).loc main_arg7)))) (m ((c.tc : Thread nD τ).loc main_arg8))) (m ((c.tc : Thread nD τ).loc main_arg3)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v125).trans (result_eq (launchContents m c)),
      (h c main_arg0).trans (kept_main_arg0 (launchContents m c)),
      (h c main_arg1).trans (kept_main_arg1 (launchContents m c)),
      (h c main_arg2).trans (kept_main_arg2 (launchContents m c)),
      (h c main_arg3).trans (kept_main_arg3 (launchContents m c)),
      (h c main_arg4).trans (kept_main_arg4 (launchContents m c)),
      (h c main_arg5).trans (kept_main_arg5 (launchContents m c)),
      (h c main_arg6).trans (kept_main_arg6 (launchContents m c)),
      (h c main_arg7).trans (kept_main_arg7 (launchContents m c)),
      (h c main_arg8).trans (kept_main_arg8 (launchContents m c)),
      (h c main_arg9).trans (kept_main_arg9 (launchContents m c))⟩)
    (run_raw m ρ)

end Cert.ReferenceIdeal.RefStages

end
-- ==== Proof.BridgeShared.lean ====
/-
  What the two programs share: the edge endpoints with their self loops, the weights with their ones, the
  normalisation of every edge, and the tail (the second convolution and the mean over every graph) are the same
  operations on the same arguments in both programs, so they are the same functions.
-/
import proofs.«118177_j11355893531063_2_alg».proof.Proof.KerStageDefs
import proofs.«118177_j11355893531063_2_alg».proof.Proof.RefStageDefs

noncomputable section

namespace Cert.Bridge

open Idealize.ShloMosaic

theorem sIdx_eq (e : Vec Ideal Cert.KernelIdeal.S2x1600000 .i32) :
    Cert.KernelIdeal.KerStages.sIdx e = Cert.ReferenceIdeal.RefStages.sIdx (F := Ideal) e := rfl

theorem dIdx_eq (e : Vec Ideal Cert.KernelIdeal.S2x1600000 .i32) :
    Cert.KernelIdeal.KerStages.dIdx e = Cert.ReferenceIdeal.RefStages.dIdx (F := Ideal) e := rfl

theorem wAll_eq (w : Vec Ideal Cert.KernelIdeal.S1600000 .f32) :
    Cert.KernelIdeal.KerStages.wAll w = Cert.ReferenceIdeal.RefStages.wAll (F := Ideal) w := rfl

theorem wrap_eq (s : Vec Ideal Cert.KernelIdeal.S1700000 .i32)
    (h : Cert.KernelIdeal.S1700000.BroadcastsInDim Cert.KernelIdeal.S1700000x1 ![0]) :
    broadcastInDim Cert.KernelIdeal.S1700000x1 ![0] h (Cert.KernelIdeal.KerStages.wrap s)
      = Cert.ReferenceIdeal.RefStages.wrapIdx (F := Ideal) s := rfl

theorem norm_eq (e : Vec Ideal Cert.KernelIdeal.S2x1600000 .i32) (w : Vec Ideal Cert.KernelIdeal.S1600000 .f32) :
    Cert.KernelIdeal.KerStages.norm e w = Cert.ReferenceIdeal.RefStages.norm (F := Ideal) e w := rfl

theorem tail_eq (s d : Vec Ideal Cert.KernelIdeal.S1700000 .i32) (nrm : Vec Ideal Cert.KernelIdeal.S1700000 .f32)
    (h : Vec Ideal Cert.KernelIdeal.S100000x2 .f32) (batch : Vec Ideal Cert.KernelIdeal.S100000 .i32)
    (b2 : Vec Ideal Cert.KernelIdeal.S2 .f32) :
    Cert.KernelIdeal.KerStages.tail s d nrm h batch b2 = Cert.ReferenceIdeal.RefStages.tail (F := Ideal) s d nrm h batch b2 := rfl

end Cert.Bridge

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.LibScatterVec.lean ====
/-
  A scatter with an add body into a vector, read at an entry, over the extended reals.

  What segment_sum (x.at[idx].add(u)) of a vector x of N entries with R updates lowers to: a scatter with no update
  window axis, inserted window axis 0, scatter axis 0 mapped to operand axis 0, the index vector on axis 1 of the
  scatter indices [R, 1], and updates [R]. Update entry e lands on the operand entry idx (e, 0), read as a signed
  integer, when that entry exists, and is dropped otherwise. So the result's entry i is the operand's entry plus the
  sum of the update entries e whose index is i: the same set of update rows as for a row scatter of an [N, C] operand
  with the same scatter indices. The extents N, R are arbitrary.
-/
import proofs.«118177_j11355893531063_2_alg».proof.Proof.LibScatterRows

noncomputable section

open scoped BigOperators

namespace Idealize.ShloMosaic.ScatterVec

open Idealize.ShloMosaic Idealize.ShloMosaic.ValueIdx

/-- The dimension numbers of a scatter into a vector, for an operand [N], scatter indices [R, 1] and updates [R]; their
    conditions are decided on a program's literal shapes. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat}

/-- On the only operand axis the window starts at the update's index, read signed. -/
theorem start_vec (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecDims N R wf).start j idx 0 = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only operand axis is inserted: its window coordinate is 0. -/
theorem window_vec (wf : ScatterDims.WF ⟨1, ![N]⟩ ⟨2, ![R, 1]⟩ ⟨1, ![R]⟩ [] [0] [0] 1)
    (j : (⟨1, ![R]⟩ : Shape).Idx) : (vecDims N R wf).window j 0 = 0 := by
  unfold ScatterDims.window
  rw [dif_neg]
  intro h
  have h2 := (List.mem_filter.mp h).2
  simp at h2

/-- An update entry lands on entry i exactly when its index is i. -/
theorem lands_iff (wf : ScatterDims.WF ⟨1, ![N]⟩ ⟨2, ![R, 1]⟩ ⟨1, ![R]⟩ [] [0] [0] 1)
    (j : (⟨1, ![R]⟩ : Shape).Idx) (idx : IVec ⟨2, ![R, 1]⟩ w) (i : Fin N) :
    (vecDims N R wf).resultIdx? j idx = some (ix1 i) ↔ (idx (ix2 (j 0) (0 : Fin 1))).toInt = (i.val : ℤ) := by
  rw [ScatterRows.resultIdx?_eq_some_iff]
  constructor
  · intro h
    have h0 : (vecDims N R wf).start j idx 0 + (((vecDims N R wf).window j 0 : ℕ) : ℤ) = (i.val : ℤ) := h 0
    rw [start_vec, window_vec] at h0
    omega
  · intro h0 a
    match a with
    | ⟨0, _⟩ =>
      show (vecDims N R wf).start j idx 0 + (((vecDims N R wf).window j 0 : ℕ) : ℤ) = (i.val : ℤ)
      rw [start_vec, window_vec, h0]
      omega

/-- The accumulating scatter into a vector at entry i: the operand's entry plus the sum of the update entries whose
    index is i (the update rows that a row scatter with the same indices lands on row i). -/
theorem scatterAdd_vec_apply (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (i : Fin N) :
    Ideal.hostScatterAdd (vecDims N R wf) x idx upd (ix1 i)
      = x (ix1 i) + ∑ e ∈ ScatterRows.hits (N := N) idx i, upd (ix1 e) := by
  unfold Ideal.hostScatterAdd
  congr 1
  refine Finset.sum_nbij' (fun j => (j 0 : Fin R)) (fun e => ix1 e) ?_ ?_ ?_ ?_ ?_
  · intro j hj
    rw [Finset.mem_filter] at hj
    exact Finset.mem_filter.mpr ⟨Finset.mem_univ _, (lands_iff wf j idx i).mp hj.2⟩
  · intro e he
    have he2 := (Finset.mem_filter.mp he).2
    rw [Finset.mem_filter]
    exact ⟨Finset.mem_univ _, (lands_iff wf (ix1 e) idx i).mpr he2⟩
  · intro j _
    exact (eq_ix1 j).symm
  · intro e _
    rfl
  · intro j _
    exact congrArg upd (eq_ix1 j)

end Idealize.ShloMosaic.ScatterVec

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibGatherCol.lean ====
/-
  A gather of single entries from a one-column matrix, read at an entry.

  What x[idx, 0] of an [N, 1] operand at R row numbers lowers to: a gather whose start indices are [R, 2] (the row
  number beside a column number), both operand axes collapsed, start index map [0, 1], the index vector on axis 1,
  slices [1, 1], and a result [R]. On either axis the start is the index read signed and clamped into the axis's
  range; the column axis has extent 1, so its start is 0 whatever the second index column holds. Result entry e is
  therefore the operand at (row index of e, signed and clamped into [0, N - 1]; column 0). The extents N and R are
  arbitrary, and so is the element type. When the start indices are a column of row numbers joined with any second
  column, that row is the one a row gather at the first column reads.
-/
import proofs.«118177_j11355893531063_2_alg».proof.Proof.LibGatherRows
import Idealize.ShloMosaic.PureOps.Ideal
import Idealize.ShloMosaic.Lib.Pipeline.Value
import Idealize.ShloMosaic.Lib.ValueIdx

noncomputable section

namespace Idealize.ShloMosaic.GatherCol

open Idealize.ShloMosaic Idealize.ShloMosaic.ValueIdx

variable {α : Type}

/-- The dimension numbers of an entry gather from a one-column matrix, for an operand [N, 1], start indices [R, 2]
    and a result [R]; their conditions are decided on a program's literal shapes. -/
abbrev colDims (N R : Nat)
    (wf : GatherDims.WF ⟨2, ![N, 1]⟩ ⟨2, ![R, 2]⟩ ⟨1, ![R]⟩ [] [0, 1] [] [0, 1] [] 1 ![1, 1]) :
    GatherDims ⟨2, ![N, 1]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The operand row that result entry e reads: the first index column, signed, clamped into [0, N - 1]. -/
def rowAt {N R w : Nat} (hN : 0 < N) (idx : IVec ⟨2, ![R, 2]⟩ w) (e : Fin R) : Fin N :=
  ⟨min (idx (ix2 e (0 : Fin 2))).toInt.toNat (N - 1), by omega⟩

/-- The entry gather at e: the operand at the clamped row and column 0. -/
theorem gather_col_apply {N R w : Nat} (hN : 0 < N)
    (wf : GatherDims.WF ⟨2, ![N, 1]⟩ ⟨2, ![R, 2]⟩ ⟨1, ![R]⟩ [] [0, 1] [] [0, 1] [] 1 ![1, 1])
    (x : (⟨2, ![N, 1]⟩ : Shape).Idx → α) (idx : IVec ⟨2, ![R, 2]⟩ w) (e : Fin R) :
    Host.gather (colDims N R wf) x idx (ix1 e) = x (ix2 (rowAt hN idx e) (0 : Fin 1)) := by
  unfold Host.gather
  congr 1
  funext a
  refine Fin.ext ?_
  match a with
  | ⟨0, _⟩ =>
    show (colDims N R wf).start (ix1 e) idx 0 + (colDims N R wf).batchCoord (ix1 e) 0
      + (colDims N R wf).offCoord (ix1 e) 0 = _
    rw [GatherDims.batchCoord_eq_zero _ _ _ List.not_mem_nil,
      GatherDims.offCoord_eq_zero _ _ _ (fun h => ((GatherDims.mem_sKept _ _).mp h).1
        (show (0 : Fin 2) ∈ ([0, 1] : List (Fin 2)) by decide))]
    simp only [Nat.add_zero]
    unfold GatherDims.start
    rw [dif_pos (show (0 : Fin 2) ∈ (colDims N R wf).startIndexMap from
      (show (0 : Fin 2) ∈ ([0, 1] : List (Fin 2)) by decide))]
    have hsi : (colDims N R wf).siIdx (ix1 e) ⟨List.idxOf (0 : Fin 2) (colDims N R wf).startIndexMap,
        List.idxOf_lt_length_iff.2 (show (0 : Fin 2) ∈ ([0, 1] : List (Fin 2)) by decide)⟩ = ix2 e (0 : Fin 2) := by
      funext b; refine Fin.ext ?_
      match b with
      | ⟨0, _⟩ => rfl
      | ⟨1, _⟩ => rfl
    rw [hsi]
    rfl
  | ⟨1, _⟩ =>
    show (colDims N R wf).start (ix1 e) idx 1 + (colDims N R wf).batchCoord (ix1 e) 1
      + (colDims N R wf).offCoord (ix1 e) 1 = 0
    rw [GatherDims.batchCoord_eq_zero _ _ _ List.not_mem_nil,
      GatherDims.offCoord_eq_zero _ _ _ (fun h => ((GatherDims.mem_sKept _ _).mp h).1
        (show (1 : Fin 2) ∈ ([0, 1] : List (Fin 2)) by decide))]
    have hle : (colDims N R wf).start (ix1 e) idx 1 ≤ 1 - 1 := (colDims N R wf).start_le (ix1 e) idx 1
    omega

/-- Start indices that are a column A of row numbers beside any second column B: the row an entry gather reads at e
    is the row a row gather with start indices A reads at e. -/
theorem rowAt_concat {N R w : Nat} (hN : 0 < N) (A B : IVec ⟨2, ![R, 1]⟩ w)
    (h : Shape.Concatenates [(⟨2, ![R, 1]⟩ : Shape), (⟨2, ![R, 1]⟩ : Shape)] (⟨2, ![R, 2]⟩ : Shape) 1) (e : Fin R) :
    rowAt hN (concatenate (⟨2, ![R, 2]⟩ : Shape) 1 [⟨(⟨2, ![R, 1]⟩ : Shape), A⟩, ⟨(⟨2, ![R, 1]⟩ : Shape), B⟩] h) e
      = GatherRows.rowOf hN A e := by
  have hc : concatenate (⟨2, ![R, 2]⟩ : Shape) 1 [⟨(⟨2, ![R, 1]⟩ : Shape), A⟩, ⟨(⟨2, ![R, 1]⟩ : Shape), B⟩] h (ix2 e (0 : Fin 2))
      = A (ix2 e (0 : Fin 1)) :=
    concatenate_pair_apply_left 1 A B h (ix2 e (0 : Fin 2)) rfl (ix2 e (0 : Fin 1))
      (fun b => by match b with | ⟨0, _⟩ => rfl | ⟨1, _⟩ => rfl)
  unfold rowAt GatherRows.rowOf
  exact Fin.ext (by show min _ _ = min _ _; rw [hc])

end Idealize.ShloMosaic.GatherCol

end
-- ==== Proof.LibHostSums.lean ====
/-
  The host's float sum along the leading axis, read at an index, at the ideal values.

  For an [a, b] matrix x the host's sum over axis 0 from an initial value is, at column j, the initial value plus
  the sum over the rows i of x (i, j); for a length-a vector the host's sum over its one axis, a scalar, is the
  initial value plus the sum of its entries. Arbitrary extents. Also: the host's float scatter-add is the exact
  accumulation (stated once over arbitrary shapes, to be used by rewriting). (The library states the first over the reduced
  shape's own index and the second over the operand's index set; here both are sums over Fin a.)
-/
import Idealize.ShloMosaic.PureOps.Ideal.Laws
import Idealize.ShloMosaic.Lib.ValueIdx

noncomputable section

open scoped BigOperators

namespace Idealize.ShloMosaic.HostSums

open Idealize.ShloMosaic Idealize.ShloMosaic.ValueIdx

variable {a b : ℕ}

/-- The column sums on the host: at column j, the initial value plus the sum of the column's entries. -/
theorem hostColSum_apply (x : (⟨2, ![a, b]⟩ : Shape).Idx → EReal) (init : EReal)
    (h' : (⟨2, ![a, b]⟩ : Shape).ReducesTo [0] ⟨1, ![b]⟩) (j : Fin b) :
    Ideal.hostReduceAdd h' x init (ix1 j) = init + ∑ i : Fin a, x (ix2 i j) := by
  have h : (⟨2, ![a, b]⟩ : Shape).Reduces [0] ⟨1, ![b]⟩ := ⟨h'.1, Nat.one_pos, h'.2⟩
  rw [Ideal.hostReduceAdd_single h' h]
  refine congrArg (init + ·) (Finset.sum_congr rfl fun i _ => ?_)
  exact congrArg x (funext fun c => Fin.ext (by match c with | ⟨0, _⟩ => rfl | ⟨1, _⟩ => rfl))

/-- A vector's indices are its positions. -/
def idxEquiv1 {n : ℕ} : (⟨1, ![n]⟩ : Shape).Idx ≃ Fin n where
  toFun j := j 0
  invFun := ix1
  left_inv j := (eq_ix1 j).symm
  right_inv _ := rfl

/-- A sum over a vector's index set is the sum over its positions. -/
theorem sum_idx1 {M : Type*} [AddCommMonoid M] {n : ℕ} (f : (⟨1, ![n]⟩ : Shape).Idx → M) :
    ∑ j, f j = ∑ i : Fin n, f (ix1 i) :=
  Fintype.sum_equiv idxEquiv1 f (fun i => f (ix1 i)) fun j => congrArg f (eq_ix1 j)

/-- The host's sum of a vector: the initial value plus the sum of the entries. -/
theorem hostVecSum_apply (x : (⟨1, ![a]⟩ : Shape).Idx → EReal) (init : EReal)
    (h' : (⟨1, ![a]⟩ : Shape).ReducesTo [0] ⟨0, ![]⟩) (j : (⟨0, ![]⟩ : Shape).Idx) :
    Ideal.hostReduceAdd h' x init j = init + ∑ i : Fin a, x (ix1 i) := by
  rw [Ideal.hostReduceAdd_total h' (fun b => b.elim0) x init j, sum_idx1]

/-- The host's float scatter-add at the ideal values is the exact accumulation, whatever the shapes. -/
theorem hostScatterAdd_eq {s si u : Shape} {w : Nat} {φ : FTy} (d : ScatterDims s si u) (x : FVec Ideal s φ)
    (idx : IVec si w) (upd : FVec Ideal u φ) : Host.scatterAdd d x idx upd = Ideal.hostScatterAdd d x idx upd := rfl

end Idealize.ShloMosaic.HostSums

end
-- ==== Proof.KerAgg.lean ====
/-
  The kernel program's scalar aggregate read at a node.

  An edge's message is its source node's feature x (src, 0) times the edge's normalisation, the source being the
  edge's (wrapped) source index read signed and clamped into the node range; the aggregate at node n is the sum,
  from zero, of the messages of the edges whose target index is n.
-/
import proofs.«118177_j11355893531063_2_alg».proof.Proof.KerStageDefs
import proofs.«118177_j11355893531063_2_alg».proof.Proof.LibScatterVec
import proofs.«118177_j11355893531063_2_alg».proof.Proof.LibGatherCol
import proofs.«118177_j11355893531063_2_alg».proof.Proof.LibHostSums
import Idealize.ShloMosaic.Lib.IdealHost

noncomputable section

open scoped BigOperators

namespace Cert.Bridge.Ker

open Idealize.ShloMosaic Idealize.ShloMosaic.ValueIdx
open Cert.KernelIdeal Cert.KernelIdeal.Gen Cert.KernelIdeal.KerStages

theorem nodes_pos : 0 < 100000 := by norm_num

/-- Every edge's wrapped source index, as the column of start indices a gather reads. -/
abbrev srcIdx (e : Vec Ideal S2x1600000 .i32) : Vec Ideal S1700000x1 .i32 :=
  broadcastInDim S1700000x1 ![0] bcast_S1700000_S1700000x1_0 (wrap (sIdx e))

/-- Every edge's target index, as the column of scatter indices. -/
abbrev dstIdx (e : Vec Ideal S2x1600000 .i32) : Vec Ideal S1700000x1 .i32 :=
  broadcastInDim S1700000x1 ![0] bcast_S1700000_S1700000x1_0 (dIdx e)

/-- The feature gather: with start indices a column A of row numbers beside any second column, entry e' is the
    feature of the row A names at e' (read signed, clamped into the node range). -/
theorem gather_pair (x : Vec Ideal S100000x1 .f32) (A B : Vec Ideal S1700000x1 .i32) (e' : Fin 1700000) :
    Host.gather (α := Elt Ideal .f32) gather_S100000x1_S1700000x2_S1700000_n_01_n_n_01_1_11 x
      (concatenate S1700000x2 1 [⟨S1700000x1, A⟩, ⟨S1700000x1, B⟩] concatenates_S1700000x1_S1700000x1_S1700000x2_d1) (ix1 e')
      = x (ix2 (GatherRows.rowOf nodes_pos A e') (0 : Fin 1)) := by
  have hg : gather_S100000x1_S1700000x2_S1700000_n_01_n_n_01_1_11
      = GatherCol.colDims 100000 1700000 gather_S100000x1_S1700000x2_S1700000_n_01_n_n_01_1_11_wf := rfl
  rw [hg, GatherCol.gather_col_apply nodes_pos, GatherCol.rowAt_concat]

/-- The scatter-add into zeros: entry n is the sum, from zero, of the updates whose index is n. -/
theorem scatter_zeros (idx : Vec Ideal S1700000x1 .i32) (upd : Vec Ideal S1700000 .f32) (n : Fin 100000) :
    Host.scatterAdd (F := Ideal) (φ := .f32) scatter_S100000_S1700000x1_S1700000_n_0_0_1
      (broadcastInDim S100000 ![] bcast_S_S100000 (constant (F := Ideal) S_ .f32 0x00000000#32)) idx upd (ix1 n)
      = 0 + ∑ e' ∈ ScatterRows.hits (N := 100000) idx n, upd (ix1 e') := by
  have hd : scatter_S100000_S1700000x1_S1700000_n_0_0_1
      = ScatterVec.vecDims 100000 1700000 scatter_S100000_S1700000x1_S1700000_n_0_0_1_wf := rfl
  rw [HostSums.hostScatterAdd_eq, hd, ScatterVec.scatterAdd_vec_apply, ValueIdx.broadcastInDim_scalar_apply, ValueIdx.constant_apply,
    Ideal.ofBits_zero_f32]

/-- An edge's message: its source's feature times its normalisation. -/
theorem msg_apply (e : Vec Ideal S2x1600000 .i32) (w : Vec Ideal S1600000 .f32) (x : Vec Ideal S100000x1 .f32)
    (e' : Fin 1700000) :
    msg e w x (ix1 e') = x (ix2 (GatherRows.rowOf nodes_pos (srcIdx e) e') (0 : Fin 1)) * KerStages.norm e w (ix1 e') := by
  unfold msg
  rw [ValueIdx.mulf_apply, gather_pair]

/-- The aggregate at node n: the messages of the edges that end at n, summed from zero. -/
theorem aAgg_apply (e : Vec Ideal S2x1600000 .i32) (w : Vec Ideal S1600000 .f32) (x : Vec Ideal S100000x1 .f32)
    (n : Fin 100000) :
    aAgg e w x (ix1 n) = 0 + ∑ e' ∈ ScatterRows.hits (N := 100000) (dstIdx e) n,
      x (ix2 (GatherRows.rowOf nodes_pos (srcIdx e) e') (0 : Fin 1)) * KerStages.norm e w (ix1 e') := by
  unfold aAgg
  rw [scatter_zeros]
  exact congrArg (0 + ·) (Finset.sum_congr rfl fun e' _ => msg_apply e w x e')

end Cert.Bridge.Ker

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«118177_j11355893531063_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibHostColRow.lean ====
/-
  Host broadcasts of a column and of a row, and a vector cast to a column or to a row, read at an index.

  For arbitrary extents and any element type.  A column [M, 1] broadcast (broadcast_in_dim, axes [0, 1]) to [M, N]
  reads at (r, q) the column's entry (r, 0); a row [1, N] broadcast to [M, N] reads at (r, q) the row's entry
  (0, q).  A vector of length M cast to the column [M, 1] holds the same entries as the vector broadcast into
  [M, 1] along axis 0, and a vector of length N cast to the row [1, N] the same as the vector broadcast into [1, N]
  along axis 1: so a program that reshapes a vector and one that broadcasts it agree.
-/
import proofs.«118177_j11355893531063_2_alg».proof.Proof.LibKeepdims
import Idealize.ShloMosaic.Lib.Pipeline.Value
import Idealize.ShloMosaic.Lib.ValueLayout
import Idealize.ShloMosaic.Lib.ValueIdx

namespace Idealize.ShloMosaic.HostColRow

open Idealize.ShloMosaic Idealize.ShloMosaic.ValueIdx

variable {M N : Nat}

/-- A column broadcast along the lanes, at (r, q): the column's entry of row r. -/
theorem bcast_col_apply {α : Type} (n : (⟨2, ![M, 1]⟩ : Shape).Idx → α)
    (h : (⟨2, ![M, 1]⟩ : Shape).BroadcastsInDim ⟨2, ![M, N]⟩ ![0, 1]) (i : (⟨2, ![M, N]⟩ : Shape).Idx) :
    broadcastInDim ⟨2, ![M, N]⟩ ![0, 1] h n i = n (ix2 (i 0) (0 : Fin 1)) := by
  refine broadcastInDim_apply _ h n i (ix2 (i 0) (0 : Fin 1)) fun a => ?_
  match a with
  | ⟨0, _⟩ =>
    show (i 0).val = if M = 1 then 0 else (i 0).val
    have h0 : (i 0).val < M := (i 0).isLt
    split
    · omega
    · rfl
  | ⟨1, _⟩ => rfl

/-- A row broadcast over the rows, at (r, q): the row's entry of lane q. -/
theorem bcast_row_apply {α : Type} (b : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h b i = b (ix2 (0 : Fin 1) (i 1)) := by
  refine broadcastInDim_apply _ h b i (ix2 (0 : Fin 1) (i 1)) fun a => ?_
  match a with
  | ⟨0, _⟩ => rfl
  | ⟨1, _⟩ =>
    show (i 1).val = if N = 1 then 0 else (i 1).val
    have h1 : (i 1).val < N := (i 1).isLt
    split
    · omega
    · rfl

/-- A vector cast to a column holds what the vector broadcast into the column along its axis holds. -/
theorem col_eq {α : Type} (x : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ x h = broadcastInDim ⟨2, ![M, 1]⟩ ![0] h' x := by
  funext i
  obtain ⟨p, u, rfl⟩ : ∃ (p : Fin M) (u : Fin 1), i = ix2 p u := ⟨i 0, i 1, eq_ix2 i⟩
  rw [Keepdims.shapeCast_a_a1_apply x h p u]
  refine (broadcastInDim_apply ![0] h' x _ (ix1 p) fun a => ?_).symm
  match a with
  | ⟨0, _⟩ =>
    show p.val = if M = 1 then 0 else p.val
    have h0 : p.val < M := p.isLt
    split
    · omega
    · rfl

/-- A vector cast to a row holds what the vector broadcast into the row along its axis holds. -/
theorem row_eq {α : Type} (x : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ x h = broadcastInDim ⟨2, ![1, N]⟩ ![1] h' x := by
  funext i
  obtain ⟨u, q, rfl⟩ : ∃ (u : Fin 1) (q : Fin N), i = ix2 u q := ⟨i 0, i 1, eq_ix2 i⟩
  rw [shapeCast_a_1a_apply x h u q]
  refine (broadcastInDim_apply ![1] h' x _ (ix1 q) fun a => ?_).symm
  match a with
  | ⟨0, _⟩ =>
    show q.val = if N = 1 then 0 else q.val
    have h1 : q.val < N := q.isLt
    split
    · omega
    · rfl

end Idealize.ShloMosaic.HostColRow
-- ==== Proof.LibBcastVec.lean ====
/-
  A vector broadcast along one new axis, read at an entry.

  A length-b vector x placed as the row of a [1, b] matrix (broadcast_in_dim along axis 1) reads x k at (u, k); placed
  as the column of an [a, 1] matrix (along axis 0) it reads x i at (i, u); and a one-element vector spread over a
  length-a vector (along axis 0) reads its one entry everywhere. Arbitrary extents and element type.
-/
import Idealize.ShloMosaic.Lib.Pipeline.Value
import Idealize.ShloMosaic.Lib.ValueIdx

noncomputable section

namespace Idealize.ShloMosaic.BcastVec

open Idealize.ShloMosaic Idealize.ShloMosaic.ValueIdx

variable {α : Type}

/-- A vector as a one-row matrix: entry (u, k) is the vector's entry k. -/
theorem bcast_vec_row_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) :=
  broadcastInDim_apply _ h x _ _ (fun a => by
    match a with
    | ⟨0, _⟩ =>
      show k.val = if b = 1 then 0 else k.val
      split
      · omega
      · rfl)

/-- A vector as a one-column matrix: entry (i, u) is the vector's entry i. -/
theorem bcast_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · omega
      · rfl)

/-- A one-element vector spread over a vector: every entry is the one element. -/
theorem bcast_one_apply {a : ℕ} (x : (⟨1, ![1]⟩ : Shape).Idx → α)
    (h : (⟨1, ![1]⟩ : Shape).BroadcastsInDim ⟨1, ![a]⟩ ![0]) (i : Fin a) :
    broadcastInDim ⟨1, ![a]⟩ ![0] h x (ix1 i) = x (ix1 (0 : Fin 1)) :=
  broadcastInDim_apply _ h x _ _ (fun c => by
    match c with
    | ⟨0, _⟩ => rfl)

end Idealize.ShloMosaic.BcastVec

end
-- ==== Proof.RefAgg.lean ====
/-
  The reference's first convolution read at a node and a channel.

  The feature product x W1 has one contracted position, so at (r, k) it is x (r, 0) * W1 (0, k). An edge's message
  at channel k is that product at the edge's source row times the edge's normalisation, the source being the
  edge's (wrapped) source index read signed and clamped into the node range; the convolution at (n, k) is the sum,
  from zero, of the messages at channel k of the edges whose target index is n, plus the bias b1 k.
-/
import proofs.«118177_j11355893531063_2_alg».proof.Proof.RefStageDefs
import proofs.«118177_j11355893531063_2_alg».proof.Proof.LibScatterRows
import proofs.«118177_j11355893531063_2_alg».proof.Proof.LibGatherRows
import proofs.«118177_j11355893531063_2_alg».proof.Proof.LibHostDotPlain
import proofs.«118177_j11355893531063_2_alg».proof.Proof.LibHostColRow
import proofs.«118177_j11355893531063_2_alg».proof.Proof.LibBcastVec
import proofs.«118177_j11355893531063_2_alg».proof.Proof.LibHostSums
import Idealize.ShloMosaic.Lib.IdealHost

noncomputable section

open scoped BigOperators

namespace Cert.Bridge.Ref

open Idealize.ShloMosaic Idealize.ShloMosaic.ValueIdx
open Cert.ReferenceIdeal Cert.ReferenceIdeal.Gen Cert.ReferenceIdeal.RefStages

theorem nodes_pos : 0 < 100000 := by norm_num

/-- The feature product at (r, k). -/
theorem xW1_apply (x : FVec Ideal S100000x1 .f32) (W1 : FVec Ideal S1x64 .f32) (r : Fin 100000) (k : Fin 64) :
    Host.dotGeneral (F := Ideal) dot_S100000x1_S1x64_S100000x64_1_0_0_1_n_n none x W1 (ix2 r k)
      = x (ix2 r (0 : Fin 1)) * W1 (ix2 (0 : Fin 1) k) := by
  have hd : dot_S100000x1_S1x64_S100000x64_1_0_0_1_n_n = DotDims.plain 100000 1 64 := rfl
  rw [hd, HostDotPlain.dotGeneral_apply, Fin.sum_univ_one]

/-- The row scatter-add into zeros: entry (n, k) is the sum, from zero, of column k of the update rows whose
    index is n. -/
theorem scatter_rows_zeros (idx : IVec S1700000x1 32) (upd : FVec Ideal S1700000x64 .f32) (n : Fin 100000) (k : Fin 64) :
    Host.scatterAdd (F := Ideal) scatter_S100000x64_S1700000x1_S1700000x64_1_0_0_1
      (broadcastInDim S100000x64 ![] bcast_S_S100000x64 (constant (F := Ideal) S_ .f32 0x00000000#32)) idx upd (ix2 n k)
      = 0 + ∑ e' ∈ ScatterRows.hits (N := 100000) idx n, upd (ix2 e' k) := by
  have hd : scatter_S100000x64_S1700000x1_S1700000x64_1_0_0_1
      = ScatterRows.rowDims 100000 1700000 64 scatter_S100000x64_S1700000x1_S1700000x64_1_0_0_1_wf := rfl
  rw [HostSums.hostScatterAdd_eq, hd, ScatterRows.scatterAdd_rows_apply, ValueIdx.broadcastInDim_scalar_apply, ValueIdx.constant_apply,
    Ideal.ofBits_zero_f32]

/-- The row gather: row e' of the result is the operand's row that the start index names at e' (read signed,
    clamped into the node range). -/
theorem gather_rows_h (h : FVec Ideal S100000x64 .f32) (idx : IVec S1700000x1 32) (e' : Fin 1700000) (k : Fin 64) :
    Host.gather gather_S100000x64_S1700000x1_S1700000x64_1_0_n_n_0_1_164 h idx (ix2 e' k)
      = h (ix2 (GatherRows.rowOf nodes_pos idx e') k) := by
  have hg : gather_S100000x64_S1700000x1_S1700000x64_1_0_n_n_0_1_164
      = GatherRows.rowDims 100000 1700000 64 gather_S100000x64_S1700000x1_S1700000x64_1_0_n_n_0_1_164_wf := rfl
  rw [hg, GatherRows.gather_rows_apply nodes_pos]

/-- A per-channel vector spread over the node rows reads its entry k at (n, k). -/
theorem chan_apply (v : FVec Ideal S64 .f32) (n : Fin 100000) (k : Fin 64) :
    broadcastInDim S100000x64 ![0, 1] bcast_S1x64_S100000x64_0_1 (broadcastInDim S1x64 ![1] bcast_S64_S1x64_1 v) (ix2 n k)
      = v (ix1 k) := by
  rw [HostColRow.bcast_row_apply, BcastVec.bcast_vec_row_apply]

/-- A per-edge vector spread over the channels reads its entry e' at (e', k). -/
theorem edge_apply (v : FVec Ideal S1700000 .f32) (e' : Fin 1700000) (k : Fin 64) :
    broadcastInDim S1700000x64 ![0, 1] bcast_S1700000x1_S1700000x64_0_1
      (broadcastInDim S1700000x1 ![0] bcast_S1700000_S1700000x1_0 v) (ix2 e' k) = v (ix1 e') := by
  rw [HostColRow.bcast_col_apply, BcastVec.bcast_vec_col_apply]

/-- The first convolution at (n, k). -/
theorem out1Core_apply (s d : IVec S1700000 32) (nrm : FVec Ideal S1700000 .f32) (x : FVec Ideal S100000x1 .f32)
    (W1 : FVec Ideal S1x64 .f32) (b1 : FVec Ideal S64 .f32) (n : Fin 100000) (k : Fin 64) :
    out1Core (F := Ideal) s d nrm x W1 b1 (ix2 n k)
      = (0 + ∑ e' ∈ ScatterRows.hits (N := 100000) (broadcastInDim S1700000x1 ![0] bcast_S1700000_S1700000x1_0 d) n,
            (x (ix2 (GatherRows.rowOf nodes_pos (wrapIdx (F := Ideal) s) e') (0 : Fin 1)) * W1 (ix2 (0 : Fin 1) k))
              * nrm (ix1 e'))
          + b1 (ix1 k) := by
  unfold out1Core
  rw [ValueIdx.addf_apply, scatter_rows_zeros, chan_apply]
  refine congrArg (· + b1 (ix1 k)) (congrArg (0 + ·) (Finset.sum_congr rfl fun e' _ => ?_))
  rw [ValueIdx.mulf_apply, gather_rows_h, edge_apply, xW1_apply]

end Cert.Bridge.Ref

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.FinClosure.lean ====
/-
  Arrays of real numbers stay arrays of real numbers under the operations of a graph convolution's host code.

  An array over the extended reals is ALL REAL when none of its entries is an infinity. Pointwise products and sums
  of all-real arrays are all real; so is any gather of one (each entry of the result is an entry of the operand), a
  scatter-add of all-real updates into an all-real operand (an entry plus a finite sum of updates), a concatenation
  of all-real pieces (each entry is an entry of a piece), a choice between two all-real arrays, a constant 0 or 1,
  and the reciprocal square root of a positive real.
-/
import proofs.«118177_j11355893531063_2_alg».proof.Proof.LibFinite
import Idealize.ShloMosaic.PureOps.Ideal.Laws
import Idealize.ShloMosaic.Lib.ValueIdx

noncomputable section

open scoped BigOperators

namespace Cert.FinClosure

open Idealize.ShloMosaic Cert.LibFinite

/-- Every entry is a real number. -/
def AllFin {s : Shape} (v : s.Idx → EReal) : Prop := ∀ i, IsFin (v i)

variable {s t : Shape}

theorem mulf_fin {φ : FTy} {a b : FVec Ideal s φ} (ha : AllFin a) (hb : AllFin b) : AllFin (mulf a b) :=
  fun i => IsFin.mul (ha i) (hb i)

theorem addf_fin {φ : FTy} {a b : FVec Ideal s φ} (ha : AllFin a) (hb : AllFin b) : AllFin (addf a b) :=
  fun i => IsFin.add (ha i) (hb i)

/-- A gather's entries are entries of its operand, whatever the dimension numbers and the indices. -/
theorem gather_fin {si : Shape} {w : Nat} (d : GatherDims s si t) {x : s.Idx → EReal} (idx : IVec si w)
    (hx : AllFin x) : AllFin (Host.gather d x idx) :=
  fun j => hx (d.operandIdx j idx)

/-- A scatter-add's entry is the operand's entry plus a finite sum of updates. -/
theorem scatterAdd_fin {si u : Shape} {w : Nat} {φ : FTy} (d : ScatterDims s si u) {x : FVec Ideal s φ} (idx : IVec si w)
    {upd : FVec Ideal u φ} (hx : AllFin x) (hu : AllFin upd) : AllFin (Host.scatterAdd d x idx upd) :=
  fun i => IsFin.add (hx i) (IsFin.sum _ _ fun j _ => hu j)

/-- A choice, entry by entry, between two all-real arrays. -/
theorem select_fin (c : IVec s 1) {a b : s.Idx → EReal} (ha : AllFin a) (hb : AllFin b) : AllFin (select c a b) := by
  intro i
  show IsFin (Scalar.select (c i) (a i) (b i))
  unfold Scalar.select
  split
  · exact ha i
  · exact hb i

/-- A broadcast's entries are entries of its operand. -/
theorem broadcastInDim_fin (dims : Fin s.rank → Fin t.rank) (h : s.BroadcastsInDim t dims) {x : s.Idx → EReal}
    (hx : AllFin x) : AllFin (broadcastInDim t dims h x) :=
  fun _ => hx _

/-- The constants 0 and 1. -/
theorem zero_word_fin : IsFin (Ideal.ofBits .f32 0x00000000#32) := by rw [Ideal.ofBits_zero_f32]; exact IsFin.zero

theorem one_word : Ideal.ofBits .f32 0x3F800000#32 = 1 := by
  simp [Ideal.ofBits, Ideal.ieee, -EReal.coe_mul]; norm_num

theorem one_word_fin : IsFin (Ideal.ofBits .f32 0x3F800000#32) := by rw [one_word]; exact IsFin.one

theorem constant_zero_fin : AllFin (constant (F := Ideal) s .f32 0x00000000#32) := fun _ => zero_word_fin
theorem constant_one_fin : AllFin (constant (F := Ideal) s .f32 0x3F800000#32) := fun _ => one_word_fin

/-- A concatenation's entries are entries of its pieces. -/
theorem concatenate_fin (a : Fin t.rank) (xs : List ((s : Shape) × (s.Idx → EReal)))
    (h : Shape.Concatenates (xs.map (·.1)) t a) (hall : ∀ p ∈ xs, ∀ i, IsFin (p.2 i)) : AllFin (concatenate t a xs h) := by
  intro j
  unfold concatenate
  exact hall _ (List.getElem_mem _) _

/-- Where the argument is a positive real, its reciprocal square root is a real; so the array that holds the
    reciprocal square root where the argument is above 0 and 0 elsewhere is all real when the argument is. -/
theorem rsqrt_where_fin (x : EReal) (hx : IsFin x) :
    IsFin (Scalar.select (Ideal.cmp .ogt x 0) (Ideal.rsqrt x) 0) := by
  obtain ⟨r, rfl⟩ := hx
  unfold Scalar.select Ideal.cmp
  by_cases hr : (0 : EReal) < (r : EReal)
  · have hr' : (0 : ℝ) < r := by exact_mod_cast hr
    simp only [hr, decide_true, BitVec.ofBool_true, if_true]
    rw [Ideal.rsqrt_coe, if_neg (not_lt.mpr hr'.le), if_neg hr'.ne']
    exact IsFin.coe _
  · simp only [hr, decide_false, BitVec.ofBool_false]
    rw [if_neg (by decide)]
    exact IsFin.zero

/-- The same with both zeros spelt as the f32 word of +0.0. -/
theorem rsqrt_where_word_fin (x : EReal) (hx : IsFin x) :
    IsFin (Scalar.select (Ideal.cmp .ogt x (Ideal.ofBits .f32 0x00000000#32)) (Ideal.rsqrt x)
      (Ideal.ofBits .f32 0x00000000#32)) := by
  rw [Ideal.ofBits_zero_f32]
  exact rsqrt_where_fin x hx

end Cert.FinClosure

end
-- ==== Proof.BridgeFin.lean ====
/-
  Real edge weights give a real normalisation.

  With every edge weight a real number: the weights followed by ones are real; each node's weighted in-degree, a
  finite sum of them from zero, is real; its reciprocal square root where it is positive, and zero elsewhere, is
  real; and an edge's normalisation, the product of its weight with that factor at its two endpoints, is real.
-/
import proofs.«118177_j11355893531063_2_alg».proof.Proof.RefStageDefs
import proofs.«118177_j11355893531063_2_alg».proof.Proof.FinClosure
import Idealize.ShloMosaic.Lib.IdealHost

noncomputable section

namespace Cert.Bridge

open Idealize.ShloMosaic Cert.LibFinite Cert.FinClosure
open Cert.ReferenceIdeal Cert.ReferenceIdeal.RefStages

theorem wAll_fin (w : FVec Ideal S1600000 .f32) (hw : AllFin w) : AllFin (wAll (F := Ideal) w) := by
  unfold wAll
  refine concatenate_fin _ _ _ ?_
  intro p hp i
  simp only [List.mem_cons, List.not_mem_nil, or_false] at hp
  rcases hp with rfl | rfl
  · exact hw i
  · show IsFin (Ideal.ofBits .f32 0x3F800000#32)
    exact one_word_fin

theorem degCore_fin (d : IVec S1700000 32) (wa : FVec Ideal S1700000 .f32) (hwa : AllFin wa) :
    AllFin (degCore (F := Ideal) d wa) :=
  scatterAdd_fin _ _ (broadcastInDim_fin _ _ constant_zero_fin) hwa

/-- The host's reciprocal square root, entry by entry. -/
theorem host_rsqrt_apply {s : Shape} {φ : FTy} (x : FVec Ideal s φ) (i : s.Idx) : Host.rsqrt x i = Ideal.rsqrt (x i) := rfl

theorem dinvCore_fin (d : IVec S1700000 32) (wa : FVec Ideal S1700000 .f32) (hwa : AllFin wa) :
    AllFin (dinvCore (F := Ideal) d wa) := by
  intro i
  unfold dinvCore
  rw [ValueIdx.select_apply, ValueIdx.cmpf_apply, Ideal.cmpf_def, ValueIdx.broadcastInDim_scalar_apply,
    ValueIdx.broadcastInDim_scalar_apply, host_rsqrt_apply, id_eq, ValueIdx.constant_apply]
  exact rsqrt_where_word_fin _ (degCore_fin d wa hwa i)

theorem normCore_fin (s d : IVec S1700000 32) (wa : FVec Ideal S1700000 .f32) (dv : FVec Ideal S100000 .f32)
    (hwa : AllFin wa) (hdv : AllFin dv) : AllFin (normCore (F := Ideal) s d wa dv) :=
  mulf_fin (mulf_fin (gather_fin _ _ hdv) hwa) (gather_fin _ _ hdv)

/-- The normalisation of every edge is a real number when every edge weight is. -/
theorem norm_fin (e : IVec S2x1600000 32) (w : FVec Ideal S1600000 .f32) (hw : AllFin w) :
    AllFin (norm (F := Ideal) e w) :=
  normCore_fin _ _ _ _ (wAll_fin w hw) (dinvCore_fin _ _ (wAll_fin w hw))

end Cert.Bridge

end
-- ==== Proof.LibEdgeSum.lean ====
/-
  Summing over edges commutes with a linear map, on finite values.

  A graph layer sends to each node the sum, over the edges that end there, of the source nodes' rows. Applying a linear
  map (a row times a weight matrix) to every row BEFORE that sum, or applying it once to the summed row AFTER it, gives
  the same result: both are the double sum over edges e and features k of t e k * w k. On the extended reals this needs
  the rows and the weights to be real numbers, because it moves a factor across a sum (a product with an infinity does
  not distribute). The zero that each edge sum and each row-by-column product starts from is carried along as it is
  computed.
-/
import proofs.«118177_j11355893531063_2_alg».proof.Proof.LibFinite

noncomputable section

open scoped BigOperators

namespace Cert.EdgeSum

open Cert.LibFinite

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Transform each edge's row, then sum over the edges = sum the rows over the edges, then transform: for real rows
    `t e` and real weights `w`, with the zeros the sums are accumulated from. -/
theorem sum_transform_comm {ε κ : Type} [Fintype κ] (s : Finset ε) (t : ε → κ → EReal) (w : κ → EReal)
    (ht : ∀ e k, IsFin (t e k)) (hw : ∀ k, IsFin (w k)) :
    (0 + ∑ e ∈ s, ∑ k, t e k * w k) = ∑ k, (0 + ∑ e ∈ s, t e k) * w k := by
  choose tr htr using ht
  choose wr hwr using hw
  have hL : (0 + ∑ e ∈ s, ∑ k, t e k * w k) = ((∑ e ∈ s, ∑ k, tr e k * wr k : ℝ) : EReal) := by
    rw [zero_add, coe_sum]
    refine Finset.sum_congr rfl fun e _ => ?_
    rw [coe_sum]
    exact Finset.sum_congr rfl fun k _ => by rw [htr, hwr, EReal.coe_mul]
  have hR : (∑ k, (0 + ∑ e ∈ s, t e k) * w k) = ((∑ k, (∑ e ∈ s, tr e k) * wr k : ℝ) : EReal) := by
    rw [coe_sum]
    refine Finset.sum_congr rfl fun k _ => ?_
    rw [zero_add, EReal.coe_mul, coe_sum, hwr]
    congr 1
    exact Finset.sum_congr rfl fun e _ => htr e k
  rw [hL, hR]
  congr 1
  rw [Finset.sum_comm]
  exact Finset.sum_congr rfl fun k _ => (Finset.sum_mul _ _ _).symm

/-- A sum accumulated from zero over any set of edges of real rows is real. -/
theorem isFin_edge_sum {ε : Type} (s : Finset ε) (f : ε → EReal) (h : ∀ e, IsFin (f e)) : IsFin (0 + ∑ e ∈ s, f e) :=
  IsFin.add IsFin.zero (IsFin.sum s f fun e _ => h e)

/-- A row-by-column product of real rows and columns is real. -/
theorem isFin_dot {κ : Type} [Fintype κ] (a b : κ → EReal) (ha : ∀ k, IsFin (a k)) (hb : ∀ k, IsFin (b k)) :
    IsFin (∑ k, a k * b k) :=
  IsFin.sum _ _ fun k _ => IsFin.mul (ha k) (hb k)

end Cert.EdgeSum

end
-- ==== Proof.MomentLaw.lean ====
/-
  The moments of an affine image of a sample, and a rank-one factor pulled out of an edge sum.

  For a finite sample a_n of reals and reals w, b, the sample o_n = a_n * w + b has mean  mean(a) * w + b  and
  (population) variance  var(a) * (w * w): the shift b cancels in the centred values and the scale w comes out of
  each square. On the extended reals the same identities hold once every value involved is a real number, and a
  common real factor w leaves a sum of products  sum_e (x_e * w) * n_e = (sum_e x_e * n_e) * w.
-/
import proofs.«118177_j11355893531063_2_alg».proof.Proof.LibFinite
import proofs.«118177_j11355893531063_2_alg».proof.Proof.LibEdgeSum

noncomputable section

open scoped BigOperators

namespace Cert.MomentLaw

open Idealize.ShloMosaic Cert.LibFinite Cert.EdgeSum

/-- The quotient of two reals by the extended reals' division, the divisor not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The mean of the affine image: (sum_n (a_n w + b)) / N = (sum_n a_n) / N * w + b, N the number of samples. -/
theorem mean_affine {ι : Type} [Fintype ι] (a : ι → ℝ) (w b N : ℝ) (hN : N = (Fintype.card ι : ℝ)) (h0 : N ≠ 0) :
    (∑ n, (a n * w + b)) / N = (∑ n, a n) / N * w + b := by
  rw [Finset.sum_add_distrib, ← Finset.sum_mul, Finset.sum_const, Finset.card_univ, nsmul_eq_mul, ← hN]
  field_simp

/-- The centred squares of the affine image about ITS mean are the centred squares of the sample times w * w; so
    is their sum divided by any D. -/
theorem var_affine {ι : Type} [Fintype ι] (a : ι → ℝ) (w b M D : ℝ) :
    (∑ n, ((a n * w + b) - (M * w + b)) * ((a n * w + b) - (M * w + b))) / D
      = (∑ n, (a n - M) * (a n - M)) / D * (w * w) := by
  have h : ∀ n, ((a n * w + b) - (M * w + b)) * ((a n * w + b) - (M * w + b)) = ((a n - M) * (a n - M)) * (w * w) :=
    fun n => by ring
  rw [Finset.sum_congr rfl (fun n _ => h n), ← Finset.sum_mul]
  ring

/-- A real factor w common to every term of an edge sum of products of reals comes out of the sum (from zero). -/
theorem agg_rank_one {ε : Type} (s : Finset ε) (xg nrm : ε → EReal) (w : EReal) (hx : ∀ e, IsFin (xg e))
    (hn : ∀ e, IsFin (nrm e)) (hw : IsFin w) :
    (0 + ∑ e ∈ s, (xg e * w) * nrm e) = (0 + ∑ e ∈ s, xg e * nrm e) * w := by
  obtain ⟨wr, rfl⟩ := hw
  choose xr hxr using hx
  choose nr hnr using hn
  simp only [hxr, hnr, ← EReal.coe_mul, zero_add]
  rw [← coe_sum, ← coe_sum, ← EReal.coe_mul, Finset.sum_mul]
  exact congrArg _ (Finset.sum_congr rfl fun e _ => by ring)

/-- The affine image over the extended reals: when every a_n, w and b are real, so is a_n * w + b, as the real
    a_n * w + b. -/
theorem affine_coe (a w b : ℝ) : (a : EReal) * (w : EReal) + (b : EReal) = ((a * w + b : ℝ) : EReal) := by
  rw [← EReal.coe_mul, ← EReal.coe_add]

/-- The mean on the extended reals: for real samples, weight, shift and count. -/
theorem mean_affine_ereal {ι : Type} [Fintype ι] (a : ι → ℝ) (w b N : ℝ) (hN : N = (Fintype.card ι : ℝ)) (h0 : N ≠ 0) :
    Ideal.div (0 + ∑ n, ((a n : EReal) * (w : EReal) + (b : EReal))) (N : EReal)
      = Ideal.div (0 + ∑ n, (a n : EReal)) (N : EReal) * (w : EReal) + (b : EReal) := by
  simp only [affine_coe, zero_add]
  rw [← coe_sum, ← coe_sum, div_coe_coe _ _ h0, div_coe_coe _ _ h0, affine_coe, mean_affine a w b N hN h0]

/-- The variance on the extended reals, about means M' = M * w + b and M that are real, divided by a real D ≠ 0. -/
theorem var_affine_ereal {ι : Type} [Fintype ι] (a : ι → ℝ) (w b M D : ℝ) (hD : D ≠ 0) :
    Ideal.div (0 + ∑ n, (((a n : EReal) * (w : EReal) + (b : EReal)) - ((M : EReal) * (w : EReal) + (b : EReal)))
        * (((a n : EReal) * (w : EReal) + (b : EReal)) - ((M : EReal) * (w : EReal) + (b : EReal)))) (D : EReal)
      = Ideal.div (0 + ∑ n, ((a n : EReal) - (M : EReal)) * ((a n : EReal) - (M : EReal))) (D : EReal)
          * ((w : EReal) * (w : EReal)) := by
  simp only [← EReal.coe_mul, ← EReal.coe_add, ← EReal.coe_sub, zero_add]
  rw [← coe_sum, ← coe_sum, div_coe_coe _ _ hD, div_coe_coe _ _ hD, ← EReal.coe_mul, var_affine a w b M D]

/-- The mean of the affine image, for samples, weight and shift that are real numbers of the extended reals. -/
theorem mean_bridge {ι : Type} [Fintype ι] (a : ι → EReal) (w b : EReal) (N : ℝ) (ha : ∀ n, IsFin (a n)) (hw : IsFin w)
    (hb : IsFin b) (hN : N = (Fintype.card ι : ℝ)) (h0 : N ≠ 0) :
    Ideal.div (0 + ∑ n, (a n * w + b)) (N : EReal) = Ideal.div (0 + ∑ n, a n) (N : EReal) * w + b := by
  obtain ⟨wr, rfl⟩ := hw
  obtain ⟨br, rfl⟩ := hb
  choose ar har using ha
  simp only [har]
  exact mean_affine_ereal ar wr br N hN h0

/-- The variance of the affine image about its mean M' = M * w + b, M the sample's mean, all of them real. -/
theorem var_bridge {ι : Type} [Fintype ι] (a : ι → EReal) (w b M' M : EReal) (D : ℝ) (ha : ∀ n, IsFin (a n))
    (hw : IsFin w) (hb : IsFin b) (hM : IsFin M) (hM' : M' = M * w + b) (hD : D ≠ 0) :
    Ideal.div (0 + ∑ n, ((a n * w + b) - M') * ((a n * w + b) - M')) (D : EReal)
      = Ideal.div (0 + ∑ n, (a n - M) * (a n - M)) (D : EReal) * (w * w) := by
  subst hM'
  obtain ⟨wr, rfl⟩ := hw
  obtain ⟨br, rfl⟩ := hb
  obtain ⟨Mr, rfl⟩ := hM
  choose ar har using ha
  simp only [har]
  exact var_affine_ereal ar wr br Mr D hD

/-- A sample mean of reals is a real. -/
theorem mean_fin {ι : Type} [Fintype ι] (a : ι → EReal) (N : ℝ) (ha : ∀ n, IsFin (a n)) (h0 : N ≠ 0) :
    IsFin (Ideal.div (0 + ∑ n, a n) (N : EReal)) :=
  IsFin.div (isFin_edge_sum _ _ ha) (IsFin.coe N) (by exact_mod_cast h0)

end Cert.MomentLaw

end
-- ==== Proof.BridgeOut1.lean ====
/-
  The first layer's output is an affine image of the scalar aggregate.

  With real features, real edge weights and real first-layer weights, the reference's first convolution at node n
  and channel k is the kernel program's scalar aggregate at n times W1 (0, k), plus b1 k: both sum over the same
  edges (those whose target is n) the same source feature times the same normalisation, and the real factor
  W1 (0, k), common to every term of the reference's sum, comes out of it.
-/
import proofs.«118177_j11355893531063_2_alg».proof.Proof.KerAgg
import proofs.«118177_j11355893531063_2_alg».proof.Proof.RefAgg
import proofs.«118177_j11355893531063_2_alg».proof.Proof.BridgeShared
import proofs.«118177_j11355893531063_2_alg».proof.Proof.BridgeFin
import proofs.«118177_j11355893531063_2_alg».proof.Proof.MomentLaw

noncomputable section

open scoped BigOperators

namespace Cert.Bridge

open Idealize.ShloMosaic Idealize.ShloMosaic.ValueIdx Cert.LibFinite Cert.FinClosure

/-- The kernel program's aggregate in the reference's vocabulary. -/
theorem aAgg_apply_ref (e : IVec Cert.ReferenceIdeal.S2x1600000 32) (w : FVec Ideal Cert.ReferenceIdeal.S1600000 .f32)
    (x : FVec Ideal Cert.ReferenceIdeal.S100000x1 .f32) (n : Fin 100000) :
    Cert.KernelIdeal.KerStages.aAgg e w x (ix1 n)
      = 0 + ∑ e' ∈ ScatterRows.hits (N := 100000)
            (broadcastInDim Cert.ReferenceIdeal.S1700000x1 ![0] Cert.ReferenceIdeal.Gen.facts.bcast_S1700000_S1700000x1_0
              (Cert.ReferenceIdeal.RefStages.dIdx (F := Ideal) e)) n,
          x (ix2 (GatherRows.rowOf Ref.nodes_pos
              (Cert.ReferenceIdeal.RefStages.wrapIdx (F := Ideal) (Cert.ReferenceIdeal.RefStages.sIdx (F := Ideal) e)) e') (0 : Fin 1))
            * Cert.ReferenceIdeal.RefStages.norm (F := Ideal) e w (ix1 e') :=
  Ker.aAgg_apply e w x n

/-- The first layer's output at (n, k) is the aggregate at n times W1 (0, k) plus b1 k. -/
theorem out1_eq (e : IVec Cert.ReferenceIdeal.S2x1600000 32) (w : FVec Ideal Cert.ReferenceIdeal.S1600000 .f32)
    (x : FVec Ideal Cert.ReferenceIdeal.S100000x1 .f32) (W1 : FVec Ideal Cert.ReferenceIdeal.S1x64 .f32)
    (b1 : FVec Ideal Cert.ReferenceIdeal.S64 .f32) (hx : AllFin x) (hw : AllFin w) (hW1 : AllFin W1)
    (n : Fin 100000) (k : Fin 64) :
    Cert.ReferenceIdeal.RefStages.out1 (F := Ideal) e w x W1 b1 (ix2 n k)
      = Cert.KernelIdeal.KerStages.aAgg e w x (ix1 n) * W1 (ix2 (0 : Fin 1) k) + b1 (ix1 k) := by
  unfold Cert.ReferenceIdeal.RefStages.out1
  rw [Ref.out1Core_apply, aAgg_apply_ref]
  refine congrArg (· + b1 (ix1 k)) ?_
  exact MomentLaw.agg_rank_one _ _ _ _ (fun e' => hx _) (fun e' => norm_fin e w hw (ix1 e')) (hW1 _)

/-- The aggregate at every node is a real number. -/
theorem aAgg_fin (e : IVec Cert.ReferenceIdeal.S2x1600000 32) (w : FVec Ideal Cert.ReferenceIdeal.S1600000 .f32)
    (x : FVec Ideal Cert.ReferenceIdeal.S100000x1 .f32) (hx : AllFin x) (hw : AllFin w) (n : Fin 100000) :
    IsFin (Cert.KernelIdeal.KerStages.aAgg e w x (ix1 n)) := by
  rw [aAgg_apply_ref]
  exact Cert.EdgeSum.isFin_edge_sum _ _ fun e' => IsFin.mul (hx _) (norm_fin e w hw (ix1 e'))

end Cert.Bridge

end
-- ==== Proof.Words.lean ====
/-
  The float words the two programs spell, as the extended reals they denote: the node count 100000.0, which both
  means and both variances divide by.
-/
import Idealize.ShloMosaic.PureOps.Ideal

noncomputable section

namespace Cert.Words

open Idealize.ShloMosaic

/-- The f32 word 0x47C35000 is the real 100000. -/
theorem word_1e5 : Ideal.ofBits .f32 0x47C35000#32 = ((100000 : ℝ) : EReal) := by
  simp [Ideal.ofBits, Ideal.ieee, -EReal.coe_mul]; norm_num

end Cert.Words

end
-- ==== Proof.RefMoments.lean ====
/-
  The reference's batch statistics read at a channel.

  For the node-by-channel matrix o, the reference's column mean at channel k is (0 + sum_n o (n, k)) / 100000, its
  centred rows are o (n, k) minus that mean (the variance function takes the mean once more, through a one-row
  matrix, to the same value), and its column variance at k is (0 + sum_n centred (n, k) * centred (n, k)) / 100000:
  the divisor 100000 - 0 is positive, so the variance function's guard takes the quotient.
-/
import proofs.«118177_j11355893531063_2_alg».proof.Proof.RefStageDefs
import proofs.«118177_j11355893531063_2_alg».proof.Proof.LibHostSums
import proofs.«118177_j11355893531063_2_alg».proof.Proof.LibHostColRow
import proofs.«118177_j11355893531063_2_alg».proof.Proof.LibBcastVec
import proofs.«118177_j11355893531063_2_alg».proof.Proof.Words
import Idealize.ShloMosaic.Lib.IdealHost

noncomputable section

open scoped BigOperators

namespace Cert.Bridge

open Idealize.ShloMosaic Idealize.ShloMosaic.ValueIdx
open Cert.ReferenceIdeal Cert.ReferenceIdeal.Gen Cert.ReferenceIdeal.RefStages

/-- The node count as the extended real both programs divide by. -/
abbrev NN : EReal := ((100000 : ℝ) : EReal)

/-- The column sums from zero. -/
theorem ref_colsum_apply (o : FVec Ideal S100000x64 .f32) (k : Fin 64) :
    Host.reduceAdd (F := Ideal) o (constant S_ .f32 0x00000000#32) reducesTo_S100000x64_S64_d0 h_S_ (ix1 k)
      = 0 + ∑ n : Fin 100000, o (ix2 n k) := by
  show Ideal.hostReduceAdd reducesTo_S100000x64_S64_d0 o (Ideal.ofBits .f32 0x00000000#32) (ix1 k) = _
  rw [HostSums.hostColSum_apply, Ideal.ofBits_zero_f32]

/-- The column mean at channel k. -/
theorem mu_apply (o : FVec Ideal S100000x64 .f32) (k : Fin 64) :
    mu (F := Ideal) o (ix1 k) = Ideal.div (0 + ∑ n : Fin 100000, o (ix2 n k)) NN := by
  unfold mu
  show Ideal.div (Host.reduceAdd (F := Ideal) o (constant S_ .f32 0x00000000#32) reducesTo_S100000x64_S64_d0 h_S_ (ix1 k))
    (Ideal.ofBits .f32 0x47C35000#32) = _
  rw [ref_colsum_apply, Words.word_1e5]

/-- The centred rows: the entry minus its column's mean. -/
theorem centred_apply (o : FVec Ideal S100000x64 .f32) (n : Fin 100000) (k : Fin 64) :
    centred (F := Ideal) o (ix2 n k) = o (ix2 n k) - mu (F := Ideal) o (ix1 k) := by
  rw [mu_apply]
  unfold centred
  show o (ix2 n k) - _ = _
  rw [HostColRow.bcast_row_apply]
  show o (ix2 n k) - Ideal.div (broadcastInDim S1x64 ![1] bcast_S64_S1x64_1
      (Host.reduceAdd (F := Ideal) o (constant S_ .f32 0x00000000#32) reducesTo_S100000x64_S64_d0 h_S_) (ix2 (0 : Fin 1) k))
    (Ideal.ofBits .f32 0x47C35000#32) = _
  rw [BcastVec.bcast_vec_row_apply, ref_colsum_apply, Words.word_1e5]

/-- The variance's divisor is the node count. -/
theorem varDen_apply : varDen (F := Ideal) ix0 = NN := by
  unfold varDen
  show Ideal.ofBits .f32 0x47C35000#32 - (((0#32 : BitVec 32).toInt : ℝ) : EReal) = _
  rw [Words.word_1e5]
  simp

/-- The column variance at channel k. -/
theorem var_apply (o : FVec Ideal S100000x64 .f32) (k : Fin 64) :
    var (F := Ideal) o (ix1 k)
      = Ideal.div (0 + ∑ n : Fin 100000, centred (F := Ideal) o (ix2 n k) * centred (F := Ideal) o (ix2 n k)) NN := by
  unfold var
  show Scalar.select (Ideal.cmp .ogt (varDen (F := Ideal) ix0) (Ideal.ofBits .f32 0x00000000#32))
      (Ideal.div (Host.reduceAdd (F := Ideal) (mulf (centred (F := Ideal) o) (centred (F := Ideal) o))
        (constant S_ .f32 0x00000000#32) reducesTo_S100000x64_S64_d0 h_S_ (ix1 k)) (varDen (F := Ideal) ix0))
      (Ideal.ofBits .f32 0x7FC00000#32) = _
  rw [varDen_apply, Ideal.ofBits_zero_f32, ref_colsum_apply]
  have hpos : Ideal.cmp .ogt NN 0 = 1#1 := by
    unfold Ideal.cmp
    have : (0 : EReal) < NN := EReal.coe_pos.mpr (by norm_num)
    simp [this]
  rw [hpos, ValueIdx.select_one]
  rfl

end Cert.Bridge

end
-- ==== Proof.KerMoments.lean ====
/-
  The kernel program's statistics of the scalar aggregate, read at an index.

  For the per-node aggregate a: its mean is (0 + sum_n a_n) / 100000; its centred entries are a_n minus that mean
  (the variance function takes the mean once more, through a one-element array, to the same value); its variance
  is (0 + sum_n centred_n * centred_n) / 100000, the divisor 100000 - 0 being positive; the per-channel mean is the
  aggregate's mean times the weight W1 (0, k) plus the bias b1 k; the per-channel variance is the aggregate's
  variance times W1 (0, k) * W1 (0, k); and the aggregate as a one-column matrix reads a_n at (n, 0).
-/
import proofs.«118177_j11355893531063_2_alg».proof.Proof.KerStageDefs
import proofs.«118177_j11355893531063_2_alg».proof.Proof.LibHostSums
import proofs.«118177_j11355893531063_2_alg».proof.Proof.LibBcastVec
import proofs.«118177_j11355893531063_2_alg».proof.Proof.LibKeepdims
import proofs.«118177_j11355893531063_2_alg».proof.Proof.Words
import Idealize.ShloMosaic.Lib.IdealHost
import Idealize.ShloMosaic.Lib.ValueLayout

noncomputable section

open scoped BigOperators

namespace Cert.Bridge.Ker

open Idealize.ShloMosaic Idealize.ShloMosaic.ValueIdx
open Cert.KernelIdeal Cert.KernelIdeal.Gen Cert.KernelIdeal.KerStages

/-- The node count as the extended real both programs divide by. -/
abbrev NN : EReal := ((100000 : ℝ) : EReal)

/-- The sum over the nodes from zero. -/
theorem total_apply (a : Vec Ideal S100000 .f32) : total a ix0 = 0 + ∑ n : Fin 100000, a (ix1 n) := by
  unfold total
  show Ideal.hostReduceAdd reducesTo_S100000_S_d0 a (Ideal.ofBits .f32 0x00000000#32) ix0 = _
  rw [HostSums.hostVecSum_apply, Ideal.ofBits_zero_f32]

/-- The aggregate's mean. -/
theorem meanA_apply (a : Vec Ideal S100000 .f32) : meanA a ix0 = Ideal.div (0 + ∑ n : Fin 100000, a (ix1 n)) NN := by
  unfold meanA
  show Ideal.div (total a ix0) (Ideal.ofBits .f32 0x47C35000#32) = _
  rw [total_apply, Words.word_1e5]

/-- The centred aggregate: the entry minus the mean. -/
theorem centred_apply (a : Vec Ideal S100000 .f32) (n : Fin 100000) :
    centred a (ix1 n) = a (ix1 n) - meanA a ix0 := by
  rw [meanA_apply]
  unfold centred
  show a (ix1 n) - _ = _
  rw [BcastVec.bcast_one_apply]
  show a (ix1 n) - Ideal.div (broadcastInDim S1 ![] bcast_S_S1 (total a) (ix1 (0 : Fin 1)))
    (broadcastInDim S1 ![] bcast_S_S1 (constant (F := Ideal) S_ .f32 0x47C35000#32) (ix1 (0 : Fin 1))) = _
  rw [ValueIdx.broadcastInDim_scalar_apply, ValueIdx.broadcastInDim_scalar_apply, ValueIdx.constant_apply, total_apply,
    Words.word_1e5]

/-- The variance's divisor is the node count. -/
theorem dof_apply : dof ix0 = NN := by
  unfold dof
  show Ideal.ofBits .f32 0x47C35000#32 - (((0#32 : BitVec 32).toInt : ℝ) : EReal) = _
  rw [Words.word_1e5]
  simp

/-- The aggregate's variance. -/
theorem varA_apply (a : Vec Ideal S100000 .f32) :
    varA a ix0 = Ideal.div (0 + ∑ n : Fin 100000, centred a (ix1 n) * centred a (ix1 n)) NN := by
  unfold varA
  show Scalar.select (Ideal.cmp .ogt (dof ix0) (Ideal.ofBits .f32 0x00000000#32))
      (Ideal.div (total (mulf (F := Ideal) (φ := .f32) (centred a) (centred a)) ix0) (dof ix0))
      (Ideal.ofBits .f32 0x7FC00000#32) = _
  rw [dof_apply, Ideal.ofBits_zero_f32, total_apply]
  have hpos : Ideal.cmp .ogt NN 0 = 1#1 := by
    unfold Ideal.cmp
    have : (0 : EReal) < NN := EReal.coe_pos.mpr (by norm_num)
    simp [this]
  rw [hpos, ValueIdx.select_one]
  rfl

/-- The per-channel mean the region reads. -/
theorem meanC_apply (a : Vec Ideal S100000 .f32) (W1 : Vec Ideal S1x64 .f32) (b1 : Vec Ideal S64 .f32) (k : Fin 64) :
    meanC a W1 b1 (ix1 k) = meanA a ix0 * W1 (ix2 (0 : Fin 1) k) + b1 (ix1 k) := by
  unfold meanC
  show broadcastInDim S64 ![] bcast_S_S64 (meanA a) (ix1 k) * shapeCast S64 W1 shapeCasts_S1x64_S64 (ix1 k) + b1 (ix1 k) = _
  rw [ValueIdx.broadcastInDim_scalar_apply, shapeCast_1a_a_apply]

/-- The per-channel variance the region reads. -/
theorem varC_apply (a : Vec Ideal S100000 .f32) (W1 : Vec Ideal S1x64 .f32) (k : Fin 64) :
    varC a W1 (ix1 k) = varA a ix0 * (W1 (ix2 (0 : Fin 1) k) * W1 (ix2 (0 : Fin 1) k)) := by
  unfold varC
  show broadcastInDim S64 ![] bcast_S_S64 (varA a) (ix1 k)
    * (shapeCast S64 W1 shapeCasts_S1x64_S64 (ix1 k) * shapeCast S64 W1 shapeCasts_S1x64_S64 (ix1 k)) = _
  rw [ValueIdx.broadcastInDim_scalar_apply, shapeCast_1a_a_apply]

/-- The aggregate as the one-column matrix the region reads. -/
theorem aCol_apply (a : Vec Ideal S100000 .f32) (n : Fin 100000) : aCol a (ix2 n (0 : Fin 1)) = a (ix1 n) := by
  unfold aCol
  exact Keepdims.shapeCast_a_a1_apply a _ n 0

end Cert.Bridge.Ker

end
-- ==== Proof.BridgeMoments.lean ====
/-
  The two programs' batch statistics agree.

  The first layer's output is, channel by channel, the affine image a_n * W1 (0, k) + b1 k of the scalar aggregate
  (all of it real). So its column mean is the aggregate's mean times W1 (0, k) plus b1 k, which is the per-channel
  mean the kernel program hands to its region; and its column variance is the aggregate's variance times
  W1 (0, k) * W1 (0, k), the per-channel variance the kernel program hands over.
-/
import proofs.«118177_j11355893531063_2_alg».proof.Proof.BridgeOut1
import proofs.«118177_j11355893531063_2_alg».proof.Proof.RefMoments
import proofs.«118177_j11355893531063_2_alg».proof.Proof.KerMoments

noncomputable section

open scoped BigOperators

namespace Cert.Bridge

open Idealize.ShloMosaic Idealize.ShloMosaic.ValueIdx Cert.LibFinite Cert.FinClosure

section

variable (e : IVec Cert.ReferenceIdeal.S2x1600000 32) (w : FVec Ideal Cert.ReferenceIdeal.S1600000 .f32)
  (x : FVec Ideal Cert.ReferenceIdeal.S100000x1 .f32) (W1 : FVec Ideal Cert.ReferenceIdeal.S1x64 .f32)
  (b1 : FVec Ideal Cert.ReferenceIdeal.S64 .f32) (hx : AllFin x) (hw : AllFin w) (hW1 : AllFin W1) (hb1 : AllFin b1)

theorem card_nodes : (100000 : ℝ) = (Fintype.card (Fin 100000) : ℝ) := by simp

include hx hw hW1 hb1 in
/-- The column mean of the first layer's output is the per-channel mean the kernel program computes. -/
theorem mu_eq (k : Fin 64) :
    Cert.ReferenceIdeal.RefStages.mu (F := Ideal) (Cert.ReferenceIdeal.RefStages.out1 (F := Ideal) e w x W1 b1) (ix1 k)
      = Cert.KernelIdeal.KerStages.meanC (Cert.KernelIdeal.KerStages.aAgg e w x) W1 b1 (ix1 k) := by
  rw [mu_apply, Ker.meanC_apply, Ker.meanA_apply,
    Finset.sum_congr rfl (fun n _ => out1_eq e w x W1 b1 hx hw hW1 n k)]
  exact MomentLaw.mean_bridge (fun n => Cert.KernelIdeal.KerStages.aAgg e w x (ix1 n)) (W1 (ix2 (0 : Fin 1) k)) (b1 (ix1 k))
    100000 (fun n => aAgg_fin e w x hx hw n) (hW1 _) (hb1 _) card_nodes (by norm_num)

include hx hw hW1 hb1 in
/-- The column variance of the first layer's output is the per-channel variance the kernel program computes. -/
theorem var_eq (k : Fin 64) :
    Cert.ReferenceIdeal.RefStages.var (F := Ideal) (Cert.ReferenceIdeal.RefStages.out1 (F := Ideal) e w x W1 b1) (ix1 k)
      = Cert.KernelIdeal.KerStages.varC (Cert.KernelIdeal.KerStages.aAgg e w x) W1 (ix1 k) := by
  have hM' : Cert.ReferenceIdeal.RefStages.mu (F := Ideal) (Cert.ReferenceIdeal.RefStages.out1 (F := Ideal) e w x W1 b1) (ix1 k)
      = Cert.KernelIdeal.KerStages.meanA (Cert.KernelIdeal.KerStages.aAgg e w x) ix0 * W1 (ix2 (0 : Fin 1) k) + b1 (ix1 k) := by
    rw [mu_eq e w x W1 b1 hx hw hW1 hb1 k, Ker.meanC_apply]
  have hM : IsFin (Cert.KernelIdeal.KerStages.meanA (Cert.KernelIdeal.KerStages.aAgg e w x) ix0) := by
    rw [Ker.meanA_apply]
    exact MomentLaw.mean_fin _ 100000 (fun n => aAgg_fin e w x hx hw n) (by norm_num)
  have hL : ∀ n : Fin 100000,
      Cert.ReferenceIdeal.RefStages.centred (F := Ideal) (Cert.ReferenceIdeal.RefStages.out1 (F := Ideal) e w x W1 b1) (ix2 n k)
        * Cert.ReferenceIdeal.RefStages.centred (F := Ideal) (Cert.ReferenceIdeal.RefStages.out1 (F := Ideal) e w x W1 b1) (ix2 n k)
      = ((Cert.KernelIdeal.KerStages.aAgg e w x (ix1 n) * W1 (ix2 (0 : Fin 1) k) + b1 (ix1 k))
            - Cert.ReferenceIdeal.RefStages.mu (F := Ideal) (Cert.ReferenceIdeal.RefStages.out1 (F := Ideal) e w x W1 b1) (ix1 k))
          * ((Cert.KernelIdeal.KerStages.aAgg e w x (ix1 n) * W1 (ix2 (0 : Fin 1) k) + b1 (ix1 k))
            - Cert.ReferenceIdeal.RefStages.mu (F := Ideal) (Cert.ReferenceIdeal.RefStages.out1 (F := Ideal) e w x W1 b1) (ix1 k)) :=
    fun n => by rw [centred_apply, out1_eq e w x W1 b1 hx hw hW1 n k]
  have hR : ∀ n : Fin 100000,
      Cert.KernelIdeal.KerStages.centred (Cert.KernelIdeal.KerStages.aAgg e w x) (ix1 n)
        * Cert.KernelIdeal.KerStages.centred (Cert.KernelIdeal.KerStages.aAgg e w x) (ix1 n)
      = (Cert.KernelIdeal.KerStages.aAgg e w x (ix1 n) - Cert.KernelIdeal.KerStages.meanA (Cert.KernelIdeal.KerStages.aAgg e w x) ix0)
          * (Cert.KernelIdeal.KerStages.aAgg e w x (ix1 n) - Cert.KernelIdeal.KerStages.meanA (Cert.KernelIdeal.KerStages.aAgg e w x) ix0) :=
    fun n => by rw [Ker.centred_apply]
  rw [var_apply, Ker.varC_apply, Ker.varA_apply, Finset.sum_congr rfl (fun n _ => hL n),
    Finset.sum_congr rfl (fun n _ => hR n)]
  exact MomentLaw.var_bridge (fun n => Cert.KernelIdeal.KerStages.aAgg e w x (ix1 n)) (W1 (ix2 (0 : Fin 1) k)) (b1 (ix1 k))
    _ _ 100000 (fun n => aAgg_fin e w x hx hw n) (hW1 _) (hb1 _) hM hM' (by norm_num)

end

end Cert.Bridge

end
-- ==== Proof.RefBn.lean ====
/-
  The reference's normalisation, rectifier and second product read at an index.

  Over any mean and variance vectors the normalised entry at (n, k) is
  ((o (n, k) - mean k) * rsqrt (var k + eps)) * gamma k + beta k; the rectifier takes the maximum with zero; and the
  second layer's product at (n, j) is the sum over the 64 channels of the rectified entry (n, k) times W2 (k, j).
-/
import proofs.«118177_j11355893531063_2_alg».proof.Proof.RefAgg

noncomputable section

open scoped BigOperators

namespace Cert.Bridge.Ref

open Idealize.ShloMosaic Idealize.ShloMosaic.ValueIdx
open Cert.ReferenceIdeal Cert.ReferenceIdeal.Gen Cert.ReferenceIdeal.RefStages

/-- The host's reciprocal square root, entry by entry. -/
theorem host_rsqrt_apply {s : Shape} {φ : FTy} (x : FVec Ideal s φ) (i : s.Idx) : Host.rsqrt x i = Ideal.rsqrt (x i) := rfl

/-- The normalised entry at (n, k). -/
theorem bnCore_apply (o : FVec Ideal S100000x64 .f32) (mean vr gamma beta : FVec Ideal S64 .f32) (n : Fin 100000) (k : Fin 64) :
    bnCore (F := Ideal) o mean vr gamma beta (ix2 n k)
      = ((o (ix2 n k) - mean (ix1 k)) * Ideal.rsqrt (vr (ix1 k) + Ideal.ofBits .f32 0x3727C5AC#32)) * gamma (ix1 k)
          + beta (ix1 k) := by
  unfold bnCore
  rw [ValueIdx.addf_apply, ValueIdx.mulf_apply, ValueIdx.mulf_apply, ValueIdx.subf_apply, chan_apply, chan_apply, chan_apply,
    chan_apply, host_rsqrt_apply, ValueIdx.addf_apply, ValueIdx.broadcastInDim_scalar_apply, ValueIdx.constant_apply]

/-- The rectified entry. -/
theorem act_apply (y : FVec Ideal S100000x64 .f32) (i : S100000x64.Idx) :
    act (F := Ideal) y i = max (y i) (Ideal.ofBits .f32 0x00000000#32) := by
  unfold act
  rw [ValueIdx.maximumf_apply, ValueIdx.broadcastInDim_scalar_apply, ValueIdx.constant_apply]

/-- The second layer's product at an entry. -/
theorem h2_apply (y : FVec Ideal S100000x64 .f32) (W2 : FVec Ideal S64x2 .f32) (i : S100000x2.Idx) :
    h2 (F := Ideal) y W2 i = ∑ k : Fin 64, y (ix2 (i 0) k) * W2 (ix2 k (i 1)) := by
  unfold h2
  have hd : dot_S100000x64_S64x2_S100000x2_1_0_0_1_n_n = DotDims.plain 100000 64 2 := rfl
  rw [hd, HostDotPlain.dotGeneral_apply]

end Cert.Bridge.Ref

end
-- ==== Proof.BridgeH2.lean ====
/-
  What the region writes is the reference's second-layer product.

  At node n and output column j both are the sum over the 64 channels k of the rectified, normalised first-layer
  entry (n, k) times W2 (k, j). The region rebuilds the first-layer entry as a_n * W1 (0, k) + b1 k from the scalar
  aggregate and normalises it with the per-channel mean and variance it is handed; the reference normalises its
  first convolution with its own column statistics. The entries, the means and the variances agree, so every term of
  the two sums agrees.
-/
import proofs.«118177_j11355893531063_2_alg».proof.Proof.BridgeMoments
import proofs.«118177_j11355893531063_2_alg».proof.Proof.RefBn
import proofs.«118177_j11355893531063_2_alg».proof.Proof.KerFinal

noncomputable section

open scoped BigOperators

namespace Cert.Bridge

open Idealize.ShloMosaic Idealize.ShloMosaic.ValueIdx Cert.LibFinite Cert.FinClosure

/-- One channel's term: the region's rectified, normalised, rebuilt entry is the reference's. -/
theorem term_eq (e : IVec Cert.ReferenceIdeal.S2x1600000 32) (w : FVec Ideal Cert.ReferenceIdeal.S1600000 .f32)
    (x : FVec Ideal Cert.ReferenceIdeal.S100000x1 .f32) (W1 : FVec Ideal Cert.ReferenceIdeal.S1x64 .f32)
    (b1 gamma beta : FVec Ideal Cert.ReferenceIdeal.S64 .f32)
    (hx : AllFin x) (hw : AllFin w) (hW1 : AllFin W1) (hb1 : AllFin b1) (n : Fin 100000) (k : Fin 64) :
    max ((((Cert.KernelIdeal.KerStages.aCol (Cert.KernelIdeal.KerStages.aAgg e w x) (ix2 n (0 : Fin 1)) * W1 (ix2 (0 : Fin 1) k)
              + b1 (ix1 k))
            - Cert.KernelIdeal.KerStages.meanC (Cert.KernelIdeal.KerStages.aAgg e w x) W1 b1 (ix1 k))
          * Ideal.rsqrt (Cert.KernelIdeal.KerStages.varC (Cert.KernelIdeal.KerStages.aAgg e w x) W1 (ix1 k)
              + Ideal.ofBits .f32 0x3727C5AC#32)) * gamma (ix1 k) + beta (ix1 k))
        (Ideal.ofBits .f32 0x00000000#32)
      = Cert.ReferenceIdeal.RefStages.act (F := Ideal)
          (Cert.ReferenceIdeal.RefStages.bn (F := Ideal) (Cert.ReferenceIdeal.RefStages.out1 (F := Ideal) e w x W1 b1) gamma beta)
          (ix2 n k) := by
  rw [Ref.act_apply]
  unfold Cert.ReferenceIdeal.RefStages.bn
  rw [Ref.bnCore_apply, Ker.aCol_apply, out1_eq e w x W1 b1 hx hw hW1, mu_eq e w x W1 b1 hx hw hW1 hb1,
    var_eq e w x W1 b1 hx hw hW1 hb1]

/-- The region's output array, as a function of the program's arguments, is the reference's second-layer
    product. -/
theorem h2_eq (e : IVec Cert.ReferenceIdeal.S2x1600000 32) (w : FVec Ideal Cert.ReferenceIdeal.S1600000 .f32)
    (x : FVec Ideal Cert.ReferenceIdeal.S100000x1 .f32) (W1 : FVec Ideal Cert.ReferenceIdeal.S1x64 .f32)
    (b1 gamma beta : FVec Ideal Cert.ReferenceIdeal.S64 .f32) (W2 : FVec Ideal Cert.ReferenceIdeal.S64x2 .f32)
    (hx : AllFin x) (hw : AllFin w) (hW1 : AllFin W1) (hb1 : AllFin b1) :
    Cert.KernelIdeal.KerValue.G (Cert.KernelIdeal.KerStages.aCol (Cert.KernelIdeal.KerStages.aAgg e w x)) W1 b1
        (Cert.KernelIdeal.KerStages.meanC (Cert.KernelIdeal.KerStages.aAgg e w x) W1 b1)
        (Cert.KernelIdeal.KerStages.varC (Cert.KernelIdeal.KerStages.aAgg e w x) W1) gamma beta W2
      = Cert.ReferenceIdeal.RefStages.h2 (F := Ideal)
          (Cert.ReferenceIdeal.RefStages.act (F := Ideal)
            (Cert.ReferenceIdeal.RefStages.bn (F := Ideal) (Cert.ReferenceIdeal.RefStages.out1 (F := Ideal) e w x W1 b1) gamma beta)) W2 := by
  funext i
  rw [Ref.h2_apply]
  unfold Cert.KernelIdeal.KerValue.G
  beta_reduce
  exact Finset.sum_congr rfl (fun k _ =>
    congrArg (· * W2 (ix2 k (i 1))) (term_eq e w x W1 b1 gamma beta hx hw hW1 hb1 (i 0) k))

end Cert.Bridge

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«118177_j11355893531063_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.PreFin.lean ====
/-
  The precondition read off: every entry of the node features, the edge weights, the first layer's weights and its
  bias is a real number.

  The precondition is the conjunction, over the eight float arguments, of "every |entry| is below +inf". A
  conjunction of one-bit words is 1 exactly when each conjunct is, and an entry whose absolute value is below +inf
  is neither infinity. Only four of the eight conjuncts are needed: the rest of the arguments enter both programs
  through the same operations.
-/
import proofs.«118177_j11355893531063_2_alg».proof.Pre_finite_inputs
import proofs.«118177_j11355893531063_2_alg».proof.Proof.LibFinDecode
import proofs.«118177_j11355893531063_2_alg».proof.Proof.FinClosure
import Idealize.ShloMosaic.Lib.Affine

noncomputable section

namespace Cert.PreFin

open Idealize.ShloMosaic Idealize.ShloMosaic.ValueIdx Cert.LibFinite Cert.LibFinDecode Cert.FinClosure
open Cert.Pre_finite_inputs Cert.Pre_finite_inputs.Facts

variable [Cert.Pre_finite_inputs.Facts]

/-- Under the precondition the node features, the edge weights, W1 and b1 are all real. -/
theorem of_pre (a0 : FVec Ideal S100000x1 .f32) (a1 : IVec S2x1600000 32) (a2 : FVec Ideal S1600000 .f32)
    (a3 : IVec S100000 32) (a4 : FVec Ideal S1x64 .f32) (a5 a6 a7 : FVec Ideal S64 .f32) (a8 : FVec Ideal S64x2 .f32)
    (a9 : FVec Ideal S2 .f32)
    (h : Cert.Pre_finite_inputs.fn (F := Ideal) a0 a1 a2 a3 a4 a5 a6 a7 a8 a9 = fun _ => 1#1) :
    AllFin a0 ∧ AllFin a2 ∧ AllFin a4 ∧ AllFin a5 := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨c0, c2⟩, c4⟩, c5⟩, _⟩, _⟩, _⟩, _⟩ := h0
  exact ⟨fun i => all_fin a0 _ _ _ c0 i, fun i => all_fin a2 _ _ _ c2 i, fun i => all_fin a4 _ _ _ c4 i,
    fun i => all_fin a5 _ _ _ c5 i⟩

end Cert.PreFin

end
-- ==== Proof.Claims.lean ====
/-
  The five claims.

  The word-level kernel's and the idealized kernel's frames are the generated frame certificates; the reference's
  frame is its run with the result dropped; the idealization rewrote no operation, so there is nothing to preserve.
  For the value claim both programs, run from memories that agree on the arguments, end with the same array: the
  tail (second convolution, then the mean over every graph) of the same index vectors, the same normalisation, the
  same batch vector and bias, and of a second-layer product that is the same array in both — in the kernel program
  what its region writes, in the reference the product of the rectified, normalised first convolution with W2
  (equal under the precondition, which makes the features, the edge weights, W1 and b1 real).
-/
import proofs.«118177_j11355893531063_2_alg».proof.Defs
import proofs.«118177_j11355893531063_2_alg».proof.Proof.Gen.Kernel.Frame
import proofs.«118177_j11355893531063_2_alg».proof.Proof.Gen.Pre_finite_inputs
import proofs.«118177_j11355893531063_2_alg».proof.Proof.KerRun
import proofs.«118177_j11355893531063_2_alg».proof.Proof.KerReads
import proofs.«118177_j11355893531063_2_alg».proof.Proof.KerFinal
import proofs.«118177_j11355893531063_2_alg».proof.Proof.RefStages
import proofs.«118177_j11355893531063_2_alg».proof.Proof.BridgeShared
import proofs.«118177_j11355893531063_2_alg».proof.Proof.BridgeH2
import proofs.«118177_j11355893531063_2_alg».proof.Proof.PreFin

noncomputable section

namespace Cert.Proof.Claims

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefStages.run (F := Ideal) m ρ)

theorem preserves : Cert.preserves_Kernel_KernelIdeal := trivial

section Region

open Cert.KernelIdeal Cert.KernelIdeal.Gen Cert.KernelIdeal.KerStages

/-- What the region's output array holds after the run, as a function of the argument arrays: the block function
    of the scalar aggregate (as a column), W1, b1, the per-channel mean and variance, gamma, beta and W2. -/
theorem region_out (m : (ℓ : Loc nD τ sig) → Buf (Elt Ideal) ℓ) (c : Dev nD) :
    (Gen.dats (F := Ideal) m 0 c).arrAt 8 cfg0.N
      = KerValue.G
          (aCol (aAgg (m ((c.tc : Thread nD τ).loc main_arg1)) (m ((c.tc : Thread nD τ).loc main_arg2)) (m ((c.tc : Thread nD τ).loc main_arg0))))
          (m ((c.tc : Thread nD τ).loc main_arg4)) (m ((c.tc : Thread nD τ).loc main_arg5))
          (meanC (aAgg (m ((c.tc : Thread nD τ).loc main_arg1)) (m ((c.tc : Thread nD τ).loc main_arg2)) (m ((c.tc : Thread nD τ).loc main_arg0)))
            (m ((c.tc : Thread nD τ).loc main_arg4)) (m ((c.tc : Thread nD τ).loc main_arg5)))
          (varC (aAgg (m ((c.tc : Thread nD τ).loc main_arg1)) (m ((c.tc : Thread nD τ).loc main_arg2)) (m ((c.tc : Thread nD τ).loc main_arg0)))
            (m ((c.tc : Thread nD τ).loc main_arg4)))
          (m ((c.tc : Thread nD τ).loc main_arg6)) (m ((c.tc : Thread nD τ).loc main_arg7))
          (m ((c.tc : Thread nD τ).loc main_arg8)) := by
  rw [KerValue.final m c, V_main_v59 m c, V_main_v53 m c, V_main_v58 m c, Gen.V_main_arg4 m c, Gen.V_main_arg5 m c,
    Gen.V_main_arg6 m c, Gen.V_main_arg7 m c, Gen.V_main_arg8 m c]

end Region

theorem algebraic : Cert.algebraic_KernelIdeal_ReferenceIdeal := by
  intro m ρ m' ρ' hpre hagree
  refine ⟨_, Cert.KernelIdeal.KerRun.run m ρ _ (fun c => region_out m c), ?_⟩
  refine (θ_run Cert.ReferenceIdeal.defs _ _).mono (fun _ h c => ⟨(h c).1.trans ?_, (h c).2⟩)
    (Cert.ReferenceIdeal.RefStages.run (F := Ideal) m' ρ')
  obtain ⟨hx, hw, hW1, hb1⟩ := Cert.PreFin.of_pre _ _ _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  rw [Cert.Bridge.h2_eq _ _ _ _ _ _ _ _ hx hw hW1 hb1, ← Cert.Bridge.tail_eq, ← Cert.Bridge.sIdx_eq, ← Cert.Bridge.dIdx_eq,
    ← Cert.Bridge.norm_eq]

end Cert.Proof.Claims

end
-- ==== Proof.lean ====
/-
  Two graph-convolution layers with batch normalisation between them, followed by the mean over every graph of a
  batch: a kernel program against its reference, as extended reals.

  Both programs compute, from the edge table and the edge weights, the symmetric normalisation of every edge (self
  loops added), and both end with the same second convolution and the same pooling. They differ in the first layer.
  The reference multiplies the one-column features by the one-row weight W1, gathers the 64-channel rows at the
  edges' sources, scales them and sums them at the targets, then takes the column statistics of the result. The
  kernel program sums the SCALAR messages x (src) * norm at the targets, takes the mean and variance of that scalar
  aggregate a, and lets its one region rebuild a_n * W1 (0, k) + b1 k, normalise it with mean (a) * W1 (0, k) + b1 k
  and var (a) * W1 (0, k)^2, rectify it and multiply by W2. The two first layers agree because the factor W1 (0, k)
  is common to every term of the reference's edge sum, and because mean and variance of an affine image a * w + b
  are mean (a) * w + b and var (a) * w^2; both steps use that the features, the weights, W1 and b1 are real numbers,
  which is what the precondition says. The modules, in order: the kernel's run and its region's value (KerStageDefs,
  KerStages, KerReads, KerRun; KerPayload, KerFinal), the reference's run (RefRun*, RefStageDefs, RefStages*), the
  laws on the reals (MomentLaw) and on arrays of reals (FinClosure, PreFin), the reads of both sides at an index
  (KerAgg, KerMoments, RefAgg, RefMoments, RefBn), the bridge (BridgeShared, BridgeFin, BridgeOut1, BridgeMoments,
  BridgeH2) and the claims (Claims).
-/
import proofs.«118177_j11355893531063_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
